-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v148)) (v2 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v148) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x524288 : Shape := ⟨2, ![2, 524288]⟩
abbrev S16384x256 : Shape := ⟨2, ![16384, 256]⟩
abbrev S16384x16384 : Shape := ⟨2, ![16384, 16384]⟩
abbrev S1 : Shape := ⟨1, ![1]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S1 : S_.BroadcastsInDim S1 (![] : Fin 0 → Fin S1.rank)
  reducesTo_S1_S_d0 : S1.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_
  bcast_S_S2x524288 : S_.BroadcastsInDim S2x524288 (![] : Fin 0 → Fin S2x524288.rank)
  reducesTo_S2x524288_S_d0_1 : S2x524288.ReducesTo [0, 1] S_

variable [Facts]

def fn_part3 {F : FTy → Type} [FloatOps F] (main_v47 : IVec S_ 1) (main_v49 : IVec S2x524288 1) (main_c_19 : IVec S_ 1) : IVec S_ 1 :=
  let main_v50 : IVec S_ 1 := (fun x v => Host.reduce IntOp.andi x v reducesTo_S2x524288_S_d0_1 h_S_) main_v49 main_c_19
  let main_v51 : IVec S_ 1 := andi main_v47 main_v50
  main_v51

def fn_part2 {F : FTy → Type} [FloatOps F] (main_arg0 : IVec S2x524288 32) (main_arg9 : FVec F S256x40 .f32) (main_arg10 : FVec F S40 .f32) (main_v33 : IVec S_ 1) : IVec S_ 1 :=
  let main_v34 : FVec F S256x40 .f32 := Host.absf main_arg9
  let main_cst_12 : FVec F S_ .f32 := constant S_ .f32 0x7F800000#32
  let main_v35 : FVec F S256x40 .f32 := broadcastInDim S256x40 ![] bcast_S_S256x40 main_cst_12
  let main_v36 : IVec S256x40 1 := cmpf .olt main_v34 main_v35
  let main_c_13 : IVec S_ 1 := constantI S_ 1 1#1
  let main_v37 : IVec S_ 1 := (fun x v => Host.reduce IntOp.andi x v reducesTo_S256x40_S_d0_1 h_S_) main_v36 main_c_13
  let main_v38 : IVec S_ 1 := andi main_v33 main_v37
  let main_v39 : FVec F S40 .f32 := Host.absf main_arg10
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_c_16 : IVec S_ 32 := constantI S_ 32 0#32
  let main_v44 : IVec S2x524288 32 := broadcastInDim S2x524288 ![] bcast_S_S2x524288 main_c_16
  let main_v45 : IVec S2x524288 1 := cmpi .sge main_arg0 main_v44
  let main_c_17 : IVec S_ 1 := constantI S_ 1 1#1
  let main_v46 : IVec S_ 1 := (fun x v => Host.reduce IntOp.andi x v reducesTo_S2x524288_S_d0_1 h_S_) main_v45 main_c_17
  let main_v47 : IVec S_ 1 := andi main_v43 main_v46
  let main_c_18 : IVec S_ 32 := constantI S_ 32 16384#32
  let main_v48 : IVec S2x524288 32 := broadcastInDim S2x524288 ![] bcast_S_S2x524288 main_c_18
  let main_v49 : IVec S2x524288 1 := cmpi .slt main_arg0 main_v48
  let main_c_19 : IVec S_ 1 := constantI S_ 1 1#1
  fn_part3 (F := F) main_v47 main_v49 main_c_19

def fn_part1 {F : FTy → Type} [FloatOps F] (main_arg0 : IVec S2x524288 32) (main_arg6 : FVec F S256 .f32) (main_arg7 : FVec F S256x256 .f32) (main_arg8 : FVec F S256 .f32) (main_arg9 : FVec F S256x40 .f32) (main_arg10 : FVec F S40 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg9 main_arg10 main_v33

def fn {F : FTy → Type} [FloatOps F] (main_arg0 : IVec S2x524288 32) (main_arg1 : IVec S2x524288 32) (main_arg2 : FVec F S16384x256 .f32) (main_arg3 : FVec F S16384x16384 .f32) (main_arg4 : FVec F S1 .f32) (main_arg5 : FVec F S256x256 .f32) (main_arg6 : FVec F S256 .f32) (main_arg7 : FVec F S256x256 .f32) (main_arg8 : FVec F S256 .f32) (main_arg9 : FVec F S256x40 .f32) (main_arg10 : FVec F S40 .f32) : IVec S_ 1 :=
  let main_v0 : FVec F S16384x256 .f32 := Host.absf main_arg2
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x16384 .f32 := Host.absf main_arg3
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg0 main_arg6 main_arg7 main_arg8 main_arg9 main_arg10 main_v13 main_v16
-- ==== Kernel.lean ====
abbrev S2x524288 : Shape := ⟨2, ![2, 524288]⟩
abbrev S16384x256 : Shape := ⟨2, ![16384, 256]⟩
abbrev S16384x16384 : Shape := ⟨2, ![16384, 16384]⟩
abbrev S1 : Shape := ⟨1, ![1]⟩
abbrev S256x256 : Shape := ⟨2, ![256, 256]⟩
abbrev S256 : Shape := ⟨1, ![256]⟩
abbrev S256x40 : Shape := ⟨2, ![256, 40]⟩
abbrev S40 : Shape := ⟨1, ![40]⟩
abbrev S1x524288 : Shape := ⟨2, ![1, 524288]⟩
abbrev S524288 : Shape := ⟨1, ![524288]⟩
abbrev S16384 : Shape := ⟨1, ![16384]⟩
abbrev S540672 : Shape := ⟨1, ![540672]⟩
abbrev S_ : Shape := ⟨0, ![]⟩
abbrev S540672x1 : Shape := ⟨2, ![540672, 1]⟩
abbrev S540672x2 : Shape := ⟨2, ![540672, 2]⟩
abbrev S2048x256 : Shape := ⟨2, ![2048, 256]⟩
abbrev S1x256 : Shape := ⟨2, ![1, 256]⟩
abbrev S256x16384 : Shape := ⟨2, ![256, 16384]⟩
abbrev S16384x1 : Shape := ⟨2, ![16384, 1]⟩
abbrev S1x40 : Shape := ⟨2, ![1, 40]⟩
abbrev S16384x40 : Shape := ⟨2, ![16384, 40]⟩
abbrev S2048x40 : Shape := ⟨2, ![2048, 40]⟩
abbrev S524288x1 : Shape := ⟨2, ![524288, 1]⟩
abbrev S524288x256 : Shape := ⟨2, ![524288, 256]⟩
abbrev S524288x2 : Shape := ⟨2, ![524288, 2]⟩

abbrev nBuf : Space → Nat
  | .hbm => 211
  | .vmem => 28
  | .smem => 0
  | _ => 0

abbrev hbmTy0_0 (i : Nat) : BufTy := match i % 128 with
  | 0 => ⟨S2x524288, .i32⟩
  | 1 => ⟨S2x524288, .i32⟩
  | 2 => ⟨S16384x256, .f32⟩
  | 3 => ⟨S16384x16384, .f32⟩
  | 4 => ⟨S1, .f32⟩
  | 5 => ⟨S256x256, .f32⟩
  | 6 => ⟨S256, .f32⟩
  | 7 => ⟨S256x256, .f32⟩
  | 8 => ⟨S256, .f32⟩
  | 9 => ⟨S256x40, .f32⟩
  | 10 => ⟨S40, .f32⟩
  | 11 => ⟨S1x524288, .i32⟩
  | 12 => ⟨S524288, .i32⟩
  | 13 => ⟨S1x524288, .i32⟩
  | 14 => ⟨S524288, .i32⟩
  | 15 => ⟨S16384, .i32⟩
  | 16 => ⟨S540672, .i32⟩
  | 17 => ⟨S540672, .i32⟩
  | 18 => ⟨S_, .f32⟩
  | 19 => ⟨S540672, .f32⟩
  | 20 => ⟨S_, .f32⟩
  | 21 => ⟨S16384, .f32⟩
  | 22 => ⟨S540672x1, .i32⟩
  | 23 => ⟨S16384, .f32⟩
  | 24 => ⟨S_, .f32⟩
  | 25 => ⟨S16384, .f32⟩
  | 26 => ⟨S16384, .i1⟩
  | 27 => ⟨S_, .f32⟩
  | 28 => ⟨S16384, .f32⟩
  | 29 => ⟨S16384, .f32⟩
  | 30 => ⟨S_, .f32⟩
  | 31 => ⟨S_, .f32⟩
  | 32 => ⟨S16384, .f32⟩
  | 33 => ⟨S16384, .f32⟩
  | 34 => ⟨S_, .i32⟩
  | 35 => ⟨S540672, .i32⟩
  | 36 => ⟨S540672, .i1⟩
  | 37 => ⟨S_, .i32⟩
  | 38 => ⟨S540672, .i32⟩
  | 39 => ⟨S540672, .i32⟩
  | 40 => ⟨S540672, .i32⟩
  | 41 => ⟨S540672x1, .i32⟩
  | 42 => ⟨S540672, .f32⟩
  | 43 => ⟨S_, .i32⟩
  | 44 => ⟨S540672, .i32⟩
  | 45 => ⟨S540672, .i1⟩
  | 46 => ⟨S_, .i32⟩
  | 47 => ⟨S540672, .i32⟩
  | 48 => ⟨S540672, .i32⟩
  | 49 => ⟨S540672, .i32⟩
  | 50 => ⟨S540672x1, .i32⟩
  | 51 => ⟨S540672, .f32⟩
  | 52 => ⟨S540672, .f32⟩
  | 53 => ⟨S_, .f32⟩
  | 54 => ⟨S16384x16384, .f32⟩
  | 55 => ⟨S_, .i32⟩
  | 56 => ⟨S540672, .i32⟩
  | 57 => ⟨S540672, .i1⟩
  | 58 => ⟨S_, .i32⟩
  | 59 => ⟨S540672, .i32⟩
  | 60 => ⟨S540672, .i32⟩
  | 61 => ⟨S540672, .i32⟩
  | 62 => ⟨S_, .i32⟩
  | 63 => ⟨S540672, .i32⟩
  | 64 => ⟨S540672, .i1⟩
  | 65 => ⟨S_, .i32⟩
  | 66 => ⟨S540672, .i32⟩
  | 67 => ⟨S540672, .i32⟩
  | 68 => ⟨S540672, .i32⟩
  | 69 => ⟨S540672x1, .i32⟩
  | 70 => ⟨S540672x1, .i32⟩
  | 71 => ⟨S540672x2, .i32⟩
  | 72 => ⟨S16384x16384, .f32⟩
  | 73 => ⟨S16384x16384, .bf16⟩
  | 74 => ⟨S16384x256, .bf16⟩
  | 75 => ⟨S256x256, .bf16⟩
  | 76 => ⟨S16384x256, .f32⟩
  | 77 => ⟨S16384x256, .bf16⟩
  | 78 => ⟨S1x256, .f32⟩
  | 79 => ⟨S16384x256, .f32⟩
  | 80 => ⟨S16384x256, .bf16⟩
  | 81 => ⟨S256x256, .bf16⟩
  | 82 => ⟨S16384x256, .f32⟩
  | 83 => ⟨S16384x256, .bf16⟩
  | 84 => ⟨S1x256, .f32⟩
  | 85 => ⟨S16384x256, .f32⟩
  | 86 => ⟨S16384x256, .f32⟩
  | 87 => ⟨S_, .f32⟩
  | 88 => ⟨S16384, .f32⟩
  | 89 => ⟨S16384x1, .f32⟩
  | 90 => ⟨S16384x1, .f32⟩
  | 91 => ⟨S_, .f32⟩
  | 92 => ⟨S16384x1, .f32⟩
  | 93 => ⟨S16384x1, .f32⟩
  | 94 => ⟨S16384x256, .f32⟩
  | 95 => ⟨S16384x256, .f32⟩
  | 96 => ⟨S16384x256, .f32⟩
  | 97 => ⟨S_, .f32⟩
  | 98 => ⟨S16384, .f32⟩
  | 99 => ⟨S16384x1, .f32⟩
  | 100 => ⟨S16384x1, .f32⟩
  | 101 => ⟨S_, .f32⟩
  | 102 => ⟨S16384x1, .f32⟩
  | 103 => ⟨S16384x1, .f32⟩
  | 104 => ⟨S16384x256, .f32⟩
  | 105 => ⟨S16384x256, .f32⟩
  | 106 => ⟨S16384x256, .bf16⟩
  | 107 => ⟨S256x40, .bf16⟩
  | 108 => ⟨S1x40, .f32⟩
  | 109 => ⟨S16384x40, .f32⟩
  | 110 => ⟨S524288, .i1⟩
  | 111 => ⟨S524288, .f32⟩
  | 112 => ⟨S1x524288, .i32⟩
  | 113 => ⟨S524288, .i32⟩
  | 114 => ⟨S1x524288, .i32⟩
  | 115 => ⟨S524288, .i32⟩
  | 116 => ⟨S524288, .i1⟩
  | 117 => ⟨S524288, .f32⟩
  | 118 => ⟨S_, .i32⟩
  | 119 => ⟨S524288, .i32⟩
  | 120 => ⟨S524288, .i1⟩
  | 121 => ⟨S_, .i32⟩
  | 122 => ⟨S524288, .i32⟩
  | 123 => ⟨S524288, .i32⟩
  | 124 => ⟨S524288, .i32⟩
  | 125 => ⟨S524288x1, .i32⟩
  | 126 => ⟨S524288x256, .f32⟩
  | 127 => ⟨S_, .i32⟩
  | _ => ⟨S2x524288, .i32⟩

abbrev hbmTy0_1 (i : Nat) : BufTy := match i % 128 with
  | 0 => ⟨S524288, .i32⟩
  | 1 => ⟨S524288, .i1⟩
  | 2 => ⟨S_, .i32⟩
  | 3 => ⟨S524288, .i32⟩
  | 4 => ⟨S524288, .i32⟩
  | 5 => ⟨S524288, .i32⟩
  | 6 => ⟨S524288x1, .i32⟩
  | 7 => ⟨S524288x256, .f32⟩
  | 8 => ⟨S524288x256, .f32⟩
  | 9 => ⟨S_, .f32⟩
  | 10 => ⟨S524288, .f32⟩
  | 11 => ⟨S_, .f32⟩
  | 12 => ⟨S524288, .f32⟩
  | 13 => ⟨S524288, .f32⟩
  | 14 => ⟨S_, .i32⟩
  | 15 => ⟨S524288, .i32⟩
  | 16 => ⟨S524288, .i1⟩
  | 17 => ⟨S_, .i32⟩
  | 18 => ⟨S524288, .i32⟩
  | 19 => ⟨S524288, .i32⟩
  | 20 => ⟨S524288, .i32⟩
  | 21 => ⟨S524288x1, .i32⟩
  | 22 => ⟨S524288x256, .f32⟩
  | 23 => ⟨S_, .i32⟩
  | 24 => ⟨S524288, .i32⟩
  | 25 => ⟨S524288, .i1⟩
  | 26 => ⟨S_, .i32⟩
  | 27 => ⟨S524288, .i32⟩
  | 28 => ⟨S524288, .i32⟩
  | 29 => ⟨S524288, .i32⟩
  | 30 => ⟨S524288x1, .i32⟩
  | 31 => ⟨S524288x256, .f32⟩
  | 32 => ⟨S524288x256, .f32⟩
  | 33 => ⟨S_, .f32⟩
  | 34 => ⟨S524288, .f32⟩
  | 35 => ⟨S_, .f32⟩
  | 36 => ⟨S524288, .f32⟩
  | 37 => ⟨S524288, .f32⟩
  | 38 => ⟨S_, .i32⟩
  | 39 => ⟨S524288, .i32⟩
  | 40 => ⟨S524288, .i1⟩
  | 41 => ⟨S_, .i32⟩
  | 42 => ⟨S524288, .i32⟩
  | 43 => ⟨S524288, .i32⟩
  | 44 => ⟨S524288, .i32⟩
  | 45 => ⟨S_, .i32⟩
  | 46 => ⟨S524288, .i32⟩
  | 47 => ⟨S524288, .i1⟩
  | 48 => ⟨S_, .i32⟩
  | 49 => ⟨S524288, .i32⟩
  | 50 => ⟨S524288, .i32⟩
  | 51 => ⟨S524288, .i32⟩
  | 52 => ⟨S524288x1, .i32⟩
  | 53 => ⟨S524288x1, .i32⟩
  | 54 => ⟨S524288x2, .i32⟩
  | 55 => ⟨S524288, .f32⟩
  | 56 => ⟨S_, .f32⟩
  | 57 => ⟨S524288, .f32⟩
  | 58 => ⟨S524288, .f32⟩
  | 59 => ⟨S_, .f32⟩
  | 60 => ⟨S524288, .f32⟩
  | 61 => ⟨S524288, .f32⟩
  | 62 => ⟨S524288, .f32⟩
  | 63 => ⟨S_, .f32⟩
  | 64 => ⟨S524288, .f32⟩
  | 65 => ⟨S524288, .f32⟩
  | 66 => ⟨S_, .f32⟩
  | 67 => ⟨S_, .f32⟩
  | 68 => ⟨S524288, .f32⟩
  | 69 => ⟨S524288, .f32⟩
  | 70 => ⟨S524288, .f32⟩
  | 71 => ⟨S524288, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | _ => ⟨S2x524288, .i32⟩

abbrev hbmTy (i : Nat) : BufTy := match i / 128 with
  | 0 => hbmTy0_0 i
  | 1 => hbmTy0_1 i
  | _ => ⟨S2x524288, .i32⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S2048x256, .f32⟩
  | .local _ .vmem, ⟨4, _⟩ => ⟨S2048x256, .f32⟩
  | .local _ .vmem, ⟨5, _⟩ => ⟨S256x16384, .bf16⟩
  | .local _ .vmem, ⟨6, _⟩ => ⟨S256x16384, .bf16⟩
  | .local _ .vmem, ⟨7, _⟩ => ⟨S16384x256, .bf16⟩
  | .local _ .vmem, ⟨8, _⟩ => ⟨S1x256, .f32⟩
  | .local _ .vmem, ⟨9, _⟩ => ⟨S256x256, .f32⟩
  | .local _ .vmem, ⟨10, _⟩ => ⟨S256x256, .f32⟩
  | .local _ .vmem, ⟨11, _⟩ => ⟨S2048x256, .bf16⟩
  | .local _ .vmem, ⟨12, _⟩ => ⟨S2048x256, .bf16⟩
  | .local _ .vmem, ⟨13, _⟩ => ⟨S256x256, .bf16⟩
  | .local _ .vmem, ⟨14, _⟩ => ⟨S2048x256, .f32⟩
  | .local _ .vmem, ⟨15, _⟩ => ⟨S2048x256, .f32⟩
  | .local _ .vmem, ⟨16, _⟩ => ⟨S256x16384, .bf16⟩
  | .local _ .vmem, ⟨17, _⟩ => ⟨S256x16384, .bf16⟩
  | .local _ .vmem, ⟨18, _⟩ => ⟨S16384x256, .bf16⟩
  | .local _ .vmem, ⟨19, _⟩ => ⟨S1x256, .f32⟩
  | .local _ .vmem, ⟨20, _⟩ => ⟨S256x256, .f32⟩
  | .local _ .vmem, ⟨21, _⟩ => ⟨S256x256, .f32⟩
  | .local _ .vmem, ⟨22, _⟩ => ⟨S2048x256, .bf16⟩
  | .local _ .vmem, ⟨23, _⟩ => ⟨S2048x256, .bf16⟩
  | .local _ .vmem, ⟨24, _⟩ => ⟨S256x40, .bf16⟩
  | .local _ .vmem, ⟨25, _⟩ => ⟨S1x40, .f32⟩
  | .local _ .vmem, ⟨26, _⟩ => ⟨S2048x40, .f32⟩
  | .local _ .vmem, ⟨27, _⟩ => ⟨S2048x40, .f32⟩
  | _, _ => ⟨S2x524288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_c_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_c_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_v0 : Ref sig .tc := ⟨.hbm, 86, rfl⟩
abbrev main_call1_cst : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call2_v0 : Ref sig .tc := ⟨.hbm, 96, rfl⟩
abbrev main_call2_cst : Ref sig .tc := ⟨.hbm, 97, rfl⟩
abbrev main_call2_v1 : Ref sig .tc := ⟨.hbm, 98, rfl⟩
abbrev main_call2_v2 : Ref sig .tc := ⟨.hbm, 99, rfl⟩
abbrev main_v64 : Ref sig .tc := ⟨.hbm, 100, rfl⟩
abbrev main_cst_13 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_14 : Ref sig .tc := ⟨.hbm, 118, rfl⟩
abbrev main_v81 : Ref sig .tc := ⟨.hbm, 119, rfl⟩
abbrev main_v82 : Ref sig .tc := ⟨.hbm, 120, rfl⟩
abbrev main_c_15 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_16 : Ref sig .tc := ⟨.hbm, 127, rfl⟩
abbrev main_v88 : Ref sig .tc := ⟨.hbm, 128, rfl⟩
abbrev main_v89 : Ref sig .tc := ⟨.hbm, 129, rfl⟩
abbrev main_c_17 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_18 : Ref sig .tc := ⟨.hbm, 137, rfl⟩
abbrev main_v96 : Ref sig .tc := ⟨.hbm, 138, rfl⟩
abbrev main_call3_cst : Ref sig .tc := ⟨.hbm, 139, rfl⟩
abbrev main_call3_v0 : Ref sig .tc := ⟨.hbm, 140, rfl⟩
abbrev main_v97 : Ref sig .tc := ⟨.hbm, 141, rfl⟩
abbrev main_c_19 : Ref sig .tc := ⟨.hbm, 142, rfl⟩
abbrev main_v98 : Ref sig .tc := ⟨.hbm, 143, rfl⟩
abbrev main_v99 : Ref sig .tc := ⟨.hbm, 144, rfl⟩
abbrev main_c_20 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_21 : Ref sig .tc := ⟨.hbm, 151, rfl⟩
abbrev main_v105 : Ref sig .tc := ⟨.hbm, 152, rfl⟩
abbrev main_v106 : Ref sig .tc := ⟨.hbm, 153, rfl⟩
abbrev main_c_22 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_23 : Ref sig .tc := ⟨.hbm, 161, rfl⟩
abbrev main_v113 : Ref sig .tc := ⟨.hbm, 162, rfl⟩
abbrev main_call4_cst : Ref sig .tc := ⟨.hbm, 163, rfl⟩
abbrev main_call4_v0 : Ref sig .tc := ⟨.hbm, 164, rfl⟩
abbrev main_v114 : Ref sig .tc := ⟨.hbm, 165, rfl⟩
abbrev main_c_24 : Ref sig .tc := ⟨.hbm, 166, rfl⟩
abbrev main_v115 : Ref sig .tc := ⟨.hbm, 167, rfl⟩
abbrev main_v116 : Ref sig .tc := ⟨.hbm, 168, rfl⟩
abbrev main_c_25 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_c_26 : Ref sig .tc := ⟨.hbm, 173, rfl⟩
abbrev main_v120 : Ref sig .tc := ⟨.hbm, 174, rfl⟩
abbrev main_v121 : Ref sig .tc := ⟨.hbm, 175, rfl⟩
abbrev main_c_27 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_28 : Ref sig .tc := ⟨.hbm, 184, rfl⟩
abbrev main_v129 : Ref sig .tc := ⟨.hbm, 185, rfl⟩
abbrev main_v130 : Ref sig .tc := ⟨.hbm, 186, rfl⟩
abbrev main_cst_29 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_30 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_31 : Ref sig .tc := ⟨.hbm, 200, rfl⟩
abbrev main_v142 : Ref sig .tc := ⟨.hbm, 201, rfl⟩
abbrev main_v143 : Ref sig .tc := ⟨.hbm, 202, rfl⟩
abbrev main_cst_32 : Ref sig .tc := ⟨.hbm, 203, rfl⟩
abbrev main_v144 : Ref sig .tc := ⟨.hbm, 204, rfl⟩
abbrev main_cst_33 : Ref sig .tc := ⟨.hbm, 205, rfl⟩
abbrev main_v145 : Ref sig .tc := ⟨.hbm, 206, rfl⟩
abbrev main_cst_34 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x16384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x16384 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16384x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x40 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2048x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S16384_S540672_d0 : Shape.Concatenates [S524288, S16384] S540672 0
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S_S16384x16384 : S_.BroadcastsInDim S16384x16384 (![] : Fin 0 → Fin S16384x16384.rank)
  concatenates_S540672x1_S540672x1_S540672x2_d1 : Shape.Concatenates [S540672x1, S540672x1] S540672x2 1
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S1x256 : S256.ShapeCasts S1x256
  inb_S256x16384_S256x16384_0_0 : ∀ a, (![0, 0] : Fin 2 → Nat) a + S256x16384.size a ≤ S256x16384.size a
  h_S256x16384 : 0 < S256x16384.numel
  shapeCasts_S256x16384_S256x16384 : S256x16384.ShapeCasts S256x16384
  inb_S16384x256_S16384x256_0_0 : ∀ a, (![0, 0] : Fin 2 → Nat) a + S16384x256.size a ≤ S16384x256.size a
  h_S16384x256 : 0 < S16384x256.numel
  shapeCasts_S16384x256_S16384x256 : S16384x256.ShapeCasts S16384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  shapeCasts_S40_S1x40 : S40.ShapeCasts S1x40
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2048x40 : S1x40.Broadcasts S2048x40
  inb_S2048x40_S2048x40_0_0 : ∀ a, (![0, 0] : Fin 2 → Nat) a + S2048x40.size a ≤ S2048x40.size a
  h_S2048x40 : 0 < S2048x40.numel
  bcast_S_S524288 : S_.BroadcastsInDim S524288 (![] : Fin 0 → Fin S524288.rank)
  bcast_S524288_S524288x1_0 : S524288.BroadcastsInDim S524288x1 (![0] : Fin 1 → Fin S524288x1.rank)
  reducesTo_S524288x256_S524288_d1 : S524288x256.ReducesTo [1] S524288
  concatenates_S524288x1_S524288x1_S524288x2_d1 : Shape.Concatenates [S524288x1, S524288x1] S524288x2 1
  shapeCasts_S1_S_ : S1.ShapeCasts S_
  reducesTo_S524288_S_d0 : S524288.ReducesTo [0] S_
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  scatter_S16384x16384_S540672x2_S540672_n_01_01_1_wf : ScatterDims.WF S16384x16384 S540672x2 S540672 [] [0, 1] [0, 1] 1
  dot_S2048x256_S256x256_S2048x256_1_0_0_1_n_n_wf : DotDims.WF S2048x256 S256x256 S2048x256 [1] [0] [0] [1] [] []
  dot_S256x16384_S16384x256_S256x256_1_0_0_1_n_n_wf : DotDims.WF S256x16384 S16384x256 S256x256 [1] [0] [0] [1] [] []
  dot_S2048x256_S256x40_S2048x40_1_0_0_1_n_n_wf : DotDims.WF S2048x256 S256x40 S2048x40 [1] [0] [0] [1] [] []
  gather_S16384x256_S524288x1_S524288x256_1_0_n_n_0_1_1256_wf : GatherDims.WF S16384x256 S524288x1 S524288x256 [1] [0] [] [0] [] 1 ![1, 256]
  gather_S16384x16384_S524288x2_S524288_n_01_n_n_01_1_11_wf : GatherDims.WF S16384x16384 S524288x2 S524288 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .bf16 = 32 ∨ (Rect.block (s := S16384x256) S2048x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x16384.size a ≤ S16384x16384.size a
  hwx1_0 : ∀ i : grid1.Coords, EltTy.bits .bf16 = 32 ∨ (Rect.block (s := S16384x16384) S256x16384.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x256.size a ≤ S16384x256.size a
  hwx1_1 : ∀ i : grid1.Coords, EltTy.bits .bf16 = 32 ∨ (Rect.block (s := S16384x256) S16384x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S16384x256.size a
  hwx1_3 : ∀ i : grid1.Coords, EltTy.bits .f32 = 32 ∨ (Rect.block (s := S16384x256) S256x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S16384x256.size a
  hwx2_0 : ∀ i : grid2.Coords, EltTy.bits .bf16 = 32 ∨ (Rect.block (s := S16384x256) S2048x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S16384x256.size a
  hwx2_2 : ∀ i : grid2.Coords, EltTy.bits .f32 = 32 ∨ (Rect.block (s := S16384x256) S2048x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x16384.size a ≤ S16384x16384.size a
  hwx3_0 : ∀ i : grid3.Coords, EltTy.bits .bf16 = 32 ∨ (Rect.block (s := S16384x16384) S256x16384.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16384x256.size a ≤ S16384x256.size a
  hwx3_1 : ∀ i : grid3.Coords, EltTy.bits .bf16 = 32 ∨ (Rect.block (s := S16384x256) S16384x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S16384x256.size a
  hwx3_3 : ∀ i : grid3.Coords, EltTy.bits .f32 = 32 ∨ (Rect.block (s := S16384x256) S256x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S16384x256.size a
  hwx4_0 : ∀ i : grid4.Coords, EltTy.bits .bf16 = 32 ∨ (Rect.block (s := S16384x256) S2048x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x40.size a ≤ S256x40.size a
  hwx4_1 : ∀ i : grid4.Coords, EltTy.bits .bf16 = 32 ∨ (Rect.block (s := S256x40) S256x40.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x40.size a ≤ S16384x40.size a
  hwx4_3 : ∀ i : grid4.Coords, EltTy.bits .f32 = 32 ∨ (Rect.block (s := S16384x40) S2048x40.size (cc4_transform_3 i) (hinb4_3 i)).WholeWords (EltTy.packing .f32)

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def scatter_S16384x16384_S540672x2_S540672_n_01_01_1 : ScatterDims S16384x16384 S540672x2 S540672 where
  updateWindowDims := []
  insertedWindowDims := [0, 1]
  scatterDimsToOperandDims := [0, 1]
  indexVectorDim := 1
  wf := scatter_S16384x16384_S540672x2_S540672_n_01_01_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S256x16384_S16384x256_S256x256_1_0_0_1_n_n : DotDims S256x16384 S16384x256 S256x256 where
  lhsContracting := [1]
  rhsContracting := [0]
  lhsNonContracting := [0]
  rhsNonContracting := [1]
  lhsBatch := []
  rhsBatch := []
  wf := dot_S256x16384_S16384x256_S256x256_1_0_0_1_n_n_wf
def dot_S2048x256_S256x40_S2048x40_1_0_0_1_n_n : DotDims S2048x256 S256x40 S2048x40 where
  lhsContracting := [1]
  rhsContracting := [0]
  lhsNonContracting := [0]
  rhsNonContracting := [1]
  lhsBatch := []
  rhsBatch := []
  wf := dot_S2048x256_S256x40_S2048x40_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def gather_S16384x16384_S524288x2_S524288_n_01_n_n_01_1_11 : GatherDims S16384x16384 S524288x2 S524288 where
  offsetDims := []
  collapsedSliceDims := [0, 1]
  operandBatchingDims := []
  startIndicesBatchingDims := []
  startIndexMap := [0, 1]
  indexVectorDim := 1
  sliceSizes := ![1, 1]
  wf := gather_S16384x16384_S524288x2_S524288_n_01_n_n_01_1_11_wf

abbrev win0_0 : Pipeline.Window sig grid0 :=
  Pipeline.Window.ofSpec (Memref.whole main_v47) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S256x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S16384x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v53) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S2048x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S256x16384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S16384x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S256x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v69) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S256x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S2048x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x524288 : Shape := ⟨2, ![2, 524288]⟩
abbrev S16384x256 : Shape := ⟨2, ![16384, 256]⟩
abbrev S16384x16384 : Shape := ⟨2, ![16384, 16384]⟩
abbrev S1 : Shape := ⟨1, ![1]⟩
abbrev S256x256 : Shape := ⟨2, ![256, 256]⟩
abbrev S256 : Shape := ⟨1, ![256]⟩
abbrev S256x40 : Shape := ⟨2, ![256, 40]⟩
abbrev S40 : Shape := ⟨1, ![40]⟩
abbrev S1x524288 : Shape := ⟨2, ![1, 524288]⟩
abbrev S524288 : Shape := ⟨1, ![524288]⟩
abbrev S16384 : Shape := ⟨1, ![16384]⟩
abbrev S540672 : Shape := ⟨1, ![540672]⟩
abbrev S_ : Shape := ⟨0, ![]⟩
abbrev S540672x1 : Shape := ⟨2, ![540672, 1]⟩
abbrev S540672x256 : Shape := ⟨2, ![540672, 256]⟩
abbrev S1x256 : Shape := ⟨2, ![1, 256]⟩
abbrev S16384x1 : Shape := ⟨2, ![16384, 1]⟩
abbrev S16384x40 : Shape := ⟨2, ![16384, 40]⟩
abbrev S1x40 : Shape := ⟨2, ![1, 40]⟩
abbrev S524288x1 : Shape := ⟨2, ![524288, 1]⟩
abbrev S524288x256 : Shape := ⟨2, ![524288, 256]⟩
abbrev S524288x2 : Shape := ⟨2, ![524288, 2]⟩

abbrev nBuf : Space → Nat
  | .hbm => 261
  | .vmem => 0
  | .smem => 0
  | _ => 0

abbrev hbmTy0_0 (i : Nat) : BufTy := match i % 128 with
  | 0 => ⟨S2x524288, .i32⟩
  | 1 => ⟨S2x524288, .i32⟩
  | 2 => ⟨S16384x256, .f32⟩
  | 3 => ⟨S16384x16384, .f32⟩
  | 4 => ⟨S1, .f32⟩
  | 5 => ⟨S256x256, .f32⟩
  | 6 => ⟨S256, .f32⟩
  | 7 => ⟨S256x256, .f32⟩
  | 8 => ⟨S256, .f32⟩
  | 9 => ⟨S256x40, .f32⟩
  | 10 => ⟨S40, .f32⟩
  | 11 => ⟨S1x524288, .i32⟩
  | 12 => ⟨S524288, .i32⟩
  | 13 => ⟨S1x524288, .i32⟩
  | 14 => ⟨S524288, .i32⟩
  | 15 => ⟨S16384, .i32⟩
  | 16 => ⟨S540672, .i32⟩
  | 17 => ⟨S540672, .i32⟩
  | 18 => ⟨S_, .f32⟩
  | 19 => ⟨S540672, .f32⟩
  | 20 => ⟨S_, .f32⟩
  | 21 => ⟨S16384, .f32⟩
  | 22 => ⟨S540672x1, .i32⟩
  | 23 => ⟨S16384, .f32⟩
  | 24 => ⟨S_, .f32⟩
  | 25 => ⟨S16384, .f32⟩
  | 26 => ⟨S16384, .i1⟩
  | 27 => ⟨S_, .f32⟩
  | 28 => ⟨S16384, .f32⟩
  | 29 => ⟨S16384, .f32⟩
  | 30 => ⟨S_, .f32⟩
  | 31 => ⟨S_, .f32⟩
  | 32 => ⟨S16384, .f32⟩
  | 33 => ⟨S16384, .f32⟩
  | 34 => ⟨S_, .i32⟩
  | 35 => ⟨S540672, .i32⟩
  | 36 => ⟨S540672, .i1⟩
  | 37 => ⟨S_, .i32⟩
  | 38 => ⟨S540672, .i32⟩
  | 39 => ⟨S540672, .i32⟩
  | 40 => ⟨S540672, .i32⟩
  | 41 => ⟨S540672x1, .i32⟩
  | 42 => ⟨S540672, .f32⟩
  | 43 => ⟨S540672, .f32⟩
  | 44 => ⟨S_, .i32⟩
  | 45 => ⟨S540672, .i32⟩
  | 46 => ⟨S540672, .i1⟩
  | 47 => ⟨S_, .i32⟩
  | 48 => ⟨S540672, .i32⟩
  | 49 => ⟨S540672, .i32⟩
  | 50 => ⟨S540672, .i32⟩
  | 51 => ⟨S540672x1, .i32⟩
  | 52 => ⟨S540672, .f32⟩
  | 53 => ⟨S540672, .f32⟩
  | 54 => ⟨S16384x256, .f32⟩
  | 55 => ⟨S540672x1, .f32⟩
  | 56 => ⟨S_, .i32⟩
  | 57 => ⟨S540672, .i32⟩
  | 58 => ⟨S540672, .i1⟩
  | 59 => ⟨S_, .i32⟩
  | 60 => ⟨S540672, .i32⟩
  | 61 => ⟨S540672, .i32⟩
  | 62 => ⟨S540672, .i32⟩
  | 63 => ⟨S540672x1, .i32⟩
  | 64 => ⟨S540672x256, .f32⟩
  | 65 => ⟨S540672x256, .f32⟩
  | 66 => ⟨S540672x256, .f32⟩
  | 67 => ⟨S_, .f32⟩
  | 68 => ⟨S16384x256, .f32⟩
  | 69 => ⟨S540672x1, .i32⟩
  | 70 => ⟨S16384x256, .f32⟩
  | 71 => ⟨S1x256, .f32⟩
  | 72 => ⟨S16384x256, .f32⟩
  | 73 => ⟨S16384x256, .f32⟩
  | 74 => ⟨S_, .f32⟩
  | 75 => ⟨S16384x256, .f32⟩
  | 76 => ⟨S16384x256, .f32⟩
  | 77 => ⟨S16384, .i32⟩
  | 78 => ⟨S540672, .i32⟩
  | 79 => ⟨S540672, .i32⟩
  | 80 => ⟨S_, .f32⟩
  | 81 => ⟨S540672, .f32⟩
  | 82 => ⟨S_, .f32⟩
  | 83 => ⟨S16384, .f32⟩
  | 84 => ⟨S540672x1, .i32⟩
  | 85 => ⟨S16384, .f32⟩
  | 86 => ⟨S_, .f32⟩
  | 87 => ⟨S16384, .f32⟩
  | 88 => ⟨S16384, .i1⟩
  | 89 => ⟨S_, .f32⟩
  | 90 => ⟨S16384, .f32⟩
  | 91 => ⟨S16384, .f32⟩
  | 92 => ⟨S_, .f32⟩
  | 93 => ⟨S_, .f32⟩
  | 94 => ⟨S16384, .f32⟩
  | 95 => ⟨S16384, .f32⟩
  | 96 => ⟨S_, .i32⟩
  | 97 => ⟨S540672, .i32⟩
  | 98 => ⟨S540672, .i1⟩
  | 99 => ⟨S_, .i32⟩
  | 100 => ⟨S540672, .i32⟩
  | 101 => ⟨S540672, .i32⟩
  | 102 => ⟨S540672, .i32⟩
  | 103 => ⟨S540672x1, .i32⟩
  | 104 => ⟨S540672, .f32⟩
  | 105 => ⟨S540672, .f32⟩
  | 106 => ⟨S_, .i32⟩
  | 107 => ⟨S540672, .i32⟩
  | 108 => ⟨S540672, .i1⟩
  | 109 => ⟨S_, .i32⟩
  | 110 => ⟨S540672, .i32⟩
  | 111 => ⟨S540672, .i32⟩
  | 112 => ⟨S540672, .i32⟩
  | 113 => ⟨S540672x1, .i32⟩
  | 114 => ⟨S540672, .f32⟩
  | 115 => ⟨S540672, .f32⟩
  | 116 => ⟨S16384x256, .f32⟩
  | 117 => ⟨S540672x1, .f32⟩
  | 118 => ⟨S_, .i32⟩
  | 119 => ⟨S540672, .i32⟩
  | 120 => ⟨S540672, .i1⟩
  | 121 => ⟨S_, .i32⟩
  | 122 => ⟨S540672, .i32⟩
  | 123 => ⟨S540672, .i32⟩
  | 124 => ⟨S540672, .i32⟩
  | 125 => ⟨S540672x1, .i32⟩
  | 126 => ⟨S540672x256, .f32⟩
  | 127 => ⟨S540672x256, .f32⟩
  | _ => ⟨S2x524288, .i32⟩

abbrev hbmTy0_1 (i : Nat) : BufTy := match i % 128 with
  | 0 => ⟨S540672x256, .f32⟩
  | 1 => ⟨S_, .f32⟩
  | 2 => ⟨S16384x256, .f32⟩
  | 3 => ⟨S540672x1, .i32⟩
  | 4 => ⟨S16384x256, .f32⟩
  | 5 => ⟨S1x256, .f32⟩
  | 6 => ⟨S16384x256, .f32⟩
  | 7 => ⟨S16384x256, .f32⟩
  | 8 => ⟨S16384x256, .f32⟩
  | 9 => ⟨S_, .f32⟩
  | 10 => ⟨S16384, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x256, .f32⟩
  | 17 => ⟨S16384x256, .f32⟩
  | 18 => ⟨S16384x256, .f32⟩
  | 19 => ⟨S_, .f32⟩
  | 20 => ⟨S16384, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x256, .f32⟩
  | 27 => ⟨S16384x256, .f32⟩
  | 28 => ⟨S16384x40, .f32⟩
  | 29 => ⟨S1x40, .f32⟩
  | 30 => ⟨S16384x40, .f32⟩
  | 31 => ⟨S16384x40, .f32⟩
  | 32 => ⟨S524288, .i1⟩
  | 33 => ⟨S524288, .f32⟩
  | 34 => ⟨S1x524288, .i32⟩
  | 35 => ⟨S524288, .i32⟩
  | 36 => ⟨S1x524288, .i32⟩
  | 37 => ⟨S524288, .i32⟩
  | 38 => ⟨S524288, .i1⟩
  | 39 => ⟨S524288, .f32⟩
  | 40 => ⟨S_, .i32⟩
  | 41 => ⟨S524288, .i32⟩
  | 42 => ⟨S524288, .i1⟩
  | 43 => ⟨S_, .i32⟩
  | 44 => ⟨S524288, .i32⟩
  | 45 => ⟨S524288, .i32⟩
  | 46 => ⟨S524288, .i32⟩
  | 47 => ⟨S524288x1, .i32⟩
  | 48 => ⟨S524288x256, .f32⟩
  | 49 => ⟨S_, .i32⟩
  | 50 => ⟨S524288, .i32⟩
  | 51 => ⟨S524288, .i1⟩
  | 52 => ⟨S_, .i32⟩
  | 53 => ⟨S524288, .i32⟩
  | 54 => ⟨S524288, .i32⟩
  | 55 => ⟨S524288, .i32⟩
  | 56 => ⟨S524288x1, .i32⟩
  | 57 => ⟨S524288x256, .f32⟩
  | 58 => ⟨S524288x256, .f32⟩
  | 59 => ⟨S_, .f32⟩
  | 60 => ⟨S524288, .f32⟩
  | 61 => ⟨S_, .f32⟩
  | 62 => ⟨S524288, .f32⟩
  | 63 => ⟨S524288, .f32⟩
  | 64 => ⟨S_, .i32⟩
  | 65 => ⟨S524288, .i32⟩
  | 66 => ⟨S524288, .i1⟩
  | 67 => ⟨S_, .i32⟩
  | 68 => ⟨S524288, .i32⟩
  | 69 => ⟨S524288, .i32⟩
  | 70 => ⟨S524288, .i32⟩
  | 71 => ⟨S524288x1, .i32⟩
  | 72 => ⟨S524288x256, .f32⟩
  | 73 => ⟨S_, .i32⟩
  | 74 => ⟨S524288, .i32⟩
  | 75 => ⟨S524288, .i1⟩
  | 76 => ⟨S_, .i32⟩
  | 77 => ⟨S524288, .i32⟩
  | 78 => ⟨S524288, .i32⟩
  | 79 => ⟨S524288, .i32⟩
  | 80 => ⟨S524288x1, .i32⟩
  | 81 => ⟨S524288x256, .f32⟩
  | 82 => ⟨S524288x256, .f32⟩
  | 83 => ⟨S_, .f32⟩
  | 84 => ⟨S524288, .f32⟩
  | 85 => ⟨S_, .f32⟩
  | 86 => ⟨S524288, .f32⟩
  | 87 => ⟨S524288, .f32⟩
  | 88 => ⟨S_, .i32⟩
  | 89 => ⟨S524288, .i32⟩
  | 90 => ⟨S524288, .i1⟩
  | 91 => ⟨S_, .i32⟩
  | 92 => ⟨S524288, .i32⟩
  | 93 => ⟨S524288, .i32⟩
  | 94 => ⟨S524288, .i32⟩
  | 95 => ⟨S_, .i32⟩
  | 96 => ⟨S524288, .i32⟩
  | 97 => ⟨S524288, .i1⟩
  | 98 => ⟨S_, .i32⟩
  | 99 => ⟨S524288, .i32⟩
  | 100 => ⟨S524288, .i32⟩
  | 101 => ⟨S524288, .i32⟩
  | 102 => ⟨S524288x1, .i32⟩
  | 103 => ⟨S524288x1, .i32⟩
  | 104 => ⟨S524288x2, .i32⟩
  | 105 => ⟨S524288, .f32⟩
  | 106 => ⟨S_, .f32⟩
  | 107 => ⟨S524288, .f32⟩
  | 108 => ⟨S524288, .f32⟩
  | 109 => ⟨S_, .f32⟩
  | 110 => ⟨S524288, .f32⟩
  | 111 => ⟨S524288, .f32⟩
  | 112 => ⟨S524288, .f32⟩
  | 113 => ⟨S_, .f32⟩
  | 114 => ⟨S524288, .f32⟩
  | 115 => ⟨S524288, .f32⟩
  | 116 => ⟨S_, .f32⟩
  | 117 => ⟨S_, .f32⟩
  | 118 => ⟨S524288, .f32⟩
  | 119 => ⟨S524288, .f32⟩
  | 120 => ⟨S524288, .f32⟩
  | 121 => ⟨S524288, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S2x524288, .i32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | _ => ⟨S2x524288, .i32⟩

abbrev hbmTy (i : Nat) : BufTy := match i / 128 with
  | 0 => hbmTy0_0 i
  | 1 => hbmTy0_1 i
  | 2 => hbmTy0_2 i
  | _ => ⟨S2x524288, .i32⟩

abbrev bufTy : (tb : Table) → Fin (tcTables nBuf tb) → BufTy
  | .hbm, ⟨i, _⟩ => hbmTy i
  | _, _ => ⟨S2x524288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v61 : Ref sig .tc := ⟨.hbm, 95, rfl⟩
abbrev main_c_15 : Ref sig .tc := ⟨.hbm, 96, rfl⟩
abbrev main_v62 : Ref sig .tc := ⟨.hbm, 97, rfl⟩
abbrev main_v63 : Ref sig .tc := ⟨.hbm, 98, rfl⟩
abbrev main_c_16 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_17 : Ref sig .tc := ⟨.hbm, 106, rfl⟩
abbrev main_v70 : Ref sig .tc := ⟨.hbm, 107, rfl⟩
abbrev main_v71 : Ref sig .tc := ⟨.hbm, 108, rfl⟩
abbrev main_c_18 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_19 : Ref sig .tc := ⟨.hbm, 118, rfl⟩
abbrev main_v80 : Ref sig .tc := ⟨.hbm, 119, rfl⟩
abbrev main_v81 : Ref sig .tc := ⟨.hbm, 120, rfl⟩
abbrev main_c_20 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_21 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_call3_v0 : Ref sig .tc := ⟨.hbm, 136, rfl⟩
abbrev main_call3_cst : Ref sig .tc := ⟨.hbm, 137, rfl⟩
abbrev main_call3_v1 : Ref sig .tc := ⟨.hbm, 138, rfl⟩
abbrev main_call3_v2 : Ref sig .tc := ⟨.hbm, 139, rfl⟩
abbrev main_v95 : Ref sig .tc := ⟨.hbm, 140, rfl⟩
abbrev main_cst_22 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_call4_v0 : Ref sig .tc := ⟨.hbm, 146, rfl⟩
abbrev main_call4_cst : Ref sig .tc := ⟨.hbm, 147, rfl⟩
abbrev main_call4_v1 : Ref sig .tc := ⟨.hbm, 148, rfl⟩
abbrev main_call4_v2 : Ref sig .tc := ⟨.hbm, 149, rfl⟩
abbrev main_v100 : Ref sig .tc := ⟨.hbm, 150, rfl⟩
abbrev main_cst_23 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_c_24 : Ref sig .tc := ⟨.hbm, 168, rfl⟩
abbrev main_v117 : Ref sig .tc := ⟨.hbm, 169, rfl⟩
abbrev main_v118 : Ref sig .tc := ⟨.hbm, 170, rfl⟩
abbrev main_c_25 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_c_26 : Ref sig .tc := ⟨.hbm, 177, rfl⟩
abbrev main_v124 : Ref sig .tc := ⟨.hbm, 178, rfl⟩
abbrev main_v125 : Ref sig .tc := ⟨.hbm, 179, rfl⟩
abbrev main_c_27 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_28 : Ref sig .tc := ⟨.hbm, 187, rfl⟩
abbrev main_v132 : Ref sig .tc := ⟨.hbm, 188, rfl⟩
abbrev main_call5_cst : Ref sig .tc := ⟨.hbm, 189, rfl⟩
abbrev main_call5_v0 : Ref sig .tc := ⟨.hbm, 190, rfl⟩
abbrev main_v133 : Ref sig .tc := ⟨.hbm, 191, rfl⟩
abbrev main_c_29 : Ref sig .tc := ⟨.hbm, 192, rfl⟩
abbrev main_v134 : Ref sig .tc := ⟨.hbm, 193, rfl⟩
abbrev main_v135 : Ref sig .tc := ⟨.hbm, 194, rfl⟩
abbrev main_c_30 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_c_31 : Ref sig .tc := ⟨.hbm, 201, rfl⟩
abbrev main_v141 : Ref sig .tc := ⟨.hbm, 202, rfl⟩
abbrev main_v142 : Ref sig .tc := ⟨.hbm, 203, rfl⟩
abbrev main_c_32 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_cst_33 : Ref sig .tc := ⟨.hbm, 211, rfl⟩
abbrev main_v149 : Ref sig .tc := ⟨.hbm, 212, rfl⟩
abbrev main_call6_cst : Ref sig .tc := ⟨.hbm, 213, rfl⟩
abbrev main_call6_v0 : Ref sig .tc := ⟨.hbm, 214, rfl⟩
abbrev main_v150 : Ref sig .tc := ⟨.hbm, 215, rfl⟩
abbrev main_c_34 : Ref sig .tc := ⟨.hbm, 216, rfl⟩
abbrev main_v151 : Ref sig .tc := ⟨.hbm, 217, rfl⟩
abbrev main_v152 : Ref sig .tc := ⟨.hbm, 218, rfl⟩
abbrev main_c_35 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_c_36 : Ref sig .tc := ⟨.hbm, 223, rfl⟩
abbrev main_v156 : Ref sig .tc := ⟨.hbm, 224, rfl⟩
abbrev main_v157 : Ref sig .tc := ⟨.hbm, 225, rfl⟩
abbrev main_c_37 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_cst_38 : Ref sig .tc := ⟨.hbm, 234, rfl⟩
abbrev main_v165 : Ref sig .tc := ⟨.hbm, 235, rfl⟩
abbrev main_v166 : Ref sig .tc := ⟨.hbm, 236, rfl⟩
abbrev main_cst_39 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_cst_40 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_cst_41 : Ref sig .tc := ⟨.hbm, 250, rfl⟩
abbrev main_v178 : Ref sig .tc := ⟨.hbm, 251, rfl⟩
abbrev main_v179 : Ref sig .tc := ⟨.hbm, 252, rfl⟩
abbrev main_cst_42 : Ref sig .tc := ⟨.hbm, 253, rfl⟩
abbrev main_v180 : Ref sig .tc := ⟨.hbm, 254, rfl⟩
abbrev main_cst_43 : Ref sig .tc := ⟨.hbm, 255, rfl⟩
abbrev main_v181 : Ref sig .tc := ⟨.hbm, 256, rfl⟩
abbrev main_cst_44 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S16384_S540672_d0 : Shape.Concatenates [S524288, S16384] S540672 0
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x256_0_1 : S540672x1.BroadcastsInDim S540672x256 (![0, 1] : Fin 2 → Fin S540672x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  bcast_S40_S1x40_1 : S40.BroadcastsInDim S1x40 (![1] : Fin 1 → Fin S1x40.rank)
  bcast_S1x40_S16384x40_0_1 : S1x40.BroadcastsInDim S16384x40 (![0, 1] : Fin 2 → Fin S16384x40.rank)
  bcast_S_S524288 : S_.BroadcastsInDim S524288 (![] : Fin 0 → Fin S524288.rank)
  bcast_S524288_S524288x1_0 : S524288.BroadcastsInDim S524288x1 (![0] : Fin 1 → Fin S524288x1.rank)
  reducesTo_S524288x256_S524288_d1 : S524288x256.ReducesTo [1] S524288
  concatenates_S524288x1_S524288x1_S524288x2_d1 : Shape.Concatenates [S524288x1, S524288x1] S524288x2 1
  shapeCasts_S1_S_ : S1.ShapeCasts S_
  reducesTo_S524288_S_d0 : S524288.ReducesTo [0] S_
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x256_S256x256_S16384x256_1_0_0_1_n_n_wf : DotDims.WF S16384x256 S256x256 S16384x256 [1] [0] [0] [1] [] []
  gather_S16384x256_S540672x1_S540672x256_1_0_n_n_0_1_1256_wf : GatherDims.WF S16384x256 S540672x1 S540672x256 [1] [0] [] [0] [] 1 ![1, 256]
  scatter_S16384x256_S540672x1_S540672x256_1_0_0_1_wf : ScatterDims.WF S16384x256 S540672x1 S540672x256 [1] [0] [0] 1
  dot_S16384x256_S256x40_S16384x40_1_0_0_1_n_n_wf : DotDims.WF S16384x256 S256x40 S16384x40 [1] [0] [0] [1] [] []
  gather_S16384x256_S524288x1_S524288x256_1_0_n_n_0_1_1256_wf : GatherDims.WF S16384x256 S524288x1 S524288x256 [1] [0] [] [0] [] 1 ![1, 256]
  gather_S16384x16384_S524288x2_S524288_n_01_n_n_01_1_11_wf : GatherDims.WF S16384x16384 S524288x2 S524288 [] [0, 1] [] [0, 1] [] 1 ![1, 1]

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def gather_S16384x256_S540672x1_S540672x256_1_0_n_n_0_1_1256 : GatherDims S16384x256 S540672x1 S540672x256 where
  offsetDims := [1]
  collapsedSliceDims := [0]
  operandBatchingDims := []
  startIndicesBatchingDims := []
  startIndexMap := [0]
  indexVectorDim := 1
  sliceSizes := ![1, 256]
  wf := gather_S16384x256_S540672x1_S540672x256_1_0_n_n_0_1_1256_wf
def scatter_S16384x256_S540672x1_S540672x256_1_0_0_1 : ScatterDims S16384x256 S540672x1 S540672x256 where
  updateWindowDims := [1]
  insertedWindowDims := [0]
  scatterDimsToOperandDims := [0]
  indexVectorDim := 1
  wf := scatter_S16384x256_S540672x1_S540672x256_1_0_0_1_wf
def dot_S16384x256_S256x40_S16384x40_1_0_0_1_n_n : DotDims S16384x256 S256x40 S16384x40 where
  lhsContracting := [1]
  rhsContracting := [0]
  lhsNonContracting := [0]
  rhsNonContracting := [1]
  lhsBatch := []
  rhsBatch := []
  wf := dot_S16384x256_S256x40_S16384x40_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def gather_S16384x16384_S524288x2_S524288_n_01_n_n_01_1_11 : GatherDims S16384x16384 S524288x2 S524288 where
  offsetDims := []
  collapsedSliceDims := [0, 1]
  operandBatchingDims := []
  startIndicesBatchingDims := []
  startIndexMap := [0, 1]
  indexVectorDim := 1
  sliceSizes := ![1, 1]
  wf := gather_S16384x16384_S524288x2_S524288_n_01_n_n_01_1_11_wf

class Facts : Prop extends Facts₀ where

variable [Facts]
-- ==== Proof.KernelRun.lean ====
import proofs.«107804_j58506044506600_1_alg».proof.Proof.Gen.KernelIdeal.Frame

/-! The idealized kernel's run with its three results named. The program is five matmul regions among
    stretches of host operations; its buffer contents after the last stretch are a fold `W20` from the
    launch memory (a stretch applies its operations, a region replaces its arrays by what its write-backs
    leave). Every weakly fair execution ends with every unscoped buffer at that fold, so in particular the
    three result buffers hold the fold's values there, and the argument arrays are as launched. -/

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the three result buffers end at the
    fold's contents after the last stretch of host operations, and the arguments end as launched. -/
theorem run : θ_run defs (onTc (τ := τ) (main (F := F))) ⟨m, fun _ => 0, ρ⟩ (fun r => ∀ c : Dev nD,
      r.2.mem ((c.tc : Thread nD τ).loc main_v68) = W20 m ρ c (Proc.devRef .tc main_v68)
      ∧ r.2.mem ((c.tc : Thread nD τ).loc main_v148) = W20 m ρ c (Proc.devRef .tc main_v148)
      ∧ r.2.mem ((c.tc : Thread nD τ).loc main_v72) = W20 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v68 (by decide)),
       h c _ (mem_uc main_v148 (by decide)),
       h c _ (mem_uc main_v72 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c)⟩)

end Cert.KernelIdeal.RunValue

end
-- ==== Proof.KernelTailWalk.lean ====
import proofs.«107804_j58506044506600_1_alg».proof.Proof.Gen.KernelIdeal.Frame
import Idealize.ShloMosaic.PureOps.Ideal
import Idealize.ShloMosaic.Lib.StableHlo.Run

noncomputable section

namespace Cert.KernelIdeal.Tail

open Idealize.ShloMosaic Idealize.ShloMosaic.TcCoe Idealize.SL.Sem
open Cert.KernelIdeal Cert.KernelIdeal.Gen

/-! # Buffers that a stretch of the program leaves alone

The program's buffer contents at its segment boundaries are a fold: a stretch of host operations rewrites
the buffers its operations write and leaves every other buffer, and a region rewrites its own arrays and
leaves every other buffer. A buffer's contents at a late boundary are therefore its contents at an earlier
one whenever nothing in between writes it. -/

/-- No operation of a literal list of host operations writes the buffer `b`: the goal is
    `∀ op ∈ ops, b ∉ op.writes`. Each operation writes one buffer, its result; the list is walked once and
    each result reference is told apart from `b` by deciding the inequality of the two references. -/
macro "no_write" : tactic =>
  `(tactic| exact List.forall_iff_forall_mem.mp (by
      simp only [hostOps0, hostOps0_1, hostOps0_2, hostOps1, hostOps2, hostOps3, hostOps4, hostOps4_1, hostOps4_2,
        hostOps4_3, hostOps5, hostOps5_1, hostOps5_2, hostOps5_3, hostOps5_4,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

variable (m : (ℓ : Loc nD τ sig) → Buf (Elt Ideal) ℓ) (ρ : Dev nD → PrngReg)

/-- From the last region's exit to the program's end: five stretches of host operations. -/
theorem W20_eq_W15 (c : Dev nD) (r : Ref sig .tc)
    (h4 : ∀ op ∈ (hostOps5_4 : List (HloOp τ sig (Elt Ideal))), Proc.devRef .tc r ∉ op.writes)
    (h3 : ∀ op ∈ (hostOps5_3 : List (HloOp τ sig (Elt Ideal))), Proc.devRef .tc r ∉ op.writes)
    (h2 : ∀ op ∈ (hostOps5_2 : List (HloOp τ sig (Elt Ideal))), Proc.devRef .tc r ∉ op.writes)
    (h1 : ∀ op ∈ (hostOps5_1 : List (HloOp τ sig (Elt Ideal))), Proc.devRef .tc r ∉ op.writes)
    (h0 : ∀ op ∈ (hostOps5 : List (HloOp τ sig (Elt Ideal))), Proc.devRef .tc r ∉ op.writes) :
    W20 (F := Ideal) m ρ c (Proc.devRef .tc r) = W15 (F := Ideal) m ρ c (Proc.devRef .tc r) :=
  calc W20 (F := Ideal) m ρ c (Proc.devRef .tc r)
    _ = W19 (F := Ideal) m ρ c (Proc.devRef .tc r) := StableHlo.after_of_forall_not_mem _ _ h4
    _ = W18 (F := Ideal) m ρ c (Proc.devRef .tc r) := StableHlo.after_of_forall_not_mem _ _ h3
    _ = W17 (F := Ideal) m ρ c (Proc.devRef .tc r) := StableHlo.after_of_forall_not_mem _ _ h2
    _ = W16 (F := Ideal) m ρ c (Proc.devRef .tc r) := StableHlo.after_of_forall_not_mem _ _ h1
    _ = W15 (F := Ideal) m ρ c (Proc.devRef .tc r) := StableHlo.after_of_forall_not_mem _ _ h0

/-- From the fourth region's exit to the last region's entry: four stretches of host operations. -/
theorem W14_eq_W10 (c : Dev nD) (r : Ref sig .tc)
    (h3 : ∀ op ∈ (hostOps4_3 : List (HloOp τ sig (Elt Ideal))), Proc.devRef .tc r ∉ op.writes)
    (h2 : ∀ op ∈ (hostOps4_2 : List (HloOp τ sig (Elt Ideal))), Proc.devRef .tc r ∉ op.writes)
    (h1 : ∀ op ∈ (hostOps4_1 : List (HloOp τ sig (Elt Ideal))), Proc.devRef .tc r ∉ op.writes)
    (h0 : ∀ op ∈ (hostOps4 : List (HloOp τ sig (Elt Ideal))), Proc.devRef .tc r ∉ op.writes) :
    W14 (F := Ideal) m ρ c (Proc.devRef .tc r) = W10 (F := Ideal) m ρ c (Proc.devRef .tc r) :=
  calc W14 (F := Ideal) m ρ c (Proc.devRef .tc r)
    _ = W13 (F := Ideal) m ρ c (Proc.devRef .tc r) := StableHlo.after_of_forall_not_mem _ _ h3
    _ = W12 (F := Ideal) m ρ c (Proc.devRef .tc r) := StableHlo.after_of_forall_not_mem _ _ h2
    _ = W11 (F := Ideal) m ρ c (Proc.devRef .tc r) := StableHlo.after_of_forall_not_mem _ _ h1
    _ = W10 (F := Ideal) m ρ c (Proc.devRef .tc r) := StableHlo.after_of_forall_not_mem _ _ h0

/-- From the end of the program's first stretch of host operations to the fourth region's exit: four regions,
    the single stretches before the second, third and fourth, and the two stretches before the first. -/
theorem W10_eq_W1 (c : Dev nD) (r : Ref sig .tc)
    (a3 : ∀ w, Pipeline.arrRef spec3 w ≠ r) (h3 : ∀ op ∈ (hostOps3 : List (HloOp τ sig (Elt Ideal))), Proc.devRef .tc r ∉ op.writes)
    (a2 : ∀ w, Pipeline.arrRef spec2 w ≠ r) (h2 : ∀ op ∈ (hostOps2 : List (HloOp τ sig (Elt Ideal))), Proc.devRef .tc r ∉ op.writes)
    (a1 : ∀ w, Pipeline.arrRef spec1 w ≠ r) (h1 : ∀ op ∈ (hostOps1 : List (HloOp τ sig (Elt Ideal))), Proc.devRef .tc r ∉ op.writes)
    (a0 : ∀ w, Pipeline.arrRef spec0 w ≠ r) (h02 : ∀ op ∈ (hostOps0_2 : List (HloOp τ sig (Elt Ideal))), Proc.devRef .tc r ∉ op.writes) (h01 : ∀ op ∈ (hostOps0_1 : List (HloOp τ sig (Elt Ideal))), Proc.devRef .tc r ∉ op.writes) :
    W10 (F := Ideal) m ρ c (Proc.devRef .tc r) = W1 (F := Ideal) m ρ c (Proc.devRef .tc r) :=
  calc W10 (F := Ideal) m ρ c (Proc.devRef .tc r)
    _ = W9 (F := Ideal) m ρ c (Proc.devRef .tc r) := W10_of_ne m ρ c r a3
    _ = W8 (F := Ideal) m ρ c (Proc.devRef .tc r) := StableHlo.after_of_forall_not_mem _ _ h3
    _ = W7 (F := Ideal) m ρ c (Proc.devRef .tc r) := W8_of_ne m ρ c r a2
    _ = W6 (F := Ideal) m ρ c (Proc.devRef .tc r) := StableHlo.after_of_forall_not_mem _ _ h2
    _ = W5 (F := Ideal) m ρ c (Proc.devRef .tc r) := W6_of_ne m ρ c r a1
    _ = W4 (F := Ideal) m ρ c (Proc.devRef .tc r) := StableHlo.after_of_forall_not_mem _ _ h1
    _ = W3 (F := Ideal) m ρ c (Proc.devRef .tc r) := W4_of_ne m ρ c r a0
    _ = W2 (F := Ideal) m ρ c (Proc.devRef .tc r) := StableHlo.after_of_forall_not_mem _ _ h02
    _ = W1 (F := Ideal) m ρ c (Proc.devRef .tc r) := StableHlo.after_of_forall_not_mem _ _ h01

/-! ## The twice-normalised rows and the last region's output at the program's end -/

/-- The second normalisation's result is not written after the last region's entry: the five stretches of
    the loss write other buffers, and it is not one of the last region's arrays. -/
theorem rep_end (c : Dev nD) :
    W20 (F := Ideal) m ρ c (Proc.devRef .tc main_v68) = W14 (F := Ideal) m ρ c (Proc.devRef .tc main_v68) :=
  (W20_eq_W15 m ρ c main_v68 (by no_write) (by no_write) (by no_write) (by no_write) (by no_write)).trans
    (W15_of_ne m ρ c main_v68 (by decide))

/-- The last region's output array ends at what the region's write-backs leave in it. -/
theorem y_end (c : Dev nD) :
    W20 (F := Ideal) m ρ c (Proc.devRef .tc main_v72) = (dat4 (F := Ideal) (V14 m ρ) c).arrAt 3 cfg4.N :=
  (W20_eq_W15 m ρ c main_v72 (by no_write) (by no_write) (by no_write) (by no_write) (by no_write)).trans
    (W15_arr m ρ c 3)

/-! ## The argument buffers the loss and the last region read -/

theorem W15_arg1 (c : Dev nD) : W15 (F := Ideal) m ρ c (Proc.devRef .tc main_arg1) = m ((c : Thread nD τ).loc main_arg1) :=
  (W20_eq_W15 m ρ c main_arg1 (by no_write) (by no_write) (by no_write) (by no_write) (by no_write)).symm.trans
    (W20_main_arg1 m ρ c)
theorem W15_arg3 (c : Dev nD) : W15 (F := Ideal) m ρ c (Proc.devRef .tc main_arg3) = m ((c : Thread nD τ).loc main_arg3) :=
  (W20_eq_W15 m ρ c main_arg3 (by no_write) (by no_write) (by no_write) (by no_write) (by no_write)).symm.trans
    (W20_main_arg3 m ρ c)
theorem W15_arg4 (c : Dev nD) : W15 (F := Ideal) m ρ c (Proc.devRef .tc main_arg4) = m ((c : Thread nD τ).loc main_arg4) :=
  (W20_eq_W15 m ρ c main_arg4 (by no_write) (by no_write) (by no_write) (by no_write) (by no_write)).symm.trans
    (W20_main_arg4 m ρ c)
theorem W15_arg9 (c : Dev nD) : W15 (F := Ideal) m ρ c (Proc.devRef .tc main_arg9) = m ((c : Thread nD τ).loc main_arg9) :=
  (W20_eq_W15 m ρ c main_arg9 (by no_write) (by no_write) (by no_write) (by no_write) (by no_write)).symm.trans
    (W20_main_arg9 m ρ c)
theorem W15_arg10 (c : Dev nD) : W15 (F := Ideal) m ρ c (Proc.devRef .tc main_arg10) = m ((c : Thread nD τ).loc main_arg10) :=
  (W20_eq_W15 m ρ c main_arg10 (by no_write) (by no_write) (by no_write) (by no_write) (by no_write)).symm.trans
    (W20_main_arg10 m ρ c)

theorem W14_arg9 (c : Dev nD) : W14 (F := Ideal) m ρ c (Proc.devRef .tc main_arg9) = m ((c : Thread nD τ).loc main_arg9) :=
  (W15_of_ne m ρ c main_arg9 (by decide)).symm.trans (W15_arg9 m ρ c)
theorem W14_arg10 (c : Dev nD) : W14 (F := Ideal) m ρ c (Proc.devRef .tc main_arg10) = m ((c : Thread nD τ).loc main_arg10) :=
  (W15_of_ne m ρ c main_arg10 (by decide)).symm.trans (W15_arg10 m ρ c)

/-! ## The two rows of the edge list: written by the first stretch, read again by the loss -/

theorem W15_v1_eq_W1 (c : Dev nD) : W15 (F := Ideal) m ρ c (Proc.devRef .tc main_v1) = W1 (F := Ideal) m ρ c (Proc.devRef .tc main_v1) :=
  (W15_of_ne m ρ c main_v1 (by decide)).trans <|
  (W14_eq_W10 m ρ c main_v1 (by no_write) (by no_write) (by no_write) (by no_write)).trans <|
  W10_eq_W1 m ρ c main_v1 (by decide) (by no_write) (by decide) (by no_write) (by decide) (by no_write)
    (by decide) (by no_write) (by no_write)
theorem W15_v3_eq_W1 (c : Dev nD) : W15 (F := Ideal) m ρ c (Proc.devRef .tc main_v3) = W1 (F := Ideal) m ρ c (Proc.devRef .tc main_v3) :=
  (W15_of_ne m ρ c main_v3 (by decide)).trans <|
  (W14_eq_W10 m ρ c main_v3 (by no_write) (by no_write) (by no_write) (by no_write)).trans <|
  W10_eq_W1 m ρ c main_v3 (by decide) (by no_write) (by decide) (by no_write) (by decide) (by no_write)
    (by decide) (by no_write) (by no_write)

end Cert.KernelIdeal.Tail
-- ==== Proof.KernelTailVal.lean ====
import proofs.«107804_j58506044506600_1_alg».proof.Proof.KernelTailWalk

noncomputable section

namespace Cert.KernelIdeal.Tail

open Idealize.ShloMosaic Idealize.ShloMosaic.TcCoe Idealize.SL.Sem
open Cert.KernelIdeal Cert.KernelIdeal.Gen

/-! # What the stretches around the last region compute

The two row normalisations between the fourth region and the last, the last region's three inputs, and the
two rows of the edge list that the loss reads again: each as the program's operations applied to buffers
whose contents are known. -/

variable (m : (ℓ : Loc nD τ sig) → Buf (Elt Ideal) ℓ) (ρ : Dev nD → PrngReg)

/-- Each row of a matrix divided by its Euclidean norm, the norm bounded below by a small positive constant:
    the squares summed along the row, the root, the maximum with the constant, spread back over the row,
    the quotient. -/
def normRows (v : (⟨S16384x256, .f32⟩ : BufTy).Contents (Elt Ideal)) : (⟨S16384x256, .f32⟩ : BufTy).Contents (Elt Ideal) :=
  Host.divf (F := Ideal) v (broadcastInDim S16384x256 ![0, 1] bcast_S16384x1_S16384x256_0_1
    (maximumf (F := Ideal)
      (Host.sqrt (F := Ideal) (broadcastInDim S16384x1 ![0] bcast_S16384_S16384x1_0
        (Host.reduceAdd (F := Ideal) (mulf (F := Ideal) v v) (constant (F := Ideal) S_ .f32 0x00000000#32)
          reducesTo_S16384x256_S16384_d1 h_S_)))
      (broadcastInDim S16384x1 ![] bcast_S_S16384x1 (constant (F := Ideal) S_ .f32 0x2B8CBCCC#32))))

/-- At the last region's entry the buffer of the twice-normalised rows holds the fourth region's output
    normalised twice: the four stretches in between are the two normalisations, and the transports of the
    outlined norm's typed references are identities. -/
theorem W14_v68 (c : Dev nD) :
    W14 (F := Ideal) m ρ c (Proc.devRef .tc main_v68)
      = normRows (normRows (W10 (F := Ideal) m ρ c (Proc.devRef .tc main_v58))) := by
  show StableHlo.after hostOps4_3 (StableHlo.after hostOps4_2 (StableHlo.after hostOps4_1 (StableHlo.after hostOps4
    (W10 (F := Ideal) m ρ c)))) (Proc.devRef .tc main_v68) = _
  after_results_simp
  rfl

/-- The last region's first input is the twice-normalised rows in the narrower format. -/
theorem W14_v69 (c : Dev nD) :
    W14 (F := Ideal) m ρ c (Proc.devRef .tc main_v69)
      = truncf (F := Ideal) (s := S16384x256) (φ := .f32) .bf16 (W14 (F := Ideal) m ρ c (Proc.devRef .tc main_v68)) bitsLt_bf16_f32 := by
  show StableHlo.after hostOps4_3 (W13 (F := Ideal) m ρ c) (Proc.devRef .tc main_v69)
    = truncf (F := Ideal) (s := S16384x256) (φ := .f32) .bf16 (StableHlo.after hostOps4_3 (W13 (F := Ideal) m ρ c) (Proc.devRef .tc main_v68)) bitsLt_bf16_f32
  generalize W13 (F := Ideal) m ρ c = X
  after_results_simp <;> rfl

/-- Its second input is the output weights in the narrower format. -/
theorem W14_v70 (c : Dev nD) :
    W14 (F := Ideal) m ρ c (Proc.devRef .tc main_v70)
      = truncf (F := Ideal) (s := S256x40) (φ := .f32) .bf16 (m ((c : Thread nD τ).loc main_arg9)) bitsLt_bf16_f32 := by
  rw [← W14_arg9 m ρ c]
  show StableHlo.after hostOps4_3 (W13 (F := Ideal) m ρ c) (Proc.devRef .tc main_v70)
    = truncf (F := Ideal) (s := S256x40) (φ := .f32) .bf16 (StableHlo.after hostOps4_3 (W13 (F := Ideal) m ρ c) (Proc.devRef .tc main_arg9)) bitsLt_bf16_f32
  generalize W13 (F := Ideal) m ρ c = X
  after_results_simp <;> rfl

/-- Its third input is the output bias as a one-row matrix. -/
theorem W14_v71 (c : Dev nD) :
    W14 (F := Ideal) m ρ c (Proc.devRef .tc main_v71)
      = shapeCast S1x40 (m ((c : Thread nD τ).loc main_arg10)) shapeCasts_S40_S1x40 := by
  rw [← W14_arg10 m ρ c]
  show StableHlo.after hostOps4_3 (W13 (F := Ideal) m ρ c) (Proc.devRef .tc main_v71)
    = shapeCast S1x40 (StableHlo.after hostOps4_3 (W13 (F := Ideal) m ρ c) (Proc.devRef .tc main_arg10)) shapeCasts_S40_S1x40
  generalize W13 (F := Ideal) m ρ c = X
  after_results_simp
  rfl

/-- The first row of the edge list, as the first stretch leaves it. -/
theorem W1_v1 (c : Dev nD) :
    W1 (F := Ideal) m ρ c (Proc.devRef .tc main_v1)
      = shapeCast S524288 (extractStridedSlice S1x524288 ![0, 0] (m ((c : Thread nD τ).loc main_arg0))
          slices_S2x524288_S1x524288_0_0) shapeCasts_S1x524288_S524288 := by
  show StableHlo.after hostOps0 (W0 (F := Ideal) m ρ c) (Proc.devRef .tc main_v1) = _
  after_results_simp
  rfl

/-- The second row of the edge list, as the first stretch leaves it. -/
theorem W1_v3 (c : Dev nD) :
    W1 (F := Ideal) m ρ c (Proc.devRef .tc main_v3)
      = shapeCast S524288 (extractStridedSlice S1x524288 ![1, 0] (m ((c : Thread nD τ).loc main_arg0))
          slices_S2x524288_S1x524288_1_0) shapeCasts_S1x524288_S524288 := by
  show StableHlo.after hostOps0 (W0 (F := Ideal) m ρ c) (Proc.devRef .tc main_v3) = _
  after_results_simp
  rfl

end Cert.KernelIdeal.Tail
-- ==== Proof.KernelTailRep.lean ====
import proofs.«107804_j58506044506600_1_alg».proof.Proof.KernelTailVal
import proofs.«107804_j58506044506600_1_alg».proof.Proof.RefStages

noncomputable section

namespace Cert.KernelIdeal.Tail

open Idealize.ShloMosaic Idealize.ShloMosaic.TcCoe Idealize.SL.Sem
open Cert.KernelIdeal Cert.KernelIdeal.Gen

/-! # The twice-normalised rows and the last region's inputs against the reference's stages

After the fourth region the program and the reference apply the same two row normalisations. Once the
fourth region's output is the reference's stage of the same value, the twice-normalised rows are the
reference's later stage, the two terms being the same operations applied to the same value; the last
region's inputs are format changes and a reshape of that value and of two arguments. -/

variable (m : (ℓ : Loc nD τ sig) → Buf (Elt Ideal) ℓ) (ρ : Dev nD → PrngReg)

/-- The twice-normalised rows: the program's two normalisations of the fourth region's output are the
    reference's two normalisations of its second layer's output. -/
theorem rep_of_h2 (c : Dev nD)
    (h : W10 (F := Ideal) m ρ c (Proc.devRef .tc main_v58)
      = Cert.ReferenceIdeal.Read.val_main_v94 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8))) :
    W14 (F := Ideal) m ρ c (Proc.devRef .tc main_v68)
      = Cert.ReferenceIdeal.Read.val_main_v104 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) := by
  rw [W14_v68, h]
  rfl

/-- The last region's three inputs: the twice-normalised rows and the output weights in the narrower
    format, and the output bias as a one-row matrix. -/
theorem y_inputs (c : Dev nD)
    (h : W14 (F := Ideal) m ρ c (Proc.devRef .tc main_v68)
      = Cert.ReferenceIdeal.Read.val_main_v104 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8))) :
    V14 (F := Ideal) m ρ c main_v69
        = truncf (F := Ideal) (s := S16384x256) (φ := .f32) .bf16 (Cert.ReferenceIdeal.Read.val_main_v104 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8))) bitsLt_bf16_f32
      ∧ V14 (F := Ideal) m ρ c main_v70 = truncf (F := Ideal) (s := S256x40) (φ := .f32) .bf16 (m ((c : Thread nD τ).loc main_arg9)) bitsLt_bf16_f32
      ∧ V14 (F := Ideal) m ρ c main_v71 = shapeCast S1x40 (m ((c : Thread nD τ).loc main_arg10)) shapeCasts_S40_S1x40 :=
  ⟨(W14_v69 m ρ c).trans (by rw [h]), W14_v70 m ρ c, W14_v71 m ρ c⟩

end Cert.KernelIdeal.Tail
-- ==== Proof.KernelTailLoss.lean ====
import proofs.«107804_j58506044506600_1_alg».proof.Proof.KernelTailVal
import proofs.«107804_j58506044506600_1_alg».proof.Proof.RefStages

noncomputable section

namespace Cert.KernelIdeal.Tail

open Idealize.ShloMosaic Idealize.ShloMosaic.TcCoe Idealize.SL.Sem
open Cert.KernelIdeal Cert.KernelIdeal.Gen

/-! # The loss against the reference's stages

After the last region the program and the reference compute the loss by the same operations from the
twice-normalised rows, the two rows of the edge list, and three arguments. With each of these at the
reference's value, each later buffer is the reference's later stage. -/

/-- A buffer that no operation of one stretch writes: the goal is `after ops V b = V b`. -/
macro "keep" : tactic => `(tactic| exact StableHlo.after_of_forall_not_mem _ _ (by no_write))

/-- The concatenation of two arrays with the two arrays as plain arguments (in `concatenate` they sit in a list
    on which the side condition depends, where a rewriting pass cannot reach them). -/
def catPair {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem concatenate_catPair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = catPair t a s₁ s₂ h x₁ x₂ := rfl

/-- What a stretch of host operations leaves in a buffer, computed in one pass, the two pieces of a
    concatenation included. -/
macro "results_with_pairs" : tactic =>
  `(tactic| (simp (disch := decide) only [concatenate_catPair, StableHlo.after_cons, StableHlo.after_nil,
      StableHlo.nullary_result', StableHlo.unary_result', StableHlo.binary_result', StableHlo.ternary_result',
      StableHlo.quaternary_result', StableHlo.reshape_result',
      StableHlo.nullary_result_ne', StableHlo.unary_result_ne', StableHlo.binary_result_ne', StableHlo.ternary_result_ne',
      StableHlo.quaternary_result_ne', StableHlo.reshape_result_ne']))

variable (m : (ℓ : Loc nD τ sig) → Buf (Elt Ideal) ℓ) (ρ : Dev nD → PrngReg)

/-! ## The loss, one stretch at a time

Each of the five stretches after the last region is read from an arbitrary valuation `X` of the buffers
before it: the buffer the stretch is read at is the reference's stage as soon as the buffers the stretch
reads from outside itself hold the reference's stages. Within a stretch the program's operations and the
reference's are the same operations in the same order, so the two terms agree by unfolding the stages. -/

/-- The first stretch of the loss: the mask of the edges whose first end is below the second. -/
theorem edge_mask (c : Dev nD) (X : Valuation τ sig (Elt Ideal))
    (h1 : X (Proc.devRef .tc main_v1)
      = Cert.ReferenceIdeal.Read.val_main_v1 (F := Ideal) (m ((c : Thread nD τ).loc main_arg0)))
    (h3 : X (Proc.devRef .tc main_v3)
      = Cert.ReferenceIdeal.Read.val_main_v3 (F := Ideal) (m ((c : Thread nD τ).loc main_arg0))) :
    StableHlo.after hostOps5 X (Proc.devRef .tc main_v74)
      = Cert.ReferenceIdeal.Read.val_main_v110 (F := Ideal) (m ((c : Thread nD τ).loc main_arg0)) := by
  after_results_simp
  rw [h1, h3]
  rfl

/-- The first stretch of the loss: the same mask for the negative edges. -/
theorem neg_mask (c : Dev nD) (X : Valuation τ sig (Elt Ideal))
    (h1 : X (Proc.devRef .tc main_arg1)
      = (m ((c : Thread nD τ).loc main_arg1))) :
    StableHlo.after hostOps5 X (Proc.devRef .tc main_v80)
      = Cert.ReferenceIdeal.Read.val_main_v116 (F := Ideal) (m ((c : Thread nD τ).loc main_arg1)) := by
  after_results_simp
  rw [h1]
  rfl

/-- The first stretch of the loss: for each negative edge, the inner product of its two ends' rows. -/
theorem neg_dot (c : Dev nD) (X : Valuation τ sig (Elt Ideal))
    (h68 : X (Proc.devRef .tc main_v68)
      = Cert.ReferenceIdeal.Read.val_main_v104 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)))
    (h1 : X (Proc.devRef .tc main_arg1)
      = (m ((c : Thread nD τ).loc main_arg1))) :
    StableHlo.after hostOps5 X (Proc.devRef .tc main_v96)
      = Cert.ReferenceIdeal.Read.val_main_v132 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := by
  after_results_simp
  rw [h68, h1]
  rfl

/-- The second stretch: the positive part of the negative edges' inner products. -/
theorem neg_relu (c : Dev nD) (X : Valuation τ sig (Elt Ideal))
    (h96 : X (Proc.devRef .tc main_v96)
      = Cert.ReferenceIdeal.Read.val_main_v132 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8))) :
    StableHlo.after hostOps5_1 X (Proc.devRef .tc main_v97)
      = Cert.ReferenceIdeal.Read.val_main_v133 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := by
  -- first over the unknown contents, where the outlined function's identity transports meet no large term
  have e : StableHlo.after hostOps5_1 X (Proc.devRef .tc main_v97)
      = maximumf (F := Ideal) (X (Proc.devRef .tc main_v96))
          (broadcastInDim S524288 ![] bcast_S_S524288 (constant (F := Ideal) S_ .f32 0x00000000#32)) := by
    after_results_simp
    rfl
  rw [e, h96]
  rfl

/-- The third stretch: for each edge, the inner product of its two ends' rows. -/
theorem pos_dot (c : Dev nD) (X : Valuation τ sig (Elt Ideal))
    (h68 : X (Proc.devRef .tc main_v68)
      = Cert.ReferenceIdeal.Read.val_main_v104 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)))
    (h1 : X (Proc.devRef .tc main_v1)
      = Cert.ReferenceIdeal.Read.val_main_v1 (F := Ideal) (m ((c : Thread nD τ).loc main_arg0)))
    (h3 : X (Proc.devRef .tc main_v3)
      = Cert.ReferenceIdeal.Read.val_main_v3 (F := Ideal) (m ((c : Thread nD τ).loc main_arg0))) :
    StableHlo.after hostOps5_2 X (Proc.devRef .tc main_v113)
      = Cert.ReferenceIdeal.Read.val_main_v149 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) := by
  after_results_simp
  rw [h68, h1, h3]
  rfl

/-- The fourth stretch: the positive part of the edges' inner products. -/
theorem pos_relu (c : Dev nD) (X : Valuation τ sig (Elt Ideal))
    (h113 : X (Proc.devRef .tc main_v113)
      = Cert.ReferenceIdeal.Read.val_main_v149 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8))) :
    StableHlo.after hostOps5_3 X (Proc.devRef .tc main_v114)
      = Cert.ReferenceIdeal.Read.val_main_v150 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) := by
  -- first over the unknown contents, where the outlined function's identity transports meet no large term
  have e : StableHlo.after hostOps5_3 X (Proc.devRef .tc main_v114)
      = maximumf (F := Ideal) (X (Proc.devRef .tc main_v113))
          (broadcastInDim S524288 ![] bcast_S_S524288 (constant (F := Ideal) S_ .f32 0x00000000#32)) := by
    after_results_simp
    rfl
  rw [e, h113]
  rfl

/-- The last stretch: the two weighted sums of squares, their sum scaled, over the number of counted edges. -/
theorem loss_last (c : Dev nD) (X : Valuation τ sig (Elt Ideal))
    (h1 : X (Proc.devRef .tc main_v1)
      = Cert.ReferenceIdeal.Read.val_main_v1 (F := Ideal) (m ((c : Thread nD τ).loc main_arg0)))
    (h3 : X (Proc.devRef .tc main_v3)
      = Cert.ReferenceIdeal.Read.val_main_v3 (F := Ideal) (m ((c : Thread nD τ).loc main_arg0)))
    (ha3 : X (Proc.devRef .tc main_arg3)
      = (m ((c : Thread nD τ).loc main_arg3)))
    (ha4 : X (Proc.devRef .tc main_arg4)
      = (m ((c : Thread nD τ).loc main_arg4)))
    (h114 : X (Proc.devRef .tc main_v114)
      = Cert.ReferenceIdeal.Read.val_main_v150 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)))
    (h97 : X (Proc.devRef .tc main_v97)
      = Cert.ReferenceIdeal.Read.val_main_v133 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)))
    (h80 : X (Proc.devRef .tc main_v80)
      = Cert.ReferenceIdeal.Read.val_main_v116 (F := Ideal) (m ((c : Thread nD τ).loc main_arg1)))
    (h74 : X (Proc.devRef .tc main_v74)
      = Cert.ReferenceIdeal.Read.val_main_v110 (F := Ideal) (m ((c : Thread nD τ).loc main_arg0))) :
    StableHlo.after hostOps5_4 X (Proc.devRef .tc main_v148)
      = Cert.ReferenceIdeal.Read.val_main_v184 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  results_with_pairs
  rw [h1, h3, ha3, ha4, h114, h97, h80, h74]
  rfl

/-- The loss: the five stretches after the last region read the twice-normalised rows, the two rows of the
    edge list, and the arguments holding the negative edges, the similarities and the smoothing constant;
    with each of these at the reference's value, the program's loss is the reference's. -/
theorem loss_of_rep (c : Dev nD)
    (h : W14 (F := Ideal) m ρ c (Proc.devRef .tc main_v68)
      = Cert.ReferenceIdeal.Read.val_main_v104 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8))) :
    W20 (F := Ideal) m ρ c (Proc.devRef .tc main_v148)
      = Cert.ReferenceIdeal.Read.val_main_v184 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  -- what the last region leaves in the buffers the loss reads
  have e68 : W15 (F := Ideal) m ρ c (Proc.devRef .tc main_v68)
      = Cert.ReferenceIdeal.Read.val_main_v104 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) :=
    (W15_of_ne m ρ c main_v68 (by decide)).trans h
  have e1 : W15 (F := Ideal) m ρ c (Proc.devRef .tc main_v1)
      = Cert.ReferenceIdeal.Read.val_main_v1 (F := Ideal) (m ((c : Thread nD τ).loc main_arg0)) :=
    (W15_v1_eq_W1 m ρ c).trans (W1_v1 m ρ c)
  have e3 : W15 (F := Ideal) m ρ c (Proc.devRef .tc main_v3)
      = Cert.ReferenceIdeal.Read.val_main_v3 (F := Ideal) (m ((c : Thread nD τ).loc main_arg0)) :=
    (W15_v3_eq_W1 m ρ c).trans (W1_v3 m ρ c)
  -- after the first stretch
  have k74 : W16 (F := Ideal) m ρ c (Proc.devRef .tc main_v74)
      = Cert.ReferenceIdeal.Read.val_main_v110 (F := Ideal) (m ((c : Thread nD τ).loc main_arg0)) := edge_mask m c _ e1 e3
  have k80 : W16 (F := Ideal) m ρ c (Proc.devRef .tc main_v80)
      = Cert.ReferenceIdeal.Read.val_main_v116 (F := Ideal) (m ((c : Thread nD τ).loc main_arg1)) := neg_mask m c _ (W15_arg1 m ρ c)
  have k96 : W16 (F := Ideal) m ρ c (Proc.devRef .tc main_v96)
      = Cert.ReferenceIdeal.Read.val_main_v132 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := neg_dot m c _ e68 (W15_arg1 m ρ c)
  -- after the second
  have k97 : W17 (F := Ideal) m ρ c (Proc.devRef .tc main_v97)
      = Cert.ReferenceIdeal.Read.val_main_v133 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := neg_relu m c _ k96
  have s68 : W17 (F := Ideal) m ρ c (Proc.devRef .tc main_v68)
      = Cert.ReferenceIdeal.Read.val_main_v104 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) :=
    (by keep : W17 (F := Ideal) m ρ c (Proc.devRef .tc main_v68) = W16 (F := Ideal) m ρ c (Proc.devRef .tc main_v68)).trans ((by keep : W16 (F := Ideal) m ρ c (Proc.devRef .tc main_v68) = W15 (F := Ideal) m ρ c (Proc.devRef .tc main_v68)).trans (e68))
  have s1 : W17 (F := Ideal) m ρ c (Proc.devRef .tc main_v1)
      = Cert.ReferenceIdeal.Read.val_main_v1 (F := Ideal) (m ((c : Thread nD τ).loc main_arg0)) :=
    (by keep : W17 (F := Ideal) m ρ c (Proc.devRef .tc main_v1) = W16 (F := Ideal) m ρ c (Proc.devRef .tc main_v1)).trans ((by keep : W16 (F := Ideal) m ρ c (Proc.devRef .tc main_v1) = W15 (F := Ideal) m ρ c (Proc.devRef .tc main_v1)).trans (e1))
  have s3 : W17 (F := Ideal) m ρ c (Proc.devRef .tc main_v3)
      = Cert.ReferenceIdeal.Read.val_main_v3 (F := Ideal) (m ((c : Thread nD τ).loc main_arg0)) :=
    (by keep : W17 (F := Ideal) m ρ c (Proc.devRef .tc main_v3) = W16 (F := Ideal) m ρ c (Proc.devRef .tc main_v3)).trans ((by keep : W16 (F := Ideal) m ρ c (Proc.devRef .tc main_v3) = W15 (F := Ideal) m ρ c (Proc.devRef .tc main_v3)).trans (e3))
  -- after the third and the fourth
  have k113 : W18 (F := Ideal) m ρ c (Proc.devRef .tc main_v113)
      = Cert.ReferenceIdeal.Read.val_main_v149 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) := pos_dot m c _ s68 s1 s3
  have k114 : W19 (F := Ideal) m ρ c (Proc.devRef .tc main_v114)
      = Cert.ReferenceIdeal.Read.val_main_v150 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) := pos_relu m c _ k113
  -- the last stretch's other inputs, none written since they were computed
  have t1 : W19 (F := Ideal) m ρ c (Proc.devRef .tc main_v1)
      = Cert.ReferenceIdeal.Read.val_main_v1 (F := Ideal) (m ((c : Thread nD τ).loc main_arg0)) :=
    (by keep : W19 (F := Ideal) m ρ c (Proc.devRef .tc main_v1) = W18 (F := Ideal) m ρ c (Proc.devRef .tc main_v1)).trans ((by keep : W18 (F := Ideal) m ρ c (Proc.devRef .tc main_v1) = W17 (F := Ideal) m ρ c (Proc.devRef .tc main_v1)).trans (s1))
  have t3 : W19 (F := Ideal) m ρ c (Proc.devRef .tc main_v3)
      = Cert.ReferenceIdeal.Read.val_main_v3 (F := Ideal) (m ((c : Thread nD τ).loc main_arg0)) :=
    (by keep : W19 (F := Ideal) m ρ c (Proc.devRef .tc main_v3) = W18 (F := Ideal) m ρ c (Proc.devRef .tc main_v3)).trans ((by keep : W18 (F := Ideal) m ρ c (Proc.devRef .tc main_v3) = W17 (F := Ideal) m ρ c (Proc.devRef .tc main_v3)).trans (s3))
  have ta3 : W19 (F := Ideal) m ρ c (Proc.devRef .tc main_arg3) = (m ((c : Thread nD τ).loc main_arg3)) :=
    (by keep : W19 (F := Ideal) m ρ c (Proc.devRef .tc main_arg3) = W18 (F := Ideal) m ρ c (Proc.devRef .tc main_arg3)).trans ((by keep : W18 (F := Ideal) m ρ c (Proc.devRef .tc main_arg3) = W17 (F := Ideal) m ρ c (Proc.devRef .tc main_arg3)).trans ((by keep : W17 (F := Ideal) m ρ c (Proc.devRef .tc main_arg3) = W16 (F := Ideal) m ρ c (Proc.devRef .tc main_arg3)).trans ((by keep : W16 (F := Ideal) m ρ c (Proc.devRef .tc main_arg3) = W15 (F := Ideal) m ρ c (Proc.devRef .tc main_arg3)).trans (W15_arg3 m ρ c))))
  have ta4 : W19 (F := Ideal) m ρ c (Proc.devRef .tc main_arg4) = (m ((c : Thread nD τ).loc main_arg4)) :=
    (by keep : W19 (F := Ideal) m ρ c (Proc.devRef .tc main_arg4) = W18 (F := Ideal) m ρ c (Proc.devRef .tc main_arg4)).trans ((by keep : W18 (F := Ideal) m ρ c (Proc.devRef .tc main_arg4) = W17 (F := Ideal) m ρ c (Proc.devRef .tc main_arg4)).trans ((by keep : W17 (F := Ideal) m ρ c (Proc.devRef .tc main_arg4) = W16 (F := Ideal) m ρ c (Proc.devRef .tc main_arg4)).trans ((by keep : W16 (F := Ideal) m ρ c (Proc.devRef .tc main_arg4) = W15 (F := Ideal) m ρ c (Proc.devRef .tc main_arg4)).trans (W15_arg4 m ρ c))))
  have t97 : W19 (F := Ideal) m ρ c (Proc.devRef .tc main_v97)
      = Cert.ReferenceIdeal.Read.val_main_v133 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) :=
    (by keep : W19 (F := Ideal) m ρ c (Proc.devRef .tc main_v97) = W18 (F := Ideal) m ρ c (Proc.devRef .tc main_v97)).trans ((by keep : W18 (F := Ideal) m ρ c (Proc.devRef .tc main_v97) = W17 (F := Ideal) m ρ c (Proc.devRef .tc main_v97)).trans (k97))
  have t80 : W19 (F := Ideal) m ρ c (Proc.devRef .tc main_v80)
      = Cert.ReferenceIdeal.Read.val_main_v116 (F := Ideal) (m ((c : Thread nD τ).loc main_arg1)) :=
    (by keep : W19 (F := Ideal) m ρ c (Proc.devRef .tc main_v80) = W18 (F := Ideal) m ρ c (Proc.devRef .tc main_v80)).trans ((by keep : W18 (F := Ideal) m ρ c (Proc.devRef .tc main_v80) = W17 (F := Ideal) m ρ c (Proc.devRef .tc main_v80)).trans ((by keep : W17 (F := Ideal) m ρ c (Proc.devRef .tc main_v80) = W16 (F := Ideal) m ρ c (Proc.devRef .tc main_v80)).trans (k80)))
  have t74 : W19 (F := Ideal) m ρ c (Proc.devRef .tc main_v74)
      = Cert.ReferenceIdeal.Read.val_main_v110 (F := Ideal) (m ((c : Thread nD τ).loc main_arg0)) :=
    (by keep : W19 (F := Ideal) m ρ c (Proc.devRef .tc main_v74) = W18 (F := Ideal) m ρ c (Proc.devRef .tc main_v74)).trans ((by keep : W18 (F := Ideal) m ρ c (Proc.devRef .tc main_v74) = W17 (F := Ideal) m ρ c (Proc.devRef .tc main_v74)).trans ((by keep : W17 (F := Ideal) m ρ c (Proc.devRef .tc main_v74) = W16 (F := Ideal) m ρ c (Proc.devRef .tc main_v74)).trans (k74)))
  exact loss_last m c _ t1 t3 ta3 ta4 k114 t97 t80 t74

end Cert.KernelIdeal.Tail
-- ==== Proof.KernelTail.lean ====
import proofs.«107804_j58506044506600_1_alg».proof.Proof.KernelTailWalk
import proofs.«107804_j58506044506600_1_alg».proof.Proof.KernelTailVal
import proofs.«107804_j58506044506600_1_alg».proof.Proof.KernelTailRep
import proofs.«107804_j58506044506600_1_alg».proof.Proof.KernelTailLoss

/-! The end of the program read against the reference's stages, in namespace `Cert.KernelIdeal.Tail`:
`rep_end` and `y_end` (the buffers at the program's end), `rep_of_h2` and `y_inputs` (the two row
normalisations and the last region's inputs), `loss_of_rep` (the loss). -/
-- ==== Proof.Rows.lean ====
import Mathlib.Data.Fin.Basic
import Mathlib.Data.Int.Basic
import Mathlib.Tactic

/-! Node indices as they sit in the edge arrays: a 32-bit word read as a signed integer names one of
    the 16384 rows when it lies in `[0, 16384)`. -/

namespace Cert.Rows

/-- The row a 32-bit index word names (total: the signed reading taken modulo the number of rows; it is
    the signed reading itself on a word that is `InRange`). -/
def row (v : BitVec 32) : Fin 16384 := ⟨v.toInt.toNat % 16384, Nat.mod_lt _ (by decide)⟩

/-- The word, read signed, is a valid row number. -/
def InRange (v : BitVec 32) : Prop := 0 ≤ v.toInt ∧ v.toInt < 16384

theorem row_val {v : BitVec 32} (h : InRange v) : ((row v).val : Int) = v.toInt := by
  unfold row
  obtain ⟨h0, h1⟩ := h
  show ((v.toInt.toNat % 16384 : Nat) : Int) = v.toInt
  omega

theorem row_val_nat {v : BitVec 32} (h : InRange v) : (row v).val = v.toInt.toNat := by
  unfold row
  obtain ⟨h0, h1⟩ := h
  show v.toInt.toNat % 16384 = v.toInt.toNat
  omega

end Cert.Rows
-- ==== Proof.PreFacts.lean ====
/-
  The precondition read back. The printed predicate is a conjunction of eleven one-bit words: for each
  float argument, "every entry has absolute value below +infinity", and for the first integer argument,
  "every entry is at least 0" and "every entry is below 16384" (signed). When the conjunction is 1, every
  one of these tests is 1 at every index; at the exact instance an extended real whose absolute value
  max x (-x) lies below the top element is a real number, and a 32-bit word that compares signed
  at least 0 and below 16384 names a row.
-/
import proofs.«107804_j58506044506600_1_alg».proof.Pre_finite_inputs
import proofs.«107804_j58506044506600_1_alg».proof.Proof.Rows
import Idealize.ShloMosaic.Lib.ReduceAll
import Idealize.ShloMosaic.PureOps.Ideal

noncomputable section

namespace Cert.PreFacts

open Idealize.ShloMosaic Cert.Rows Cert.Pre_finite_inputs

/-- The rank-zero shape has exactly one index. -/
instance subsingleton_S_ : Subsingleton S_.Idx := ⟨fun a b => funext fun d => d.elim0⟩

/-- The bit pattern 0x7F800000 denotes the top element of the extended reals. -/
theorem inf_bits : (FloatOps.ofBits (F := Ideal) .f32 0x7F800000#32 : EReal) = ⊤ := by
  show Ideal.ofBits .f32 0x7F800000#32 = ⊤
  simp [Ideal.ofBits, Ideal.ieee]

/-- An extended real with max x (-x) below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element test: the comparison word "|x| < +infinity" is 1 only at a real number. -/
theorem real_of_test (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  rw [inf_bits] at h
  apply real_of_abs_lt_top
  have h' : Ideal.cmp .olt (max x (-x)) ⊤ = 1#1 := h
  unfold Ideal.cmp at h'
  by_contra hn
  simp [hn] at h'

/-- One printed "all entries finite" test that came out 1 makes every entry a real number. -/
theorem real_of_all {s : Shape} (x : FVec Ideal s .f32) (hb : S_.BroadcastsInDim s (![] : Fin 0 → Fin s.rank))
    {axes : List (Fin s.rank)} (hr : s.ReducesTo axes S_) (hu : 0 < S_.numel) (j : S_.Idx)
    (e : Host.reduce IntOp.andi
        (cmpf .olt (Host.absf x) (broadcastInDim s ![] hb (constant (F := Ideal) S_ .f32 0x7F800000#32)))
        (constantI S_ 1 1#1) hr hu j = 1#1) (i : s.Idx) : ∃ r : ℝ, x i = (r : EReal) :=
  real_of_test (x i) (Host.reduce_andi_all _ _ hr hu j e i)

/-- The two printed integer tests that came out 1 put every entry in the range of row numbers. -/
theorem inRange_of_all {s : Shape} (x : IVec s 32) (hb : S_.BroadcastsInDim s (![] : Fin 0 → Fin s.rank))
    {axes : List (Fin s.rank)} (hr : s.ReducesTo axes S_) (hu : 0 < S_.numel) (j : S_.Idx)
    (ege : Host.reduce IntOp.andi (cmpi .sge x (broadcastInDim s ![] hb (constantI S_ 32 0#32)))
        (constantI S_ 1 1#1) hr hu j = 1#1)
    (elt : Host.reduce IntOp.andi (cmpi .slt x (broadcastInDim s ![] hb (constantI S_ 32 16384#32)))
        (constantI S_ 1 1#1) hr hu j = 1#1) (i : s.Idx) : InRange (x i) := by
  have h0 : IntOp.cmpi .sge (x i) (0#32) = 1#1 := Host.reduce_andi_all _ _ hr hu j ege i
  have h1 : IntOp.cmpi .slt (x i) (16384#32) = 1#1 := Host.reduce_andi_all _ _ hr hu j elt i
  rw [IntOp.cmpi_sge] at h0
  rw [IntOp.cmpi_slt] at h1
  have z0 : (0#32 : BitVec 32).toInt = 0 := by decide
  have z1 : (16384#32 : BitVec 32).toInt = 16384 := by decide
  rw [z0] at h0
  rw [z1] at h1
  exact ⟨h0, h1⟩

/-- THE PRECONDITION DECODED: the first index array holds row numbers, and the node features, both weight
    matrices and both bias vectors of the two convolution layers hold real numbers. -/
theorem pre_facts [Cert.Pre_finite_inputs.Facts]
    (a0 a1 : IVec S2x524288 32) (a2 : FVec Ideal S16384x256 .f32) (a3 : FVec Ideal S16384x16384 .f32) (a4 : FVec Ideal S1 .f32)
    (a5 : FVec Ideal S256x256 .f32) (a6 : FVec Ideal S256 .f32) (a7 : FVec Ideal S256x256 .f32) (a8 : FVec Ideal S256 .f32)
    (a9 : FVec Ideal S256x40 .f32) (a10 : FVec Ideal S40 .f32)
    (h : Cert.Pre_finite_inputs.fn (F := Ideal) a0 a1 a2 a3 a4 a5 a6 a7 a8 a9 a10 = (fun _ => 1#1)) :
    (∀ i, InRange (a0 i)) ∧ (∀ i, ∃ r : ℝ, a2 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) := by
  have e := congrFun h (fun d => d.elim0)
  dsimp only [fn, fn_part1, fn_part2, fn_part3, andi] at e
  simp only [IntOp.andi_eq_one] at e
  obtain ⟨⟨⟨⟨⟨⟨⟨⟨⟨⟨h2, -⟩, -⟩, h5⟩, h6⟩, h7⟩, h8⟩, -⟩, -⟩, hge⟩, hlt⟩ := e
  exact ⟨inRange_of_all a0 _ _ _ _ hge hlt, real_of_all a2 _ _ _ _ h2, real_of_all a5 _ _ _ _ h5,
    real_of_all a6 _ _ _ _ h6, real_of_all a7 _ _ _ _ h7, real_of_all a8 _ _ _ _ h8⟩

end Cert.PreFacts

end
-- ==== Proof.KernelPeel.lean ====
import proofs.«107804_j58506044506600_1_alg».proof.Proof.Gen.KernelIdeal.Frame
import Idealize.ShloMosaic.PureOps.Ideal

/-! The idealized kernel's buffer contents between its matmul regions, walked through the fold of @main:
    what each of the first four regions finds in its input arrays (a format change of an earlier region's
    output or of an argument, a reshape of a bias, or the dense adjacency carried unchanged from before
    the first region), and which buffer each region's output array is. -/

set_option maxRecDepth 16384

noncomputable section

namespace Cert.KernelIdeal.Peel

open Cert.KernelIdeal Cert.KernelIdeal.Gen Cert.KernelIdeal.Facts
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg)

/-- No operation of the stretch writes the buffer. -/
macro "nowrite " ops:ident : tactic => `(tactic|
  exact List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- A buffer that no operation of a stretch writes keeps its contents over the stretch. -/
macro "unwritten_by " ops:ident : tactic => `(tactic|
  exact StableHlo.after_of_forall_not_mem _ _ (by nowrite $ops))

/-! ## The arguments, as launched, at the boundaries where a later stretch reads them -/

/-- A buffer none of the three stretches before the first region writes holds its launch contents there. -/
theorem W3_arg (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes) :
    W3 (F := Ideal) m ρ c (Proc.devRef .tc b) = m ((c : Thread nD τ).loc b) :=
  calc W3 (F := Ideal) m ρ c (Proc.devRef .tc b)
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

theorem W3_arg2 (c : Dev nD) : W3 (F := Ideal) m ρ c (Proc.devRef .tc main_arg2) = m ((c : Thread nD τ).loc main_arg2) :=
  W3_arg m ρ c main_arg2 (by nowrite hostOps0) (by nowrite hostOps0_1) (by nowrite hostOps0_2)
theorem W3_arg5 (c : Dev nD) : W3 (F := Ideal) m ρ c (Proc.devRef .tc main_arg5) = m ((c : Thread nD τ).loc main_arg5) :=
  W3_arg m ρ c main_arg5 (by nowrite hostOps0) (by nowrite hostOps0_1) (by nowrite hostOps0_2)
theorem W3_arg6 (c : Dev nD) : W3 (F := Ideal) m ρ c (Proc.devRef .tc main_arg6) = m ((c : Thread nD τ).loc main_arg6) :=
  W3_arg m ρ c main_arg6 (by nowrite hostOps0) (by nowrite hostOps0_1) (by nowrite hostOps0_2)
theorem W3_arg7 (c : Dev nD) : W3 (F := Ideal) m ρ c (Proc.devRef .tc main_arg7) = m ((c : Thread nD τ).loc main_arg7) :=
  W3_arg m ρ c main_arg7 (by nowrite hostOps0) (by nowrite hostOps0_1) (by nowrite hostOps0_2)
theorem W3_arg8 (c : Dev nD) : W3 (F := Ideal) m ρ c (Proc.devRef .tc main_arg8) = m ((c : Thread nD τ).loc main_arg8) :=
  W3_arg m ρ c main_arg8 (by nowrite hostOps0) (by nowrite hostOps0_1) (by nowrite hostOps0_2)

theorem W4_arg6 (c : Dev nD) : W4 (F := Ideal) m ρ c (Proc.devRef .tc main_arg6) = m ((c : Thread nD τ).loc main_arg6) :=
  (W4_of_ne m ρ c main_arg6 (by decide)).trans (W3_arg6 m ρ c)

theorem W6_arg7 (c : Dev nD) : W6 (F := Ideal) m ρ c (Proc.devRef .tc main_arg7) = m ((c : Thread nD τ).loc main_arg7) :=
  calc W6 (F := Ideal) m ρ c (Proc.devRef .tc main_arg7)
    _ = W5 m ρ c (Proc.devRef .tc main_arg7) := W6_of_ne m ρ c main_arg7 (by decide)
    _ = W4 m ρ c (Proc.devRef .tc main_arg7) := by unwritten_by hostOps1
    _ = W3 m ρ c (Proc.devRef .tc main_arg7) := W4_of_ne m ρ c main_arg7 (by decide)
    _ = _ := W3_arg7 m ρ c

theorem W8_arg8 (c : Dev nD) : W8 (F := Ideal) m ρ c (Proc.devRef .tc main_arg8) = m ((c : Thread nD τ).loc main_arg8) :=
  calc W8 (F := Ideal) m ρ c (Proc.devRef .tc main_arg8)
    _ = W7 m ρ c (Proc.devRef .tc main_arg8) := W8_of_ne m ρ c main_arg8 (by decide)
    _ = W6 m ρ c (Proc.devRef .tc main_arg8) := by unwritten_by hostOps2
    _ = W5 m ρ c (Proc.devRef .tc main_arg8) := W6_of_ne m ρ c main_arg8 (by decide)
    _ = W4 m ρ c (Proc.devRef .tc main_arg8) := by unwritten_by hostOps1
    _ = W3 m ρ c (Proc.devRef .tc main_arg8) := W4_of_ne m ρ c main_arg8 (by decide)
    _ = _ := W3_arg8 m ρ c

/-! ## Region 0: features times the first weight matrix -/

theorem in0_x (c : Dev nD) : @Eq (FVec Ideal S16384x256 .bf16) (V3 (F := Ideal) m ρ c main_v47) (truncf (F := Ideal) (s := S16384x256) (φ := .f32) .bf16 (m ((c : Thread nD τ).loc main_arg2)) bitsLt_bf16_f32) := by
  show StableHlo.after hostOps0_2 (W2 m ρ c) (Proc.devRef .tc main_v47) = _
  after_results_simp

theorem in0_w (c : Dev nD) : @Eq (FVec Ideal S256x256 .bf16) (V3 (F := Ideal) m ρ c main_v48) (truncf (F := Ideal) (s := S256x256) (φ := .f32) .bf16 (m ((c : Thread nD τ).loc main_arg5)) bitsLt_bf16_f32) := by
  show StableHlo.after hostOps0_2 (W2 m ρ c) (Proc.devRef .tc main_v48) = _
  after_results_simp

theorem out0 (c : Dev nD) : W4 (F := Ideal) m ρ c (Proc.devRef .tc main_v49) = (dat0 (V3 m ρ) c).arrAt 2 cfg0.N :=
  W4_arr m ρ c 2

/-! ## Region 1: the first aggregation -/

/-- The dense adjacency is not touched between the first region's entry and the second's. -/
theorem in1_a (c : Dev nD) : V5 (F := Ideal) m ρ c main_v46 = V3 m ρ c main_v46 :=
  calc W5 (F := Ideal) m ρ c (Proc.devRef .tc main_v46)
    _ = W4 m ρ c (Proc.devRef .tc main_v46) := by unwritten_by hostOps1
    _ = W3 m ρ c (Proc.devRef .tc main_v46) := W4_of_ne m ρ c main_v46 (by decide)

theorem in1_xw (c : Dev nD) :
    @Eq (FVec Ideal S16384x256 .bf16) (V5 (F := Ideal) m ρ c main_v50) (truncf (F := Ideal) (s := S16384x256) (φ := .f32) .bf16 (W4 m ρ c (Proc.devRef .tc main_v49)) bitsLt_bf16_f32) := by
  show StableHlo.after hostOps1 (W4 m ρ c) (Proc.devRef .tc main_v50) = _
  after_results_simp

theorem in1_b (c : Dev nD) :
    V5 (F := Ideal) m ρ c main_v51 = fun i => shapeCast main_v51.ty.shape (m ((c : Thread nD τ).loc main_arg6)) shapeCasts_S256_S1x256 i := by
  show StableHlo.after hostOps1 (W4 m ρ c) (Proc.devRef .tc main_v51) = _
  after_results_simp
  exact congrArg (fun x => fun i => shapeCast main_v51.ty.shape x shapeCasts_S256_S1x256 i) (W4_arg6 m ρ c)

theorem out1 (c : Dev nD) : W6 (F := Ideal) m ρ c (Proc.devRef .tc main_v52) = (dat1 (V5 m ρ) c).arrAt 3 cfg1.N :=
  W6_arr m ρ c 3

/-- An input array of the second region leaves it as it entered. -/
theorem W6_v46 (c : Dev nD) : W6 (F := Ideal) m ρ c (Proc.devRef .tc main_v46) = W5 m ρ c (Proc.devRef .tc main_v46) :=
  (W6_arr m ρ c 0).trans (((dat1 (V5 m ρ) c).arrAt_in 0 rfl cfg1.N).trans (A_eq1 (V5 m ρ) c 0))

/-! ## Region 2: the hidden layer times the second weight matrix -/

theorem in2_h (c : Dev nD) :
    @Eq (FVec Ideal S16384x256 .bf16) (V7 (F := Ideal) m ρ c main_v53) (truncf (F := Ideal) (s := S16384x256) (φ := .f32) .bf16 (W6 m ρ c (Proc.devRef .tc main_v52)) bitsLt_bf16_f32) := by
  show StableHlo.after hostOps2 (W6 m ρ c) (Proc.devRef .tc main_v53) = _
  after_results_simp

theorem in2_w (c : Dev nD) : @Eq (FVec Ideal S256x256 .bf16) (V7 (F := Ideal) m ρ c main_v54) (truncf (F := Ideal) (s := S256x256) (φ := .f32) .bf16 (m ((c : Thread nD τ).loc main_arg7)) bitsLt_bf16_f32) := by
  show StableHlo.after hostOps2 (W6 m ρ c) (Proc.devRef .tc main_v54) = _
  after_results_simp
  exact congrArg (fun x => truncf (F := Ideal) (s := S256x256) (φ := .f32) .bf16 x bitsLt_bf16_f32) (W6_arg7 m ρ c)

theorem out2 (c : Dev nD) : W8 (F := Ideal) m ρ c (Proc.devRef .tc main_v55) = (dat2 (V7 m ρ) c).arrAt 2 cfg2.N :=
  W8_arr m ρ c 2

/-! ## Region 3: the second aggregation -/

/-- The dense adjacency reaches the fourth region as it was before the first. -/
theorem in3_a (c : Dev nD) : V9 (F := Ideal) m ρ c main_v46 = V3 m ρ c main_v46 :=
  calc W9 (F := Ideal) m ρ c (Proc.devRef .tc main_v46)
    _ = W8 m ρ c (Proc.devRef .tc main_v46) := by unwritten_by hostOps3
    _ = W7 m ρ c (Proc.devRef .tc main_v46) := W8_of_ne m ρ c main_v46 (by decide)
    _ = W6 m ρ c (Proc.devRef .tc main_v46) := by unwritten_by hostOps2
    _ = W5 m ρ c (Proc.devRef .tc main_v46) := W6_v46 m ρ c
    _ = W3 m ρ c (Proc.devRef .tc main_v46) := in1_a m ρ c

theorem in3_xw (c : Dev nD) :
    @Eq (FVec Ideal S16384x256 .bf16) (V9 (F := Ideal) m ρ c main_v56) (truncf (F := Ideal) (s := S16384x256) (φ := .f32) .bf16 (W8 m ρ c (Proc.devRef .tc main_v55)) bitsLt_bf16_f32) := by
  show StableHlo.after hostOps3 (W8 m ρ c) (Proc.devRef .tc main_v56) = _
  after_results_simp

theorem in3_b (c : Dev nD) :
    V9 (F := Ideal) m ρ c main_v57 = fun i => shapeCast main_v57.ty.shape (m ((c : Thread nD τ).loc main_arg8)) shapeCasts_S256_S1x256 i := by
  show StableHlo.after hostOps3 (W8 m ρ c) (Proc.devRef .tc main_v57) = _
  after_results_simp
  exact congrArg (fun x => fun i => shapeCast main_v57.ty.shape x shapeCasts_S256_S1x256 i) (W8_arg8 m ρ c)

theorem out3 (c : Dev nD) : W10 (F := Ideal) m ρ c (Proc.devRef .tc main_v58) = (dat3 (V9 m ρ) c).arrAt 3 cfg3.N :=
  W10_arr m ρ c 3

end Cert.KernelIdeal.Peel

end
-- ==== Proof.LibTransport.lean ====
/-
  Transport of a value along "this buffer's type is the value's type".

  An operation of an outlined host function reads and writes its buffers through typed references: a value of type `T`
  is written to a buffer `r` with `r.ty = T` by transporting it along that equation, and read back by the transport the
  other way.  Whatever the equation's proof, a transported value is heterogeneously equal to the value itself.
-/
import Idealize.ShloMosaic.Lib.StableHlo

namespace Cert.Lib.Transport

open Idealize.ShloMosaic Idealize.ShloMosaic.StableHlo

variable {sig : RefSig} {T : BufTy} {Val : EltTy → Type}

/-- A value written through a typed reference is, up to the type equation it is carried along, the value.
    For a LITERAL reference the two types agree by computation, so `(TRef.of r).toBuf v = v` is well typed and is
    `eq_of_heq (toBuf_heq (TRef.of r) v)`.  State that equation for a VARIABLE `v` and rewrite with it: comparing the two sides
    by computation instead has to normalise `v` itself, and for a vector computed by a scatter or a gather that means
    evaluating it. -/
theorem toBuf_heq (x : TRef sig T) (v : T.Contents Val) : HEq (x.toBuf v) v :=
  cast_heq _ v

/-- A value read back through a typed reference is, up to the same type equation, the buffer's contents.
    For a literal reference `(TRef.of r).ofBuf v = v` is `eq_of_heq (ofBuf_heq (TRef.of r) v)` (name the reference: the type of `v`
    depends on it); use it as `toBuf_heq`. -/
theorem ofBuf_heq (x : TRef sig T) (v : x.ref.ty.Contents Val) : HEq (x.ofBuf v) v :=
  cast_heq _ v

end Cert.Lib.Transport
-- ==== Proof.KernelAdj.lean ====
import proofs.«107804_j58506044506600_1_alg».proof.Proof.Gen.KernelIdeal.Frame
import proofs.«107804_j58506044506600_1_alg».proof.Proof.RefStages
import Idealize.ShloMosaic.PureOps.Ideal
import proofs.«107804_j58506044506600_1_alg».proof.Proof.LibTransport

/-! The dense adjacency the idealized kernel builds before its first region, in the reference program's
    own vocabulary: the accumulating scatter, into a zero 16384×16384 matrix, of the edge weights
    `dinv[source] · dinv[target]` at the index pairs (target, source) — the same wrapped index columns and
    the same two gathers of `dinv` that the reference program computes (its stages %29, %21, %22, %30). -/

set_option maxRecDepth 16384

noncomputable section

namespace Cert.KernelIdeal.Adj

open Cert.KernelIdeal Cert.KernelIdeal.Gen Cert.KernelIdeal.Facts
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg)

/-- Two arrays joined along an axis, the two pieces as plain arguments (the side condition on the shapes
    does not mention them). -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem concatenate_pair_eq {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ h x₁ x₂ := rfl

/-! The outlined `where` reads and writes its buffers through typed references; at a literal buffer the
    transport is the identity. -/
section Transports
variable {Val : EltTy → Type}
theorem toBuf_v15 (h1 h2 h3) (v : (⟨S16384, .f32⟩ : BufTy).Contents Val) :
    (TRef.of (T := ⟨S16384, .f32⟩) main_v15 h1 h2 h3).toBuf v = v := eq_of_heq (Cert.Lib.Transport.toBuf_heq _ v)
theorem ofBuf_v12 (h1 h2 h3) (v : (⟨S16384, .i1⟩ : BufTy).Contents Val) :
    (TRef.of (T := ⟨S16384, .i1⟩) main_v12 h1 h2 h3).ofBuf v = v :=
  eq_of_heq (Cert.Lib.Transport.ofBuf_heq (TRef.of (T := ⟨S16384, .i1⟩) main_v12 h1 h2 h3) v)
theorem ofBuf_v14 (h1 h2 h3) (v : (⟨S16384, .f32⟩ : BufTy).Contents Val) :
    (TRef.of (T := ⟨S16384, .f32⟩) main_v14 h1 h2 h3).ofBuf v = v :=
  eq_of_heq (Cert.Lib.Transport.ofBuf_heq (TRef.of (T := ⟨S16384, .f32⟩) main_v14 h1 h2 h3) v)
theorem toBuf_call0_v1 (h1 h2 h3) (v : (⟨S16384, .f32⟩ : BufTy).Contents Val) :
    (TRef.of (T := ⟨S16384, .f32⟩) main_call0_v1 h1 h2 h3).toBuf v = v := eq_of_heq (Cert.Lib.Transport.toBuf_heq _ v)
theorem ofBuf_call0_v1 (h1 h2 h3) (v : (⟨S16384, .f32⟩ : BufTy).Contents Val) :
    (TRef.of (T := ⟨S16384, .f32⟩) main_call0_v1 h1 h2 h3).ofBuf v = v :=
  eq_of_heq (Cert.Lib.Transport.ofBuf_heq (TRef.of (T := ⟨S16384, .f32⟩) main_call0_v1 h1 h2 h3) v)
theorem toBuf_call0_v0 (h1 h2 h3) (v : (⟨S_, .f32⟩ : BufTy).Contents Val) :
    (TRef.of (T := ⟨S_, .f32⟩) main_call0_v0 h1 h2 h3).toBuf v = v := eq_of_heq (Cert.Lib.Transport.toBuf_heq _ v)
theorem ofBuf_call0_v0 (h1 h2 h3) (v : (⟨S_, .f32⟩ : BufTy).Contents Val) :
    (TRef.of (T := ⟨S_, .f32⟩) main_call0_v0 h1 h2 h3).ofBuf v = v :=
  eq_of_heq (Cert.Lib.Transport.ofBuf_heq (TRef.of (T := ⟨S_, .f32⟩) main_call0_v0 h1 h2 h3) v)
theorem ofBuf_cst_3 (h1 h2 h3) (v : (⟨S_, .f32⟩ : BufTy).Contents Val) :
    (TRef.of (T := ⟨S_, .f32⟩) main_cst_3 h1 h2 h3).ofBuf v = v :=
  eq_of_heq (Cert.Lib.Transport.ofBuf_heq (TRef.of (T := ⟨S_, .f32⟩) main_cst_3 h1 h2 h3) v)
end Transports

/-- The adjacency matrix as a function of the edge array. -/
def adjacency (x0 : IVec S2x524288 32) : FVec Ideal S16384x16384 .f32 :=
  Host.scatterAdd (F := Ideal) scatter_S16384x16384_S540672x2_S540672_n_01_01_1
    (broadcastInDim S16384x16384 ![] bcast_S_S16384x16384 (constant (F := Ideal) S_ .f32 0#32))
    (concatenate S540672x2 1 [⟨S540672x1, Cert.ReferenceIdeal.Read.val_main_v29 (F := Ideal) x0⟩,
      ⟨S540672x1, Cert.ReferenceIdeal.Read.val_main_v21 (F := Ideal) x0⟩] concatenates_S540672x1_S540672x1_S540672x2_d1)
    (mulf (Cert.ReferenceIdeal.Read.val_main_v22 (F := Ideal) x0) (Cert.ReferenceIdeal.Read.val_main_v30 (F := Ideal) x0))

set_option maxHeartbeats 4000000 in
/-- What the first region (and every later one) finds in the adjacency buffer. -/
theorem adj_eq (c : Dev nD) :
    @Eq (FVec Ideal S16384x16384 .bf16) (V3 (F := Ideal) m ρ c main_v46)
      (truncf (F := Ideal) (s := S16384x16384) (φ := .f32) .bf16 (adjacency (m ((c : Thread nD τ).loc main_arg0))) bitsLt_bf16_f32) := by
  show StableHlo.after hostOps0_2 (StableHlo.after hostOps0_1 (StableHlo.after hostOps0 (W0 m ρ c))) (Proc.devRef .tc main_v46) = _
  simp (disch := decide) only [concatenate_pair_eq, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  unfold adjacency
  simp only [concatenate_pair_eq, Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_cst, Cert.ReferenceIdeal.Read.val_main_v7, Cert.ReferenceIdeal.Read.val_main_cst_0, Cert.ReferenceIdeal.Read.val_main_v8, Cert.ReferenceIdeal.Read.val_main_v9, Cert.ReferenceIdeal.Read.val_main_v10, Cert.ReferenceIdeal.Read.val_main_cst_1, Cert.ReferenceIdeal.Read.val_main_v11, Cert.ReferenceIdeal.Read.val_main_v12, Cert.ReferenceIdeal.Read.val_main_cst_2, Cert.ReferenceIdeal.Read.val_main_v13, Cert.ReferenceIdeal.Read.val_main_v14, Cert.ReferenceIdeal.Read.val_main_cst_3, Cert.ReferenceIdeal.Read.val_main_call0_v0, Cert.ReferenceIdeal.Read.val_main_call0_v1, Cert.ReferenceIdeal.Read.val_main_v15, Cert.ReferenceIdeal.Read.val_main_c, Cert.ReferenceIdeal.Read.val_main_v16, Cert.ReferenceIdeal.Read.val_main_v17, Cert.ReferenceIdeal.Read.val_main_c_4, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_v23, Cert.ReferenceIdeal.Read.val_main_c_5, Cert.ReferenceIdeal.Read.val_main_v24, Cert.ReferenceIdeal.Read.val_main_v25, Cert.ReferenceIdeal.Read.val_main_c_6, Cert.ReferenceIdeal.Read.val_main_v26, Cert.ReferenceIdeal.Read.val_main_v27, Cert.ReferenceIdeal.Read.val_main_v28, Cert.ReferenceIdeal.Read.val_main_v29, Cert.ReferenceIdeal.Read.val_main_v30]
  simp only [toBuf_v15, ofBuf_v12, ofBuf_v14, toBuf_call0_v1, ofBuf_call0_v1, toBuf_call0_v0, ofBuf_call0_v0, ofBuf_cst_3, id]
  rfl

end Cert.KernelIdeal.Adj

end
-- ==== Proof.RegionLinear0.lean ====
import proofs.«107804_j58506044506600_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The block offsets of a whole-buffer access are all zero. -/
theorem linear0_zero_offsets : (![0, 0] : Fin 2 → Nat) = fun _ => 0 := funext fun a => by fin_cases a <;> rfl

/-- The left operand's row coordinate is the output's row. -/
theorem linear0_lhs_row (i : S2048x256.Idx) (r : dot_S2048x256_S256x256_S2048x256_1_0_0_1_n_n.contr.Idx) :
    (dot_S2048x256_S256x256_S2048x256_1_0_0_1_n_n.lhsIdx i r 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- The left operand's column coordinate is the contracted one. -/
theorem linear0_lhs_col (i : S2048x256.Idx) (r : dot_S2048x256_S256x256_S2048x256_1_0_0_1_n_n.contr.Idx) :
    (dot_S2048x256_S256x256_S2048x256_1_0_0_1_n_n.lhsIdx i r 1).val = (r ⟨0, by decide⟩).val :=
  dot_S2048x256_S256x256_S2048x256_1_0_0_1_n_n.lhsIdx_val_of_single rfl i r
/-- The right operand's row coordinate is the contracted one. -/
theorem linear0_rhs_row (i : S2048x256.Idx) (r : dot_S2048x256_S256x256_S2048x256_1_0_0_1_n_n.contr.Idx) :
    (dot_S2048x256_S256x256_S2048x256_1_0_0_1_n_n.rhsIdx i r 0).val = (r ⟨0, by decide⟩).val :=
  dot_S2048x256_S256x256_S2048x256_1_0_0_1_n_n.rhsIdx_val_of_single rfl i r
/-- The right operand's column coordinate is the output's column. -/
theorem linear0_rhs_col (i : S2048x256.Idx) (r : dot_S2048x256_S256x256_S2048x256_1_0_0_1_n_n.contr.Idx) :
    (dot_S2048x256_S256x256_S2048x256_1_0_0_1_n_n.rhsIdx i r 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's stored value at row `p`, column `q` of its block: the row of the first block times the column of the
    second, summed over the 256 contracted coordinates (the accumulator is the zero splat). -/
theorem linear0_payload_apply (x0 : Vec Ideal S2048x256 .bf16) (x1 : Vec Ideal S256x256 .bf16) (p : Fin 2048) (q : Fin 256) :
    k0_pay1 (F := Ideal) x0 x1 (ix2 p q) = ∑ k : Fin 256, x0 (ix2 p k) * x1 (ix2 k q) := by
  unfold k0_pay1
  rw [shapeCast_self, shapeCast_self]
  simp only [matmul]
  refine (Ideal.matmul_constant_zero_apply (φ₁ := .bf16) (φ₂ := .bf16) dot_S2048x256_S256x256_S2048x256_1_0_0_1_n_n none x0 x1 (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k :=
    funext fun a => Fin.ext (by
      match a with
      | ⟨0, _⟩ => exact linear0_lhs_row _ _
      | ⟨1, _⟩ => exact (linear0_lhs_col _ _).trans hk)
  have er : dot_S2048x256_S256x256_S2048x256_1_0_0_1_n_n.rhsIdx (ix2 p q) ((contrEquiv1 dot_S2048x256_S256x256_S2048x256_1_0_0_1_n_n 256 rfl rfl).symm k) = ix2 k q :=
    funext fun a => Fin.ext (by
      match a with
      | ⟨0, _⟩ => exact (linear0_rhs_row _ _).trans hk
      | ⟨1, _⟩ => exact linear0_rhs_col _ _)
  rw [el, er]

variable (V : (c : Dev nD) → (b : Ref sig .tc) → Buf (Elt Ideal) ((c : Thread nD τ).loc b))

/-- The three windows' arrays are the two converted operands and the call's result. -/
theorem arr0_0 : Pipeline.arrRef spec0 0 = main_v47 := rfl
theorem arr0_1 : Pipeline.arrRef spec0 1 = main_v48 := rfl
theorem arr0_2 : Pipeline.arrRef spec0 2 = main_v49 := rfl

/-- The matrix product of a 16384×256 array with a 256×256 array, entry by entry. -/
abbrev product0 (a : S16384x256.Idx → EReal) (b : S256x256.Idx → EReal) : S16384x256.Idx → EReal :=
  fun i => ∑ k : Fin 256, a (ix2 (⟨(i 0).val, idx2_lt0 i⟩ : Fin 16384) k) * b (ix2 k (⟨(i 1).val, idx2_lt1 i⟩ : Fin 256))

/-- The printed index maps over the eight grid points: the left operand's row block moves with the output's, which is the
    point's number; every other block index is zero. -/
theorem linear0_index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the product of the two operand arrays as the region finds them. -/
theorem linear0_flushed_eq (c : Dev nD) (X : S16384x256.Idx → EReal) (W : S256x256.Idx → EReal)
    (hX : V c main_v47 = X) (hW : V c main_v48 = W) (t : Fin cfg0.N) :
    (dat0 (F := Ideal) V c).flushed 2 t = ((cfg0.win 2).blk t).view.read (Elt Ideal) (product0 X W) := by
  show (cfg0.win 2).cut (grid0.coords t) ((dat0 V c).after 2 t) = _
  rw [after0_2]
  unfold out0_2
  rw [View.canon_unit_zero linear0_zero_offsets]
  simp only [View.ld_unit_zero (S := S2048x256) linear0_zero_offsets, View.ld_unit_zero (S := S256x256) linear0_zero_offsets]
  have hb0 : iblk0 V c 0 t = fun y => X (((cfg0.win 0).blk t).view.emb y) := by rw [← hX]; rfl
  have hb1 : iblk0 V c 1 t = fun y => W (((cfg0.win 1).blk t).view.emb y) := by rw [← hW]; rfl
  rw [hb0, hb1]
  obtain ⟨e0, e1, e2, e3, e4, e5⟩ := linear0_index_facts t
  funext j
  obtain ⟨p, q, rfl⟩ : ∃ (p : Fin 2048) (q : Fin 256), j = ix2 p q := ⟨j 0, j 1, eq_ix2 j⟩
  show k0_pay1 (F := Ideal) (fun y => X (((cfg0.win 0).blk t).view.emb y)) (fun y => W (((cfg0.win 1).blk t).view.emb y)) (ix2 p q)
      = product0 X W (((cfg0.win 2).blk t).view.emb (ix2 p q))
  refine (linear0_payload_apply _ _ p q).trans ?_
  refine Finset.sum_congr rfl fun k _ => ?_
  have h0 : ((cfg0.win 0).blk t).view.emb (ix2 p k)
      = (ix2 (⟨((((cfg0.win 2).blk t).view.emb (ix2 p q)) 0).val, idx2_lt0 _⟩ : Fin 16384) k : S16384x256.Idx) := by
    funext a; apply Fin.ext
    match a with
    | ⟨0, _⟩ => show win0_0.index t (0 : Fin 2) * 2048 + 1 * p.val = win0_2.index t (0 : Fin 2) * 2048 + 1 * p.val; omega
    | ⟨1, _⟩ => show win0_0.index t (1 : Fin 2) * 256 + 1 * k.val = k.val; omega
  have h1 : ((cfg0.win 1).blk t).view.emb (ix2 k q)
      = (ix2 k (⟨((((cfg0.win 2).blk t).view.emb (ix2 p q)) 1).val, idx2_lt1 _⟩ : Fin 256) : S256x256.Idx) := by
    funext a; apply Fin.ext
    match a with
    | ⟨0, _⟩ => show win0_1.index t (0 : Fin 2) * 256 + 1 * k.val = k.val; omega
    | ⟨1, _⟩ => show win0_1.index t (1 : Fin 2) * 256 + 1 * q.val = win0_2.index t (1 : Fin 2) * 256 + 1 * q.val; omega
  show X (((cfg0.win 0).blk t).view.emb (ix2 p k)) * W (((cfg0.win 1).blk t).view.emb (ix2 k q)) = _
  rw [h0, h1]

/-- An index of the result array is in point `t`'s block iff each coordinate is in the block's range on its axis. -/
theorem linear0_mem_block (t : Fin cfg0.N) (i : S16384x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v49).slice (win0_2.rect t)).set ↔ _
  rw [View.set_slice_whole, Rect.mem_set_unit]
  exact Iff.rfl

/-- Every entry of the result array lies in the block of the point numbered by its row's quotient by 2048. -/
theorem linear0_cover (i : S16384x256.Idx) :
    ∃ t : Fin cfg0.N, (cfg0.win 2).flush t = true ∧ i ∈ ((cfg0.win 2).blk t).view.set := by
  have hi0 : (i 0).val < 16384 := idx2_lt0 i
  have hi1 : (i 1).val < 256 := idx2_lt1 i
  have hN : cfg0.N = 8 := N_0
  obtain ⟨t, ht⟩ : ∃ t : Fin cfg0.N, t.val = (i 0).val / 2048 := ⟨⟨(i 0).val / 2048, by rw [hN]; omega⟩, rfl⟩
  obtain ⟨-, -, -, -, e4, e5⟩ := linear0_index_facts t
  refine ⟨t, flush0_2 t, ?_⟩
  rw [linear0_mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- The result array after the region is the product of the two operand arrays as the region finds them. -/
theorem linear0_final (c : Dev nD) (X : S16384x256.Idx → EReal) (W : S256x256.Idx → EReal)
    (hX : V c main_v47 = X) (hW : V c main_v48 = W) :
    (dat0 (F := Ideal) V c).arrAt 2 cfg0.N = product0 X W :=
  (dat0 V c).arrAt_eq_of_cover 2 (product0 X W) (fun t _ => linear0_flushed_eq V c X W hX hW t) linear0_cover

/-- Entry by entry: row `p`, column `q` of the result is the sum over `k` of the left array at (p, k) times the right
    array at (k, q). -/
theorem final0_of (c : Dev nD) (X : S16384x256.Idx → EReal) (W : S256x256.Idx → EReal)
    (hX : V c main_v47 = X) (hW : V c main_v48 = W) (p : Fin 16384) (q : Fin 256) :
    (dat0 (F := Ideal) V c).arrAt 2 cfg0.N (ix2 p q) = ∑ k : Fin 256, X (ix2 p k) * W (ix2 k q) :=
  congrFun (linear0_final V c X W hX hW) (ix2 p q)

end Cert.KernelIdeal.RegionValue
end
-- ==== Proof.RegionLinear2.lean ====
import proofs.«107804_j58506044506600_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The block offsets of a whole-buffer access are all zero. -/
theorem linear2_zero_offsets : (![0, 0] : Fin 2 → Nat) = fun _ => 0 := funext fun a => by fin_cases a <;> rfl

/-- The left operand's row coordinate is the output's row. -/
theorem linear2_lhs_row (i : S2048x256.Idx) (r : dot_S2048x256_S256x256_S2048x256_1_0_0_1_n_n.contr.Idx) :
    (dot_S2048x256_S256x256_S2048x256_1_0_0_1_n_n.lhsIdx i r 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- The left operand's column coordinate is the contracted one. -/
theorem linear2_lhs_col (i : S2048x256.Idx) (r : dot_S2048x256_S256x256_S2048x256_1_0_0_1_n_n.contr.Idx) :
    (dot_S2048x256_S256x256_S2048x256_1_0_0_1_n_n.lhsIdx i r 1).val = (r ⟨0, by decide⟩).val :=
  dot_S2048x256_S256x256_S2048x256_1_0_0_1_n_n.lhsIdx_val_of_single rfl i r
/-- The right operand's row coordinate is the contracted one. -/
theorem linear2_rhs_row (i : S2048x256.Idx) (r : dot_S2048x256_S256x256_S2048x256_1_0_0_1_n_n.contr.Idx) :
    (dot_S2048x256_S256x256_S2048x256_1_0_0_1_n_n.rhsIdx i r 0).val = (r ⟨0, by decide⟩).val :=
  dot_S2048x256_S256x256_S2048x256_1_0_0_1_n_n.rhsIdx_val_of_single rfl i r
/-- The right operand's column coordinate is the output's column. -/
theorem linear2_rhs_col (i : S2048x256.Idx) (r : dot_S2048x256_S256x256_S2048x256_1_0_0_1_n_n.contr.Idx) :
    (dot_S2048x256_S256x256_S2048x256_1_0_0_1_n_n.rhsIdx i r 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The body's stored value at row `p`, column `q` of its block: the row of the first block times the column of the
    second, summed over the 256 contracted coordinates (the accumulator is the zero splat). -/
theorem linear2_payload_apply (x0 : Vec Ideal S2048x256 .bf16) (x1 : Vec Ideal S256x256 .bf16) (p : Fin 2048) (q : Fin 256) :
    k2_pay1 (F := Ideal) x0 x1 (ix2 p q) = ∑ k : Fin 256, x0 (ix2 p k) * x1 (ix2 k q) := by
  unfold k2_pay1
  rw [shapeCast_self, shapeCast_self]
  simp only [matmul]
  refine (Ideal.matmul_constant_zero_apply (φ₁ := .bf16) (φ₂ := .bf16) dot_S2048x256_S256x256_S2048x256_1_0_0_1_n_n none x0 x1 (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k :=
    funext fun a => Fin.ext (by
      match a with
      | ⟨0, _⟩ => exact linear2_lhs_row _ _
      | ⟨1, _⟩ => exact (linear2_lhs_col _ _).trans hk)
  have er : dot_S2048x256_S256x256_S2048x256_1_0_0_1_n_n.rhsIdx (ix2 p q) ((contrEquiv1 dot_S2048x256_S256x256_S2048x256_1_0_0_1_n_n 256 rfl rfl).symm k) = ix2 k q :=
    funext fun a => Fin.ext (by
      match a with
      | ⟨0, _⟩ => exact (linear2_rhs_row _ _).trans hk
      | ⟨1, _⟩ => exact linear2_rhs_col _ _)
  rw [el, er]

variable (V : (c : Dev nD) → (b : Ref sig .tc) → Buf (Elt Ideal) ((c : Thread nD τ).loc b))

/-- The three windows' arrays are the two converted operands and the call's result. -/
theorem arr2_0 : Pipeline.arrRef spec2 0 = main_v53 := rfl
theorem arr2_1 : Pipeline.arrRef spec2 1 = main_v54 := rfl
theorem arr2_2 : Pipeline.arrRef spec2 2 = main_v55 := rfl

/-- The matrix product of a 16384×256 array with a 256×256 array, entry by entry. -/
abbrev product2 (a : S16384x256.Idx → EReal) (b : S256x256.Idx → EReal) : S16384x256.Idx → EReal :=
  fun i => ∑ k : Fin 256, a (ix2 (⟨(i 0).val, idx2_lt0 i⟩ : Fin 16384) k) * b (ix2 k (⟨(i 1).val, idx2_lt1 i⟩ : Fin 256))

/-- The printed index maps over the eight grid points: the left operand's row block moves with the output's, which is the
    point's number; every other block index is zero. -/
theorem linear2_index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What point `t` writes back is block `t` of the product of the two operand arrays as the region finds them. -/
theorem linear2_flushed_eq (c : Dev nD) (X : S16384x256.Idx → EReal) (W : S256x256.Idx → EReal)
    (hX : V c main_v53 = X) (hW : V c main_v54 = W) (t : Fin cfg2.N) :
    (dat2 (F := Ideal) V c).flushed 2 t = ((cfg2.win 2).blk t).view.read (Elt Ideal) (product2 X W) := by
  show (cfg2.win 2).cut (grid2.coords t) ((dat2 V c).after 2 t) = _
  rw [after2_2]
  unfold out2_2
  rw [View.canon_unit_zero linear2_zero_offsets]
  simp only [View.ld_unit_zero (S := S2048x256) linear2_zero_offsets, View.ld_unit_zero (S := S256x256) linear2_zero_offsets]
  have hb0 : iblk2 V c 0 t = fun y => X (((cfg2.win 0).blk t).view.emb y) := by rw [← hX]; rfl
  have hb1 : iblk2 V c 1 t = fun y => W (((cfg2.win 1).blk t).view.emb y) := by rw [← hW]; rfl
  rw [hb0, hb1]
  obtain ⟨e0, e1, e2, e3, e4, e5⟩ := linear2_index_facts t
  funext j
  obtain ⟨p, q, rfl⟩ : ∃ (p : Fin 2048) (q : Fin 256), j = ix2 p q := ⟨j 0, j 1, eq_ix2 j⟩
  show k2_pay1 (F := Ideal) (fun y => X (((cfg2.win 0).blk t).view.emb y)) (fun y => W (((cfg2.win 1).blk t).view.emb y)) (ix2 p q)
      = product2 X W (((cfg2.win 2).blk t).view.emb (ix2 p q))
  refine (linear2_payload_apply _ _ p q).trans ?_
  refine Finset.sum_congr rfl fun k _ => ?_
  have h0 : ((cfg2.win 0).blk t).view.emb (ix2 p k)
      = (ix2 (⟨((((cfg2.win 2).blk t).view.emb (ix2 p q)) 0).val, idx2_lt0 _⟩ : Fin 16384) k : S16384x256.Idx) := by
    funext a; apply Fin.ext
    match a with
    | ⟨0, _⟩ => show win2_0.index t (0 : Fin 2) * 2048 + 1 * p.val = win2_2.index t (0 : Fin 2) * 2048 + 1 * p.val; omega
    | ⟨1, _⟩ => show win2_0.index t (1 : Fin 2) * 256 + 1 * k.val = k.val; omega
  have h1 : ((cfg2.win 1).blk t).view.emb (ix2 k q)
      = (ix2 k (⟨((((cfg2.win 2).blk t).view.emb (ix2 p q)) 1).val, idx2_lt1 _⟩ : Fin 256) : S256x256.Idx) := by
    funext a; apply Fin.ext
    match a with
    | ⟨0, _⟩ => show win2_1.index t (0 : Fin 2) * 256 + 1 * k.val = k.val; omega
    | ⟨1, _⟩ => show win2_1.index t (1 : Fin 2) * 256 + 1 * q.val = win2_2.index t (1 : Fin 2) * 256 + 1 * q.val; omega
  show X (((cfg2.win 0).blk t).view.emb (ix2 p k)) * W (((cfg2.win 1).blk t).view.emb (ix2 k q)) = _
  rw [h0, h1]

/-- An index of the result array is in point `t`'s block iff each coordinate is in the block's range on its axis. -/
theorem linear2_mem_block (t : Fin cfg2.N) (i : S16384x256.Idx) :
    i ∈ ((cfg2.win 2).blk t).view.set ↔ ∀ a : Fin 2, win2_2.index t a * S2048x256.size a ≤ (i a).val ∧ (i a).val < win2_2.index t a * S2048x256.size a + S2048x256.size a := by
  show i ∈ ((View.whole main_v55).slice (win2_2.rect t)).set ↔ _
  rw [View.set_slice_whole, Rect.mem_set_unit]
  exact Iff.rfl

/-- Every entry of the result array lies in the block of the point numbered by its row's quotient by 2048. -/
theorem linear2_cover (i : S16384x256.Idx) :
    ∃ t : Fin cfg2.N, (cfg2.win 2).flush t = true ∧ i ∈ ((cfg2.win 2).blk t).view.set := by
  have hi0 : (i 0).val < 16384 := idx2_lt0 i
  have hi1 : (i 1).val < 256 := idx2_lt1 i
  have hN : cfg2.N = 8 := N_2
  obtain ⟨t, ht⟩ : ∃ t : Fin cfg2.N, t.val = (i 0).val / 2048 := ⟨⟨(i 0).val / 2048, by rw [hN]; omega⟩, rfl⟩
  obtain ⟨-, -, -, -, e4, e5⟩ := linear2_index_facts t
  refine ⟨t, flush2_2 t, ?_⟩
  rw [linear2_mem_block]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 256 ≤ (i 1).val ∧ (i 1).val < win2_2.index t (1 : Fin 2) * 256 + 256; omega

/-- The result array after the region is the product of the two operand arrays as the region finds them. -/
theorem linear2_final (c : Dev nD) (X : S16384x256.Idx → EReal) (W : S256x256.Idx → EReal)
    (hX : V c main_v53 = X) (hW : V c main_v54 = W) :
    (dat2 (F := Ideal) V c).arrAt 2 cfg2.N = product2 X W :=
  (dat2 V c).arrAt_eq_of_cover 2 (product2 X W) (fun t _ => linear2_flushed_eq V c X W hX hW t) linear2_cover

/-- Entry by entry: row `p`, column `q` of the result is the sum over `k` of the left array at (p, k) times the right
    array at (k, q). -/
theorem final2_of (c : Dev nD) (X : S16384x256.Idx → EReal) (W : S256x256.Idx → EReal)
    (hX : V c main_v53 = X) (hW : V c main_v54 = W) (p : Fin 16384) (q : Fin 256) :
    (dat2 (F := Ideal) V c).arrAt 2 cfg2.N (ix2 p q) = ∑ k : Fin 256, X (ix2 p k) * W (ix2 k q) :=
  congrFun (linear2_final V c X W hX hW) (ix2 p q)

end Cert.KernelIdeal.RegionValue
end
-- ==== Proof.RegionAgg3.lean ====
import proofs.«107804_j58506044506600_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! The second aggregation region of the idealized kernel (the fourth matmul region of the program), read as
    mathematics: at the extended reals the array it leaves is, entry by entry, the matrix product of the dense
    adjacency with the feature array the region finds, plus the bias row. The region cuts the 16384 output rows
    into 64 blocks of 256 rows; at each block the body multiplies the block of 256 adjacency rows by the whole
    feature array, accumulating into zero, and adds the bias row broadcast down the block. The 64 blocks
    tile the array, so the array after the region is that one function of the arrays the region finds. -/

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's value at an entry -/

/-- The contraction of a [256,16384] block with a [16384,256] array into the zero accumulator, read at an
    entry: the sum over the shared axis of the products. -/
theorem matmul_block_apply (a : FVec Ideal S256x16384 .bf16) (b : FVec Ideal S16384x256 .bf16) (p q : Fin 256) :
    matmul dot_S256x16384_S16384x256_S256x256_1_0_0_1_n_n none a b (constant S256x256 .f32 0x00000000#32) (ix2 p q)
      = ∑ k : Fin 16384, a (ix2 p k) * b (ix2 k q) := by
  show FloatOps.matmul dot_S256x16384_S16384x256_S256x256_1_0_0_1_n_n none a b (constant S256x256 .f32 0x00000000#32) (ix2 p q) = _
  rw [Ideal.matmul_constant_zero_apply,
    ← Equiv.sum_comp (contrEquiv1 dot_S256x16384_S16384x256_S256x256_1_0_0_1_n_n 16384 rfl rfl).symm]
  refine Finset.sum_congr rfl fun k _ => ?_
  have hk := contrEquiv1_symm_val dot_S256x16384_S16384x256_S256x256_1_0_0_1_n_n 16384 rfl rfl k
  have el : dot_S256x16384_S16384x256_S256x256_1_0_0_1_n_n.lhsIdx (ix2 p q)
      ((contrEquiv1 dot_S256x16384_S16384x256_S256x256_1_0_0_1_n_n 16384 rfl rfl).symm k) = ix2 p k :=
    funext fun ax => Fin.ext (by
      match ax with
      | ⟨0, _⟩ =>
        show (dot_S256x16384_S16384x256_S256x256_1_0_0_1_n_n.lhsIdx (ix2 p q) _ 0).val = p.val
        unfold DotDims.lhsIdx
        rw [dif_neg (show ¬(0 : Fin S256x16384.rank) ∈ dot_S256x16384_S16384x256_S256x256_1_0_0_1_n_n.lhsBatch by decide),
          dif_pos (show (0 : Fin S256x16384.rank) ∈ dot_S256x16384_S16384x256_S256x256_1_0_0_1_n_n.lhsNonContracting by decide)]
        rfl
      | ⟨1, _⟩ => exact (dot_S256x16384_S16384x256_S256x256_1_0_0_1_n_n.lhsIdx_val_of_single rfl _ _).trans hk)
  have er : dot_S256x16384_S16384x256_S256x256_1_0_0_1_n_n.rhsIdx (ix2 p q)
      ((contrEquiv1 dot_S256x16384_S16384x256_S256x256_1_0_0_1_n_n 16384 rfl rfl).symm k) = ix2 k q :=
    funext fun ax => Fin.ext (by
      match ax with
      | ⟨0, _⟩ => exact (dot_S256x16384_S16384x256_S256x256_1_0_0_1_n_n.rhsIdx_val_of_single rfl _ _).trans hk
      | ⟨1, _⟩ =>
        show (dot_S256x16384_S16384x256_S256x256_1_0_0_1_n_n.rhsIdx (ix2 p q) _ 1).val = q.val
        unfold DotDims.rhsIdx
        rw [dif_neg (show ¬(1 : Fin S16384x256.rank) ∈ dot_S256x16384_S16384x256_S256x256_1_0_0_1_n_n.rhsBatch by decide),
          dif_pos (show (1 : Fin S16384x256.rank) ∈ dot_S256x16384_S16384x256_S256x256_1_0_0_1_n_n.rhsNonContracting by decide)]
        rfl)
  rw [el, er]

/-- The body's stored value at an entry of the block: the row of the adjacency block times the column of the
    feature array, plus the bias at that column. -/
theorem pay3_apply (x0 : Vec Ideal S256x16384 .bf16) (x1 : Vec Ideal S16384x256 .bf16) (x2 : Vec Ideal S1x256 .f32)
    (p q : Fin 256) :
    k3_pay1 x0 x1 x2 (ix2 p q) = (∑ k : Fin 16384, x0 (ix2 p k) * x1 (ix2 k q)) + x2 (ix2 (0 : Fin 1) q) := by
  unfold k3_pay1
  simp only [shapeCast_self]
  refine (addf_apply _ _ (ix2 p q)).trans ?_
  refine congrArg₂ (· + ·) (matmul_block_apply x0 x1 p q) ?_
  exact broadcastTo_1b_ab_apply x2 _ p q

/-! ## The array the region leaves, as one function of the arrays it finds -/

/-- The aggregation: entry (p, q) is row p of the adjacency times column q of the features, plus the
    bias at column q. -/
def agg (A : S16384x16384.Idx → EReal) (X : S16384x256.Idx → EReal) (B : S1x256.Idx → EReal) :
    S16384x256.Idx → EReal :=
  fun i => (∑ k : Fin 16384, A (ix2 (⟨(i 0).val, idx2_lt0 i⟩ : Fin 16384) k) * X (ix2 k (⟨(i 1).val, idx2_lt1 i⟩ : Fin 256)))
    + B (ix2 (0 : Fin 1) (⟨(i 1).val, idx2_lt1 i⟩ : Fin 256))

theorem agg_apply (A : S16384x16384.Idx → EReal) (X : S16384x256.Idx → EReal) (B : S1x256.Idx → EReal)
    (p : Fin 16384) (q : Fin 256) :
    agg A X B (ix2 p q) = (∑ k : Fin 16384, A (ix2 p k) * X (ix2 k q)) + B (ix2 (0 : Fin 1) q) := rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 64 grid points: the adjacency block and the output block move
    together down the rows, one block of 256 rows per point; the feature array and the bias are taken whole. -/
theorem index_facts3 : ∀ t : Fin cfg3.N, win3_3.index t (0 : Fin 2) = t.val
    ∧ win3_3.index t (1 : Fin 2) = 0
    ∧ win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0 :=
  (by decide +kernel : ∀ t : Fin grid3.N, _)

/-- A point's row offset plus a row inside the block is a row of the array. -/
theorem row_lt (t : Fin cfg3.N) (p : Fin 256) : t.val * 256 + p.val < 16384 := by
  have hN : cfg3.N = 64 := N_3
  have := t.isLt; have := p.isLt; omega

/-- The adjacency block at point `t` is rows `256 t … 256 t + 255` of the adjacency. -/
theorem iblk3_0_apply (c : Dev nD) (t : Fin cfg3.N) (p : Fin 256) (k : Fin 16384) :
    iblk3 V c 0 t (ix2 p k) = V c main_v46 (ix2 (⟨t.val * 256 + p.val, row_lt t p⟩ : Fin 16384) k) := by
  obtain ⟨-, -, e0, e1, -, -, -, -⟩ := index_facts3 t
  unfold iblk3
  rw [View.read_apply]
  show V c main_v46 _ = V c main_v46 _
  congr 1
  funext a
  apply Fin.ext
  match a with
  | ⟨0, _⟩ => show win3_0.index t (0 : Fin 2) * 256 + 1 * p.val = t.val * 256 + p.val; rw [e0]; omega
  | ⟨1, _⟩ => show win3_0.index t (1 : Fin 2) * 16384 + 1 * k.val = k.val; rw [e1]; omega

/-- The feature block at every point is the whole feature array. -/
theorem iblk3_1_apply (c : Dev nD) (t : Fin cfg3.N) (k : Fin 16384) (q : Fin 256) :
    iblk3 V c 1 t (ix2 k q) = V c main_v56 (ix2 k q) := by
  obtain ⟨-, -, -, -, e0, e1, -, -⟩ := index_facts3 t
  unfold iblk3
  rw [View.read_apply]
  show V c main_v56 _ = V c main_v56 _
  congr 1
  funext a
  apply Fin.ext
  match a with
  | ⟨0, _⟩ => show win3_1.index t (0 : Fin 2) * 16384 + 1 * k.val = k.val; rw [e0]; omega
  | ⟨1, _⟩ => show win3_1.index t (1 : Fin 2) * 256 + 1 * q.val = q.val; rw [e1]; omega

/-- The bias block at every point is the whole bias row. -/
theorem iblk3_2_apply (c : Dev nD) (t : Fin cfg3.N) (q : Fin 256) :
    iblk3 V c 2 t (ix2 (0 : Fin 1) q) = V c main_v57 (ix2 (0 : Fin 1) q) := by
  obtain ⟨-, -, -, -, -, -, e0, e1⟩ := index_facts3 t
  unfold iblk3
  rw [View.read_apply]
  show V c main_v57 _ = V c main_v57 _
  congr 1
  funext a
  apply Fin.ext
  match a with
  | ⟨0, _⟩ => show win3_2.index t (0 : Fin 2) * 1 + 1 * 0 = 0; rw [e0]
  | ⟨1, _⟩ => show win3_2.index t (1 : Fin 2) * 256 + 1 * q.val = q.val; rw [e1]; omega

/-- What the write-back at a point moves, read at an index of the moved block, is the staging buffer there. -/
theorem cut3_apply (t : Fin cfg3.N) (Y : Vec Ideal S256x256 .f32) (j : ((cfg3.win 3).xblock (grid3.coords t)).Idx) :
    (cfg3.win 3).cut (grid3.coords t) Y j
      = Y (ix2 (⟨(j 0).val, (j 0).isLt⟩ : Fin 256) (⟨(j 1).val, (j 1).isLt⟩ : Fin 256)) :=
  congrArg Y (eq_ix2 _)

/-- Where an index of the moved block lies in the array: `256 t` rows down. -/
theorem emb3_apply (t : Fin cfg3.N) (j : ((cfg3.win 3).xblock (grid3.coords t)).Idx) :
    ((cfg3.win 3).blk t).view.emb j
      = ix2 (⟨t.val * 256 + (j 0).val, row_lt t ⟨(j 0).val, (j 0).isLt⟩⟩ : Fin 16384) (⟨(j 1).val, (j 1).isLt⟩ : Fin 256) := by
  obtain ⟨e0, e1, -, -, -, -, -, -⟩ := index_facts3 t
  funext a
  apply Fin.ext
  match a with
  | ⟨0, _⟩ => show win3_3.index t (0 : Fin 2) * 256 + 1 * (j 0).val = t.val * 256 + (j 0).val; rw [e0]; omega
  | ⟨1, _⟩ => show win3_3.index t (1 : Fin 2) * 256 + 1 * (j 1).val = (j 1).val; rw [e1]; omega

/-- WHAT POINT `t` WRITES BACK is block `t` of the aggregation of the arrays the region finds. -/
theorem flushed3_eq (c : Dev nD) (t : Fin cfg3.N) :
    (dat3 V c).flushed 3 t
      = ((cfg3.win 3).blk t).view.read (Elt Ideal) (agg (V c main_v46) (V c main_v56) (V c main_v57)) := by
  show (cfg3.win 3).cut (grid3.coords t) ((dat3 V c).after 3 t) = _
  rw [after3_3]
  unfold out3_3
  rw [View.canon_unit_zero hz]
  simp only [View.ld_unit_zero (S := S256x16384) hz, View.ld_unit_zero (S := S16384x256) hz,
    View.ld_unit_zero (S := S1x256) hz]
  funext j
  refine (cut3_apply t (k3_pay1 (iblk3 V c 0 t) (iblk3 V c 1 t) (iblk3 V c 2 t)) j).trans ?_
  refine (pay3_apply (iblk3 V c 0 t) (iblk3 V c 1 t) (iblk3 V c 2 t) _ _).trans ?_
  rw [View.read_apply, emb3_apply t j, agg_apply]
  refine congrArg₂ (· + ·) (Finset.sum_congr rfl fun k _ => ?_) (iblk3_2_apply V c t _)
  exact congrArg₂ (· * ·) (iblk3_0_apply V c t _ k) (iblk3_1_apply V c t k _)

/-- An index of the array is in point `t`'s block iff each coordinate is in the block's range on its axis. -/
theorem mem_blk3 (t : Fin cfg3.N) (i : S16384x256.Idx) :
    i ∈ ((cfg3.win 3).blk t).view.set ↔ ∀ a : Fin 2, win3_3.index t a * S256x256.size a ≤ (i a).val
      ∧ (i a).val < win3_3.index t a * S256x256.size a + S256x256.size a := by
  show i ∈ ((View.whole main_v58).slice (win3_3.rect t)).set ↔ _
  rw [View.set_slice_whole, Rect.mem_set_unit]
  exact Iff.rfl

/-- Every index of the array is in some point's block: row `r` is in the block of point `r / 256`. -/
theorem covered3 (i : S16384x256.Idx) :
    ∃ t : Fin cfg3.N, (cfg3.win 3).flush t = true ∧ i ∈ ((cfg3.win 3).blk t).view.set := by
  have hi0 : (i 0).val < 16384 := (i 0).isLt
  have hi1 : (i 1).val < 256 := (i 1).isLt
  have hN : cfg3.N = 64 := N_3
  refine ⟨⟨(i 0).val / 256, by rw [hN]; omega⟩, flush3_3 _, ?_⟩
  obtain ⟨e0, e1, -, -, -, -, -, -⟩ := index_facts3 ⟨(i 0).val / 256, by rw [hN]; omega⟩
  rw [mem_blk3]
  intro a
  match a with
  | ⟨0, _⟩ =>
    show win3_3.index _ (0 : Fin 2) * 256 ≤ (i 0).val ∧ (i 0).val < win3_3.index _ (0 : Fin 2) * 256 + 256
    rw [e0]; dsimp only; omega
  | ⟨1, _⟩ =>
    show win3_3.index _ (1 : Fin 2) * 256 ≤ (i 1).val ∧ (i 1).val < win3_3.index _ (1 : Fin 2) * 256 + 256
    rw [e1]; omega

/-- The region's output window is the array `%58` of the kernel program. -/
theorem arrRef3_3 : Pipeline.arrRef spec3 3 = main_v58 := rfl

/-- THE ARRAY after the region: the aggregation of the arrays the region finds. -/
theorem array3 (c : Dev nD) :
    (dat3 V c).arrAt 3 cfg3.N = agg (V c main_v46) (V c main_v56) (V c main_v57) :=
  (dat3 V c).arrAt_eq_of_cover 3 _ (fun t _ => flushed3_eq V c t) covered3

/-- Entry by entry, `h2 = A · xw2 + b2`, with the three arrays the region finds named by the caller. -/
theorem final3_of (c : Dev nD) (A : S16384x16384.Idx → EReal) (X : S16384x256.Idx → EReal) (B : S1x256.Idx → EReal)
    (hA : V c main_v46 = A) (hX : V c main_v56 = X) (hB : V c main_v57 = B) (p : Fin 16384) (q : Fin 256) :
    (dat3 (F := Ideal) V c).arrAt 3 cfg3.N (ix2 p q)
      = (∑ k : Fin 16384, A (ix2 p k) * X (ix2 k q)) + B (ix2 (0 : Fin 1) q) := by
  subst hA hX hB
  exact (congrFun (array3 V c) (ix2 p q)).trans (agg_apply _ _ _ p q)

-- the extended reals' product and sum, applied to buffer reads whose type only unfolds to the extended reals
local infixl:70 " *ₑ " => @HMul.hMul EReal EReal EReal instHMul
local infixl:65 " +ₑ " => @HAdd.hAdd EReal EReal EReal instHAdd

/-- Entry by entry: `h2 = A · xw2 + b2`. -/
theorem final3 (c : Dev nD) (p : Fin 16384) (q : Fin 256) :
    (dat3 (F := Ideal) V c).arrAt 3 cfg3.N (ix2 p q)
      = (∑ k : Fin 16384, V c main_v46 (ix2 p k) *ₑ V c main_v56 (ix2 k q)) +ₑ V c main_v57 (ix2 (0 : Fin 1) q) :=
  final3_of V c _ _ _ rfl rfl rfl p q

end Cert.KernelIdeal.RegionValue

end
-- ==== Proof.RegionAgg1.lean ====
import proofs.«107804_j58506044506600_1_alg».proof.Proof.RegionAgg3

/-! The first aggregation region of the idealized kernel (the second matmul region of the program), read as
    mathematics: at the extended reals the array it leaves is, entry by entry, the larger of zero and the matrix
    product of the dense adjacency with the feature array the region finds plus the bias row. The body is the
    second aggregation region's followed by a maximum with the zero splat; the 64 blocks of 256 rows tile the
    array as there, so the array after the region is that one function of the arrays the region finds. -/

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's value at an entry -/

/-- The body's stored value at an entry of the block: the larger of zero and the row of the adjacency block
    times the column of the feature array plus the bias at that column. -/
theorem pay1_apply (x0 : Vec Ideal S256x16384 .bf16) (x1 : Vec Ideal S16384x256 .bf16) (x2 : Vec Ideal S1x256 .f32)
    (p q : Fin 256) :
    k1_pay1 x0 x1 x2 (ix2 p q) = max ((∑ k : Fin 16384, x0 (ix2 p k) * x1 (ix2 k q)) + x2 (ix2 (0 : Fin 1) q)) 0 := by
  unfold k1_pay1
  simp only [shapeCast_self]
  refine (maximumf_apply _ _ (ix2 p q)).trans ?_
  refine congrArg₂ max ?_ ?_
  · refine (addf_apply _ _ (ix2 p q)).trans ?_
    exact congrArg₂ (· + ·) (matmul_block_apply x0 x1 p q) (broadcastTo_1b_ab_apply x2 _ p q)
  · show Ideal.ofBits .f32 0x00000000#32 = 0
    exact Ideal.ofBits_zero_f32

/-! ## The array the region leaves, as one function of the arrays it finds -/

/-- The rectified aggregation: entry (p, q) is the larger of zero and row p of the adjacency times column q of
    the features plus the bias at column q. -/
def aggRelu (A : S16384x16384.Idx → EReal) (X : S16384x256.Idx → EReal) (B : S1x256.Idx → EReal) :
    S16384x256.Idx → EReal :=
  fun i => max (agg A X B i) 0

theorem aggRelu_apply (A : S16384x16384.Idx → EReal) (X : S16384x256.Idx → EReal) (B : S1x256.Idx → EReal)
    (p : Fin 16384) (q : Fin 256) :
    aggRelu A X B (ix2 p q) = max ((∑ k : Fin 16384, A (ix2 p k) * X (ix2 k q)) + B (ix2 (0 : Fin 1) q)) 0 := rfl

variable (V : (c : Dev nD) → (b : Ref sig .tc) → Buf (Elt Ideal) ((c : Thread nD τ).loc b))

/-- The printed index maps, decided over the 64 grid points: the adjacency block and the output block move
    together down the rows, one block of 256 rows per point; the feature array and the bias are taken whole. -/
theorem index_facts1 : ∀ t : Fin cfg1.N, win1_3.index t (0 : Fin 2) = t.val
    ∧ win1_3.index t (1 : Fin 2) = 0
    ∧ win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0 :=
  (by decide +kernel : ∀ t : Fin grid1.N, _)

/-- A point's row offset plus a row inside the block is a row of the array. -/
theorem row_lt1 (t : Fin cfg1.N) (p : Fin 256) : t.val * 256 + p.val < 16384 := by
  have hN : cfg1.N = 64 := N_1
  have := t.isLt; have := p.isLt; omega

/-- The adjacency block at point `t` is rows `256 t … 256 t + 255` of the adjacency. -/
theorem iblk1_0_apply (c : Dev nD) (t : Fin cfg1.N) (p : Fin 256) (k : Fin 16384) :
    iblk1 V c 0 t (ix2 p k) = V c main_v46 (ix2 (⟨t.val * 256 + p.val, row_lt1 t p⟩ : Fin 16384) k) := by
  obtain ⟨-, -, e0, e1, -, -, -, -⟩ := index_facts1 t
  unfold iblk1
  rw [View.read_apply]
  show V c main_v46 _ = V c main_v46 _
  congr 1
  funext a
  apply Fin.ext
  match a with
  | ⟨0, _⟩ => show win1_0.index t (0 : Fin 2) * 256 + 1 * p.val = t.val * 256 + p.val; rw [e0]; omega
  | ⟨1, _⟩ => show win1_0.index t (1 : Fin 2) * 16384 + 1 * k.val = k.val; rw [e1]; omega

/-- The feature block at every point is the whole feature array. -/
theorem iblk1_1_apply (c : Dev nD) (t : Fin cfg1.N) (k : Fin 16384) (q : Fin 256) :
    iblk1 V c 1 t (ix2 k q) = V c main_v50 (ix2 k q) := by
  obtain ⟨-, -, -, -, e0, e1, -, -⟩ := index_facts1 t
  unfold iblk1
  rw [View.read_apply]
  show V c main_v50 _ = V c main_v50 _
  congr 1
  funext a
  apply Fin.ext
  match a with
  | ⟨0, _⟩ => show win1_1.index t (0 : Fin 2) * 16384 + 1 * k.val = k.val; rw [e0]; omega
  | ⟨1, _⟩ => show win1_1.index t (1 : Fin 2) * 256 + 1 * q.val = q.val; rw [e1]; omega

/-- The bias block at every point is the whole bias row. -/
theorem iblk1_2_apply (c : Dev nD) (t : Fin cfg1.N) (q : Fin 256) :
    iblk1 V c 2 t (ix2 (0 : Fin 1) q) = V c main_v51 (ix2 (0 : Fin 1) q) := by
  obtain ⟨-, -, -, -, -, -, e0, e1⟩ := index_facts1 t
  unfold iblk1
  rw [View.read_apply]
  show V c main_v51 _ = V c main_v51 _
  congr 1
  funext a
  apply Fin.ext
  match a with
  | ⟨0, _⟩ => show win1_2.index t (0 : Fin 2) * 1 + 1 * 0 = 0; rw [e0]
  | ⟨1, _⟩ => show win1_2.index t (1 : Fin 2) * 256 + 1 * q.val = q.val; rw [e1]; omega

/-- What the write-back at a point moves, read at an index of the moved block, is the staging buffer there. -/
theorem cut1_apply (t : Fin cfg1.N) (Y : Vec Ideal S256x256 .f32) (j : ((cfg1.win 3).xblock (grid1.coords t)).Idx) :
    (cfg1.win 3).cut (grid1.coords t) Y j
      = Y (ix2 (⟨(j 0).val, (j 0).isLt⟩ : Fin 256) (⟨(j 1).val, (j 1).isLt⟩ : Fin 256)) :=
  congrArg Y (eq_ix2 _)

/-- Where an index of the moved block lies in the array: `256 t` rows down. -/
theorem emb1_apply (t : Fin cfg1.N) (j : ((cfg1.win 3).xblock (grid1.coords t)).Idx) :
    ((cfg1.win 3).blk t).view.emb j
      = ix2 (⟨t.val * 256 + (j 0).val, row_lt1 t ⟨(j 0).val, (j 0).isLt⟩⟩ : Fin 16384) (⟨(j 1).val, (j 1).isLt⟩ : Fin 256) := by
  obtain ⟨e0, e1, -, -, -, -, -, -⟩ := index_facts1 t
  funext a
  apply Fin.ext
  match a with
  | ⟨0, _⟩ => show win1_3.index t (0 : Fin 2) * 256 + 1 * (j 0).val = t.val * 256 + (j 0).val; rw [e0]; omega
  | ⟨1, _⟩ => show win1_3.index t (1 : Fin 2) * 256 + 1 * (j 1).val = (j 1).val; rw [e1]; omega

/-- WHAT POINT `t` WRITES BACK is block `t` of the rectified aggregation of the arrays the region finds. -/
theorem flushed1_eq (c : Dev nD) (t : Fin cfg1.N) :
    (dat1 V c).flushed 3 t
      = ((cfg1.win 3).blk t).view.read (Elt Ideal) (aggRelu (V c main_v46) (V c main_v50) (V c main_v51)) := by
  show (cfg1.win 3).cut (grid1.coords t) ((dat1 V c).after 3 t) = _
  rw [after1_3]
  unfold out1_3
  rw [View.canon_unit_zero hz]
  simp only [View.ld_unit_zero (S := S256x16384) hz, View.ld_unit_zero (S := S16384x256) hz,
    View.ld_unit_zero (S := S1x256) hz]
  funext j
  refine (cut1_apply t (k1_pay1 (iblk1 V c 0 t) (iblk1 V c 1 t) (iblk1 V c 2 t)) j).trans ?_
  refine (pay1_apply (iblk1 V c 0 t) (iblk1 V c 1 t) (iblk1 V c 2 t) _ _).trans ?_
  rw [View.read_apply, emb1_apply t j, aggRelu_apply]
  refine congrArg₂ max (congrArg₂ (· + ·) (Finset.sum_congr rfl fun k _ => ?_) (iblk1_2_apply V c t _)) rfl
  exact congrArg₂ (· * ·) (iblk1_0_apply V c t _ k) (iblk1_1_apply V c t k _)

/-- An index of the array is in point `t`'s block iff each coordinate is in the block's range on its axis. -/
theorem mem_blk1 (t : Fin cfg1.N) (i : S16384x256.Idx) :
    i ∈ ((cfg1.win 3).blk t).view.set ↔ ∀ a : Fin 2, win1_3.index t a * S256x256.size a ≤ (i a).val
      ∧ (i a).val < win1_3.index t a * S256x256.size a + S256x256.size a := by
  show i ∈ ((View.whole main_v52).slice (win1_3.rect t)).set ↔ _
  rw [View.set_slice_whole, Rect.mem_set_unit]
  exact Iff.rfl

/-- Every index of the array is in some point's block: row `r` is in the block of point `r / 256`. -/
theorem covered1 (i : S16384x256.Idx) :
    ∃ t : Fin cfg1.N, (cfg1.win 3).flush t = true ∧ i ∈ ((cfg1.win 3).blk t).view.set := by
  have hi0 : (i 0).val < 16384 := (i 0).isLt
  have hi1 : (i 1).val < 256 := (i 1).isLt
  have hN : cfg1.N = 64 := N_1
  refine ⟨⟨(i 0).val / 256, by rw [hN]; omega⟩, flush1_3 _, ?_⟩
  obtain ⟨e0, e1, -, -, -, -, -, -⟩ := index_facts1 ⟨(i 0).val / 256, by rw [hN]; omega⟩
  rw [mem_blk1]
  intro a
  match a with
  | ⟨0, _⟩ =>
    show win1_3.index _ (0 : Fin 2) * 256 ≤ (i 0).val ∧ (i 0).val < win1_3.index _ (0 : Fin 2) * 256 + 256
    rw [e0]; dsimp only; omega
  | ⟨1, _⟩ =>
    show win1_3.index _ (1 : Fin 2) * 256 ≤ (i 1).val ∧ (i 1).val < win1_3.index _ (1 : Fin 2) * 256 + 256
    rw [e1]; omega

/-- The region's output window is the array `%52` of the kernel program. -/
theorem arrRef1_3 : Pipeline.arrRef spec1 3 = main_v52 := rfl

/-- THE ARRAY after the region: the rectified aggregation of the arrays the region finds. -/
theorem array1 (c : Dev nD) :
    (dat1 V c).arrAt 3 cfg1.N = aggRelu (V c main_v46) (V c main_v50) (V c main_v51) :=
  (dat1 V c).arrAt_eq_of_cover 3 _ (fun t _ => flushed1_eq V c t) covered1

/-- Entry by entry, `h1 = max (A · xw1 + b1, 0)`, with the three arrays the region finds named by the caller. -/
theorem final1_of (c : Dev nD) (A : S16384x16384.Idx → EReal) (X : S16384x256.Idx → EReal) (B : S1x256.Idx → EReal)
    (hA : V c main_v46 = A) (hX : V c main_v50 = X) (hB : V c main_v51 = B) (p : Fin 16384) (q : Fin 256) :
    (dat1 (F := Ideal) V c).arrAt 3 cfg1.N (ix2 p q)
      = max ((∑ k : Fin 16384, A (ix2 p k) * X (ix2 k q)) + B (ix2 (0 : Fin 1) q)) 0 := by
  subst hA hX hB
  exact (congrFun (array1 V c) (ix2 p q)).trans (aggRelu_apply _ _ _ p q)

-- the extended reals' product and sum, applied to buffer reads whose type only unfolds to the extended reals
local infixl:70 " *ₑ " => @HMul.hMul EReal EReal EReal instHMul
local infixl:65 " +ₑ " => @HAdd.hAdd EReal EReal EReal instHAdd

/-- Entry by entry: `h1 = max (A · xw1 + b1, 0)`. -/
theorem final1 (c : Dev nD) (p : Fin 16384) (q : Fin 256) :
    (dat1 (F := Ideal) V c).arrAt 3 cfg1.N (ix2 p q)
      = (max ((∑ k : Fin 16384, V c main_v46 (ix2 p k) *ₑ V c main_v50 (ix2 k q)) +ₑ V c main_v51 (ix2 (0 : Fin 1) q)) 0 : EReal) :=
  final1_of V c _ _ _ rfl rfl rfl p q

end Cert.KernelIdeal.RegionValue

end
-- ==== Proof.Algebra.lean ====
import Mathlib.Data.EReal.Basic
import Mathlib.Data.EReal.Operations
import Mathlib.Algebra.BigOperators.Group.Finset.Basic
import Mathlib.Tactic
import Idealize.ShloMosaic.PureOps.Ideal

/-! Algebra over the extended reals that joins a dense contraction (weights scattered into a dense row,
    then contracted with a vector) to the sparse one (each weight times the gathered entry, summed).
    The extended reals are not a semiring, so every identity is proved on real witnesses and carried
    back through the coercion, which commutes with finite sums and with products. -/

open scoped BigOperators

namespace Cert.Algebra

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The regrouping over the reals: summing, over every cell k, the total weight that lands in k times
    x k, equals summing weight times x at the cell the weight lands in. -/
theorem dense_eq_sparse_real {U K : Type*} [Fintype U] [Fintype K] [DecidableEq K]
    (P : U → Prop) [DecidablePred P] (ri : U → K) (w : U → ℝ) (x : K → ℝ) :
    ∑ k : K, (∑ u ∈ Finset.univ.filter (fun u => P u ∧ ri u = k), w u) * x k
      = ∑ u ∈ Finset.univ.filter (fun u => P u), w u * x (ri u) := by
  simp_rw [Finset.sum_mul, Finset.sum_filter]
  rw [Finset.sum_comm]
  refine Finset.sum_congr rfl fun u _ => ?_
  by_cases hu : P u
  · simp [hu]
  · simp [hu]

/-- A weighted sum regrouped by fibres: scattering the weights into a dense row first and contracting it
    with x is the same as summing weight times the gathered entry. -/
theorem dense_eq_sparse {U K : Type*} [Fintype U] [Fintype K] [DecidableEq K]
    (P : U → Prop) [DecidablePred P] (ri : U → K)
    (w : U → EReal) (x : K → EReal)
    (hw : ∀ u, ∃ r : ℝ, w u = (r : EReal)) (hx : ∀ k, ∃ r : ℝ, x k = (r : EReal)) :
    ∑ k : K, (0 + ∑ u ∈ Finset.univ.filter (fun u => P u ∧ ri u = k), w u) * x k
      = 0 + ∑ u ∈ Finset.univ.filter (fun u => P u), w u * x (ri u) := by
  choose wr hwr using hw
  choose xr hxr using hx
  obtain rfl : w = fun u => ((wr u : ℝ) : EReal) := funext hwr
  obtain rfl : x = fun k => ((xr k : ℝ) : EReal) := funext hxr
  simp only [zero_add]
  have h := congrArg (fun r : ℝ => (r : EReal)) (dense_eq_sparse_real P ri wr xr)
  simp only [coe_sum, EReal.coe_mul] at h
  exact h

/-- A finite sum of real-valued extended reals is real-valued. -/
theorem real_sum {ι : Type*} (s : Finset ι) (f : ι → EReal)
    (hf : ∀ i, ∃ r : ℝ, f i = (r : EReal)) : ∃ r : ℝ, ∑ i ∈ s, f i = (r : EReal) := by
  choose g hg using hf
  exact ⟨∑ i ∈ s, g i, by rw [coe_sum]; exact Finset.sum_congr rfl fun i _ => hg i⟩

theorem real_add {a b : EReal} (ha : ∃ r : ℝ, a = (r : EReal)) (hb : ∃ r : ℝ, b = (r : EReal)) :
    ∃ r : ℝ, a + b = (r : EReal) := by
  obtain ⟨r, rfl⟩ := ha
  obtain ⟨t, rfl⟩ := hb
  exact ⟨r + t, (EReal.coe_add r t).symm⟩

theorem real_mul {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

theorem real_max_zero {a : EReal} (ha : ∃ r : ℝ, a = (r : EReal)) :
    ∃ r : ℝ, max a 0 = (r : EReal) := by
  obtain ⟨r, rfl⟩ := ha
  refine ⟨max r 0, ?_⟩
  rw [← EReal.coe_zero]
  exact (EReal.coe_strictMono.monotone.map_max).symm

theorem real_zero : ∃ r : ℝ, (0 : EReal) = (r : EReal) := ⟨0, EReal.coe_zero.symm⟩

/-- A sum over a whole finite type of products of real-valued extended reals is real-valued. -/
theorem real_sum_mul {K : Type*} [Fintype K] (f g : K → EReal)
    (hf : ∀ k, ∃ r : ℝ, f k = (r : EReal)) (hg : ∀ k, ∃ r : ℝ, g k = (r : EReal)) :
    ∃ r : ℝ, ∑ k : K, f k * g k = (r : EReal) :=
  real_sum Finset.univ (fun k => f k * g k) fun k => real_mul (hf k) (hg k)

/-- The inverse square root of a degree, guarded: whatever extended real d is, "if d > 0 then d ^ y
    else 0" with a negative real exponent y is a real number (⊤ ^ y = 0 for y < 0; a real base gives
    the real power; for d ≤ 0 the guard gives 0). -/
theorem real_guarded_pow (d : EReal) (y : ℝ) (hy : y < 0) :
    ∃ r : ℝ, (if 0 < d then Idealize.ShloMosaic.Ideal.pow d ((y : ℝ) : EReal) else 0) = (r : EReal) := by
  induction d using EReal.rec with
  | bot => exact ⟨0, by rw [if_neg (not_lt_bot)]; rfl⟩
  | coe x =>
    by_cases hx : (0 : EReal) < (x : EReal)
    · exact ⟨Real.rpow x y, by rw [if_pos hx]; rfl⟩
    · exact ⟨0, by rw [if_neg hx]; rfl⟩
  | top =>
    have h1 : ¬ (0 : EReal) < ((y : ℝ) : EReal) := by
      rw [EReal.coe_pos]; exact not_lt.mpr hy.le
    have h2 : ¬ ((y : ℝ) : EReal) = 0 := by
      rw [← EReal.coe_zero, EReal.coe_eq_coe_iff]; exact hy.ne
    refine ⟨0, ?_⟩
    rw [if_pos EReal.zero_lt_top, Idealize.ShloMosaic.Ideal.pow_top, if_neg h1, if_neg h2]
    rfl

end Cert.Algebra
-- ==== Proof.IndexWords.lean ====
import Idealize.ShloMosaic.PureOps
import Idealize.ShloMosaic.Lib.ValueIdx
import Idealize.ShloMosaic.Lib.Pipeline.Value
import proofs.«107804_j58506044506600_1_alg».proof.Proof.Rows

/-! Facts about the 32-bit index words of the edge list with self loops: the 524288 edge words followed
    by the words 0 … 16383 (one self loop per row), read at a position; and the wrap of a negative word
    by the number of rows, which leaves a word already in range as it is. -/

namespace Cert.IndexWords

open Idealize.ShloMosaic Idealize.ShloMosaic.ValueIdx Cert.Rows

local notation "S524288" => (⟨1, ![524288]⟩ : Shape)
local notation "S16384" => (⟨1, ![16384]⟩ : Shape)
local notation "S540672" => (⟨1, ![540672]⟩ : Shape)
local notation "S_" => (⟨0, ![]⟩ : Shape)

/-- The counting vector 0, 1, …, 16383 at a position is that position as a word. -/
theorem iota_apply (k : Fin 16384) : iotaInDim S16384 32 0 (ix1 k) = BitVec.ofNat 32 k.val := rfl

/-- The edge words followed by the counting words, read at position n: the n-th edge word below
    524288, and the word n - 524288 from there on. -/
theorem concat_iota_apply (x : IVec S524288 32)
    (h : Shape.Concatenates [S524288, S16384] S540672 0) (n : Fin 540672) :
    concatenate S540672 0 [⟨S524288, x⟩, ⟨S16384, iotaInDim S16384 32 0⟩] h (ix1 n)
      = if hn : n.val < 524288 then x (ix1 ⟨n.val, hn⟩) else BitVec.ofNat 32 (n.val - 524288) := by
  by_cases hn : n.val < 524288
  · rw [dif_pos hn]
    exact concatenate_pair_apply_left (t := S540672) (s₁ := S524288) (s₂ := S16384) 0 x
      (iotaInDim S16384 32 0) h (ix1 n) rfl (ix1 ⟨n.val, hn⟩)
      (fun b => match b with | ⟨0, _⟩ => rfl)
  · rw [dif_neg hn]
    have hlt : n.val - 524288 < 16384 := by have := n.isLt; omega
    refine (concatenate_pair_apply_right (t := S540672) (s₁ := S524288) (s₂ := S16384) 0 x
      (iotaInDim S16384 32 0) h (ix1 n) rfl rfl (ix1 ⟨n.val - 524288, hlt⟩) ?_ ?_).trans ?_
    · intro b hb
      exact absurd (match b with | ⟨0, _⟩ => rfl) hb
    · show n.val - 524288 + 524288 = n.val
      omega
    · rfl

/-- A number below 16384, as a 32-bit word, reads signed as itself. -/
theorem toInt_ofNat (k : Nat) (hk : k < 16384) : (BitVec.ofNat 32 k).toInt = (k : Int) := by
  have hn : (BitVec.ofNat 32 k).toNat = k := by
    rw [BitVec.toNat_ofNat]
    exact Nat.mod_eq_of_lt (by omega)
  rw [BitVec.toInt_eq_toNat_of_lt (by rw [hn]; omega), hn]

/-- A number below 16384, as a 32-bit word, is a valid row number. -/
theorem inRange_ofNat (k : Nat) (hk : k < 16384) : InRange (BitVec.ofNat 32 k) := by
  unfold InRange
  rw [toInt_ofNat k hk]
  omega

/-- … and the row it names is that number. -/
theorem row_ofNat (k : Nat) (hk : k < 16384) : row (BitVec.ofNat 32 k) = ⟨k, hk⟩ := by
  apply Fin.ext
  rw [row_val_nat (inRange_ofNat k hk), toInt_ofNat k hk]
  simp

/-- The signed comparison "v < 0" of a word in range answers no. -/
theorem cmpi_slt_zero_of_inRange (v : BitVec 32) (hv : InRange v) : IntOp.cmpi .slt v 0#32 = 0#1 := by
  have h : v.slt 0#32 = false := by
    rw [BitVec.slt]
    have h0 : (0#32 : BitVec 32).toInt = 0 := by decide
    rw [h0]
    exact decide_eq_false (not_lt.mpr hv.1)
  show BitVec.ofBool (v.slt 0#32) = 0#1
  rw [h]
  rfl

/-- Wrapping a negative word by the number of rows leaves a word in range as it is. -/
theorem wrap_of_inRange (v : BitVec 32) (hv : InRange v) :
    (if IntOp.cmpi .slt v 0#32 = 1#1 then v + 16384#32 else v) = v := by
  rw [cmpi_slt_zero_of_inRange v hv]
  rfl

/-- The wrap as the programs spell it on whole vectors, read at one position. -/
theorem wrap_apply (hb : (S_).BroadcastsInDim S540672 (![] : Fin 0 → Fin (S540672).rank))
    (v : IVec S540672 32) (j : (S540672).Idx) :
    select (cmpi .slt v (broadcastInDim S540672 ![] hb (constantI S_ 32 0#32)))
        (addi v (broadcastInDim S540672 ![] hb (constantI S_ 32 16384#32))) v j
      = if IntOp.cmpi .slt (v j) 0#32 = 1#1 then v j + 16384#32 else v j := rfl

/-- The wrap on whole vectors at a position whose word is in range: that word. -/
theorem wrap_apply_of_inRange (hb : (S_).BroadcastsInDim S540672 (![] : Fin 0 → Fin (S540672).rank))
    (v : IVec S540672 32) (j : (S540672).Idx) (hv : InRange (v j)) :
    select (cmpi .slt v (broadcastInDim S540672 ![] hb (constantI S_ 32 0#32)))
        (addi v (broadcastInDim S540672 ![] hb (constantI S_ 32 16384#32))) v j
      = v j :=
  (wrap_apply hb v j).trans (wrap_of_inRange (v j) hv)

end Cert.IndexWords
-- ==== Proof.EdgeRows.lean ====
import proofs.«107804_j58506044506600_1_alg».proof.Proof.Rows
import proofs.«107804_j58506044506600_1_alg».proof.Proof.IndexWords
import Idealize.ShloMosaic.Lib.ValueIdx

/-! The 540672 edges of the graph with self loops: the 524288 given edges, whose source and target words
    are rows 0 and 1 of the edge array, followed by one loop `v → v` per node `v = 0, …, 16383`. -/

namespace Cert.EdgeRows

open Cert.Rows Idealize.ShloMosaic Idealize.ShloMosaic.ValueIdx

/-- The index word of end `k` (0 the source, 1 the target) of edge `n`. -/
def word (x0 : IVec ⟨2, ![2, 524288]⟩ 32) (k : Fin 2) (n : Fin 540672) : BitVec 32 :=
  if hn : n.val < 524288 then x0 (ix2 k ⟨n.val, hn⟩) else BitVec.ofNat 32 (n.val - 524288)

/-- The source row of edge `n`. -/
def src (x0 : IVec ⟨2, ![2, 524288]⟩ 32) (n : Fin 540672) : Fin 16384 := row (word x0 0 n)

/-- The target row of edge `n`. -/
def tgt (x0 : IVec ⟨2, ![2, 524288]⟩ 32) (n : Fin 540672) : Fin 16384 := row (word x0 1 n)

/-- When every word of the edge array is a valid row, so is every end of every edge, loops included. -/
theorem word_inRange {x0 : IVec ⟨2, ![2, 524288]⟩ 32} (h : ∀ i, InRange (x0 i)) (k : Fin 2) (n : Fin 540672) :
    InRange (word x0 k n) := by
  unfold word
  split
  · exact h _
  · exact Cert.IndexWords.inRange_ofNat _ (by have := n.isLt; omega)

end Cert.EdgeRows
-- ==== Proof.RefWeights.lean ====
import proofs.«107804_j58506044506600_1_alg».proof.Proof.RefStages
import proofs.«107804_j58506044506600_1_alg».proof.Proof.Algebra
import proofs.«107804_j58506044506600_1_alg».proof.Proof.IndexWords
import proofs.«107804_j58506044506600_1_alg».proof.Proof.EdgeRows
import proofs.«107804_j58506044506600_1_alg».proof.Proof.Rows
import Idealize.ShloMosaic.Lib.IdealHost
import Idealize.ShloMosaic.PureOps.Ideal.Laws

/-! The reference program's edge weights and index columns, read off its stage functions at the exact
    instance: the inverse square root of the degrees is real-valued, the edge weight is the product of
    its two gathered factors, the second layer recomputes the same arrays, and the index columns the
    gathers and the scatter use are the edge words (the source words where a wrap of negatives has been
    applied to words that are row numbers). -/

noncomputable section

namespace Cert.RefWeights

open Cert.ReferenceIdeal Cert.ReferenceIdeal.Gen Cert.ReferenceIdeal.Read Cert.Rows Cert.EdgeRows
open Idealize.ShloMosaic Idealize.ShloMosaic.ValueIdx

/-! ### Positions -/

/-- Row n, column 0 of a one-column array is position n of the vector it was made from. -/
theorem idx21 (n : Fin 540672) : idx_main_v21 (ix2 n (0 : Fin 1)) = ix1 n :=
  funext fun a => match a with | ⟨0, _⟩ => rfl
theorem idx29 (n : Fin 540672) : idx_main_v29 (ix2 n (0 : Fin 1)) = ix1 n :=
  funext fun a => match a with | ⟨0, _⟩ => rfl
theorem idx39 (n : Fin 540672) : idx_main_v39 (ix2 n (0 : Fin 1)) = ix1 n :=
  funext fun a => match a with | ⟨0, _⟩ => rfl
theorem idx44 (n : Fin 540672) : idx_main_v44 (ix2 n (0 : Fin 1)) = ix1 n :=
  funext fun a => match a with | ⟨0, _⟩ => rfl

/-- Position m of the first row of the edge array, through the slice and the reshape. -/
theorem idx_row0 (m : Fin 524288) : idx_main_v0 (idx_main_v1 (ix1 m)) = ix2 (0 : Fin 2) m :=
  funext fun a => match a with
    | ⟨0, _⟩ => Fin.ext rfl
    | ⟨1, _⟩ => Fin.ext (by show m.val % 524288 = m.val; exact Nat.mod_eq_of_lt m.isLt)

/-- Position m of the second row of the edge array, through the slice and the reshape. -/
theorem idx_row1 (m : Fin 524288) : idx_main_v2 (idx_main_v3 (ix1 m)) = ix2 (1 : Fin 2) m :=
  funext fun a => match a with
    | ⟨0, _⟩ => Fin.ext rfl
    | ⟨1, _⟩ => Fin.ext (by show m.val % 524288 = m.val; exact Nat.mod_eq_of_lt m.isLt)

/-- The source words of the given edges are the first row of the edge array. -/
theorem row_apply (x0 : (⟨S2x524288, .i32⟩ : BufTy).Contents (Elt Ideal)) (m : Fin 524288) : val_main_v1 (F := Ideal) x0 (ix1 m) = x0 (ix2 (0 : Fin 2) m) := by
  rw [val_main_v1_apply, val_main_v0_apply, idx_row0]

/-- The target words of the given edges are the second row of the edge array. -/
theorem col_apply (x0 : (⟨S2x524288, .i32⟩ : BufTy).Contents (Elt Ideal)) (m : Fin 524288) : val_main_v3 (F := Ideal) x0 (ix1 m) = x0 (ix2 (1 : Fin 2) m) := by
  rw [val_main_v3_apply, val_main_v2_apply, idx_row1]

/-! ### The index vectors with self loops -/

/-- The source index vector (given edges, then one loop per node) at position n is the source word of edge n. -/
theorem r_all_apply (x0 : (⟨S2x524288, .i32⟩ : BufTy).Contents (Elt Ideal)) (n : Fin 540672) : val_main_v5 (F := Ideal) x0 (ix1 n) = word x0 0 n := by
  unfold val_main_v5
  refine (Cert.IndexWords.concat_iota_apply (val_main_v1 (F := Ideal) x0)
    concatenates_S524288_S16384_S540672_d0 n).trans ?_
  unfold word
  by_cases hn : n.val < 524288
  · rw [dif_pos hn, dif_pos hn]; exact row_apply x0 ⟨n.val, hn⟩
  · rw [dif_neg hn, dif_neg hn]

/-- The target index vector at position n is the target word of edge n. -/
theorem c_all_apply (x0 : (⟨S2x524288, .i32⟩ : BufTy).Contents (Elt Ideal)) (n : Fin 540672) : val_main_v6 (F := Ideal) x0 (ix1 n) = word x0 1 n := by
  unfold val_main_v6
  refine (Cert.IndexWords.concat_iota_apply (val_main_v3 (F := Ideal) x0)
    concatenates_S524288_S16384_S540672_d0 n).trans ?_
  unfold word
  by_cases hn : n.val < 524288
  · rw [dif_pos hn, dif_pos hn]; exact col_apply x0 ⟨n.val, hn⟩
  · rw [dif_neg hn, dif_neg hn]

/-- The scatter's index column is the target word of each edge. -/
theorem scatIdx_apply (x0 : (⟨S2x524288, .i32⟩ : BufTy).Contents (Elt Ideal)) (n : Fin 540672) :
    val_main_v44 (F := Ideal) x0 (ix2 n 0) = word x0 1 n :=
  (val_main_v44_apply x0 (ix2 n 0)).trans
    ((congrArg (val_main_v6 (F := Ideal) x0) (idx44 n)).trans (c_all_apply x0 n))

/-! ### The wrapped index vectors: on words that are row numbers the wrap does nothing -/

theorem wrapped20_apply (x0 : (⟨S2x524288, .i32⟩ : BufTy).Contents (Elt Ideal)) (h : ∀ i, InRange (x0 i)) (n : Fin 540672) :
    val_main_v20 (F := Ideal) x0 (ix1 n) = word x0 0 n := by
  have hv : InRange (val_main_v5 (F := Ideal) x0 (ix1 n)) := by
    rw [r_all_apply]; exact word_inRange h 0 n
  unfold val_main_v20 val_main_v17 val_main_v19 val_main_v16 val_main_v18 val_main_c val_main_c_4
  exact (Cert.IndexWords.wrap_apply_of_inRange bcast_S_S540672 (val_main_v5 (F := Ideal) x0) (ix1 n) hv).trans
    (r_all_apply x0 n)

theorem wrapped28_apply (x0 : (⟨S2x524288, .i32⟩ : BufTy).Contents (Elt Ideal)) (h : ∀ i, InRange (x0 i)) (n : Fin 540672) :
    val_main_v28 (F := Ideal) x0 (ix1 n) = word x0 1 n := by
  have hv : InRange (val_main_v6 (F := Ideal) x0 (ix1 n)) := by
    rw [c_all_apply]; exact word_inRange h 1 n
  unfold val_main_v28 val_main_v25 val_main_v27 val_main_v24 val_main_v26 val_main_c_5 val_main_c_6
  exact (Cert.IndexWords.wrap_apply_of_inRange bcast_S_S540672 (val_main_v6 (F := Ideal) x0) (ix1 n) hv).trans
    (c_all_apply x0 n)

theorem wrapped38_apply (x0 : (⟨S2x524288, .i32⟩ : BufTy).Contents (Elt Ideal)) (h : ∀ i, InRange (x0 i)) (n : Fin 540672) :
    val_main_v38 (F := Ideal) x0 (ix1 n) = word x0 0 n := by
  have hv : InRange (val_main_v5 (F := Ideal) x0 (ix1 n)) := by
    rw [r_all_apply]; exact word_inRange h 0 n
  unfold val_main_v38 val_main_v35 val_main_v37 val_main_v34 val_main_v36 val_main_c_7 val_main_c_8
  exact (Cert.IndexWords.wrap_apply_of_inRange bcast_S_S540672 (val_main_v5 (F := Ideal) x0) (ix1 n) hv).trans
    (r_all_apply x0 n)

/-- The row gather's index column is the source word of each edge. -/
theorem gathIdx_apply (x0 : (⟨S2x524288, .i32⟩ : BufTy).Contents (Elt Ideal)) (h : ∀ i, InRange (x0 i)) (n : Fin 540672) :
    val_main_v39 (F := Ideal) x0 (ix2 n 0) = word x0 0 n :=
  (val_main_v39_apply x0 (ix2 n 0)).trans
    ((congrArg (val_main_v38 (F := Ideal) x0) (idx39 n)).trans (wrapped38_apply x0 h n))

/-- The wrapped target column is the target word of each edge. -/
theorem colTgt_apply (x0 : (⟨S2x524288, .i32⟩ : BufTy).Contents (Elt Ideal)) (h : ∀ i, InRange (x0 i)) (n : Fin 540672) :
    val_main_v29 (F := Ideal) x0 (ix2 n 0) = word x0 1 n :=
  (val_main_v29_apply x0 (ix2 n 0)).trans
    ((congrArg (val_main_v28 (F := Ideal) x0) (idx29 n)).trans (wrapped28_apply x0 h n))

/-- The wrapped source column is the source word of each edge. -/
theorem colSrc_apply (x0 : (⟨S2x524288, .i32⟩ : BufTy).Contents (Elt Ideal)) (h : ∀ i, InRange (x0 i)) (n : Fin 540672) :
    val_main_v21 (F := Ideal) x0 (ix2 n 0) = word x0 0 n :=
  (val_main_v21_apply x0 (ix2 n 0)).trans
    ((congrArg (val_main_v20 (F := Ideal) x0) (idx21 n)).trans (wrapped20_apply x0 h n))

/-! ### The inverse square root of the degrees -/

/-- The bit pattern 0xBF000000 denotes minus one half. -/
theorem neg_half_bits : Ideal.ofBits .f32 0xBF000000#32 = (((-(1/2) : ℝ)) : EReal) := by
  simp [Ideal.ofBits, Ideal.ieee, -EReal.coe_mul, -EReal.coe_neg]; norm_num

/-- A select on the comparison word "d > z" is the conditional on z < d. -/
theorem select_cmp_ogt (d z a b : EReal) :
    Scalar.select (Ideal.cmp .ogt d z) a b = if z < d then a else b := by
  unfold Scalar.select Ideal.cmp
  by_cases h : z < d <;> simp [h]

/-- The guarded inverse square root: where the degree is positive its power -1/2, elsewhere 0. -/
theorem dinv_apply (x0 : (⟨S2x524288, .i32⟩ : BufTy).Contents (Elt Ideal)) (i : S16384.Idx) :
    val_main_v15 (F := Ideal) x0 i
      = (if (0 : EReal) < val_main_v10 (F := Ideal) x0 i
          then Ideal.pow (val_main_v10 (F := Ideal) x0 i) (((-(1/2) : ℝ)) : EReal) else 0) := by
  have h11 : val_main_v11 (F := Ideal) i = (0 : EReal) := Ideal.ofBits_zero_f32
  have h13 : val_main_v13 (F := Ideal) i = (((-(1/2) : ℝ)) : EReal) := neg_half_bits
  have hc : val_main_call0_v1 (F := Ideal) i = (0 : EReal) := Ideal.ofBits_zero_f32
  rw [val_main_v15_apply, val_main_v12_apply, val_main_v14_apply, h11, h13, hc]
  exact select_cmp_ogt _ _ _ _

/-- The inverse square root of the degrees is real-valued, whatever the degrees are. -/
theorem dinv_real (x0 : (⟨S2x524288, .i32⟩ : BufTy).Contents (Elt Ideal)) (i : S16384.Idx) : ∃ r : ℝ, val_main_v15 (F := Ideal) x0 i = (r : EReal) := by
  rw [dinv_apply]
  exact Cert.Algebra.real_guarded_pow _ _ (by norm_num)

/-! ### The edge weights -/

/-- A gathered entry is an entry of the operand, so the gathered factors are real-valued. -/
theorem gath22_real (x0 : (⟨S2x524288, .i32⟩ : BufTy).Contents (Elt Ideal)) (n : Fin 540672) : ∃ r : ℝ, val_main_v22 (F := Ideal) x0 (ix1 n) = (r : EReal) := by
  unfold val_main_v22 Host.gather
  exact dinv_real x0 _

theorem gath30_real (x0 : (⟨S2x524288, .i32⟩ : BufTy).Contents (Elt Ideal)) (n : Fin 540672) : ∃ r : ℝ, val_main_v30 (F := Ideal) x0 (ix1 n) = (r : EReal) := by
  unfold val_main_v30 Host.gather
  exact dinv_real x0 _

/-- The vector of ones reads 1 everywhere. -/
theorem ones_apply (i : S540672.Idx) : val_main_v7 (F := Ideal) i = (1 : EReal) := Ideal.ofBits_one_f32

/-- The edge weight is the product of its two gathered factors (the factor 1 dropped). -/
theorem norm_apply (x0 : (⟨S2x524288, .i32⟩ : BufTy).Contents (Elt Ideal)) (n : Fin 540672) :
    val_main_v31 (F := Ideal) x0 (ix1 n)
      = val_main_v22 (F := Ideal) x0 (ix1 n) * val_main_v30 (F := Ideal) x0 (ix1 n) := by
  rw [val_main_v31_apply, val_main_v23_apply, ones_apply]
  show (val_main_v22 (F := Ideal) x0 (ix1 n) * 1) * val_main_v30 (F := Ideal) x0 (ix1 n) = _
  rw [mul_one]

/-- The edge weights are real-valued. -/
theorem norm_real (x0 : (⟨S2x524288, .i32⟩ : BufTy).Contents (Elt Ideal)) (n : Fin 540672) : ∃ r : ℝ, val_main_v31 (F := Ideal) x0 (ix1 n) = (r : EReal) := by
  rw [norm_apply]
  exact Cert.Algebra.real_mul (gath22_real x0 n) (gath30_real x0 n)

/-! ### The second layer recomputes the same arrays -/

/-- The counting vector is built again with the same operation. -/
theorem iota2_eq : val_main_v50 (F := Ideal) = val_main_v4 (F := Ideal) := rfl
theorem r_all2_eq (x0 : (⟨S2x524288, .i32⟩ : BufTy).Contents (Elt Ideal)) : val_main_v51 (F := Ideal) x0 = val_main_v5 (F := Ideal) x0 := by
  unfold val_main_v51 val_main_v5; rw [iota2_eq]
theorem c_all2_eq (x0 : (⟨S2x524288, .i32⟩ : BufTy).Contents (Elt Ideal)) : val_main_v52 (F := Ideal) x0 = val_main_v6 (F := Ideal) x0 := by
  unfold val_main_v52 val_main_v6; rw [iota2_eq]
theorem ones2_eq : val_main_v53 (F := Ideal) = val_main_v7 (F := Ideal) := rfl
theorem zeros2_eq : val_main_v54 (F := Ideal) = val_main_v8 (F := Ideal) := rfl
theorem degIdx2_eq (x0 : (⟨S2x524288, .i32⟩ : BufTy).Contents (Elt Ideal)) : val_main_v55 (F := Ideal) x0 = val_main_v9 (F := Ideal) x0 := by
  unfold val_main_v55 val_main_v9; rw [c_all2_eq]
/-- The degrees are computed again by the same scatter. -/
theorem deg2_eq (x0 : (⟨S2x524288, .i32⟩ : BufTy).Contents (Elt Ideal)) : val_main_v56 (F := Ideal) x0 = val_main_v10 (F := Ideal) x0 := by
  unfold val_main_v56 val_main_v10; rw [degIdx2_eq, ones2_eq, zeros2_eq]
theorem zeros2b_eq : val_main_v57 (F := Ideal) = val_main_v11 (F := Ideal) := rfl
theorem pos2_eq (x0 : (⟨S2x524288, .i32⟩ : BufTy).Contents (Elt Ideal)) : val_main_v58 (F := Ideal) x0 = val_main_v12 (F := Ideal) x0 := by
  unfold val_main_v58 val_main_v12; rw [deg2_eq, zeros2b_eq]
theorem exp2_eq : val_main_v59 (F := Ideal) = val_main_v13 (F := Ideal) := rfl
theorem pow2_eq (x0 : (⟨S2x524288, .i32⟩ : BufTy).Contents (Elt Ideal)) : val_main_v60 (F := Ideal) x0 = val_main_v14 (F := Ideal) x0 := by
  unfold val_main_v60 val_main_v14; rw [deg2_eq, exp2_eq]
theorem else2_eq : val_main_call2_v1 (F := Ideal) = val_main_call0_v1 (F := Ideal) := rfl
/-- … and so is their guarded inverse square root. -/
theorem dinv2_eq (x0 : (⟨S2x524288, .i32⟩ : BufTy).Contents (Elt Ideal)) : val_main_v61 (F := Ideal) x0 = val_main_v15 (F := Ideal) x0 := by
  unfold val_main_v61 val_main_v15; rw [pos2_eq, pow2_eq, else2_eq]
theorem z62_eq : val_main_v62 (F := Ideal) = val_main_v16 (F := Ideal) := rfl
theorem lt63_eq (x0 : (⟨S2x524288, .i32⟩ : BufTy).Contents (Elt Ideal)) : val_main_v63 (F := Ideal) x0 = val_main_v17 (F := Ideal) x0 := by
  unfold val_main_v63 val_main_v17; rw [r_all2_eq, z62_eq]
theorem n64_eq : val_main_v64 (F := Ideal) = val_main_v18 (F := Ideal) := rfl
theorem add65_eq (x0 : (⟨S2x524288, .i32⟩ : BufTy).Contents (Elt Ideal)) : val_main_v65 (F := Ideal) x0 = val_main_v19 (F := Ideal) x0 := by
  unfold val_main_v65 val_main_v19; rw [r_all2_eq, n64_eq]
theorem sel66_eq (x0 : (⟨S2x524288, .i32⟩ : BufTy).Contents (Elt Ideal)) : val_main_v66 (F := Ideal) x0 = val_main_v20 (F := Ideal) x0 := by
  unfold val_main_v66 val_main_v20; rw [lt63_eq, add65_eq, r_all2_eq]
theorem col67_eq (x0 : (⟨S2x524288, .i32⟩ : BufTy).Contents (Elt Ideal)) : val_main_v67 (F := Ideal) x0 = val_main_v21 (F := Ideal) x0 := by
  unfold val_main_v67 val_main_v21; rw [sel66_eq]
theorem gath68_eq (x0 : (⟨S2x524288, .i32⟩ : BufTy).Contents (Elt Ideal)) : val_main_v68 (F := Ideal) x0 = val_main_v22 (F := Ideal) x0 := by
  unfold val_main_v68 val_main_v22; rw [dinv2_eq, col67_eq]
theorem mul69_eq (x0 : (⟨S2x524288, .i32⟩ : BufTy).Contents (Elt Ideal)) : val_main_v69 (F := Ideal) x0 = val_main_v23 (F := Ideal) x0 := by
  unfold val_main_v69 val_main_v23; rw [gath68_eq, ones2_eq]
theorem z70_eq : val_main_v70 (F := Ideal) = val_main_v24 (F := Ideal) := rfl
theorem lt71_eq (x0 : (⟨S2x524288, .i32⟩ : BufTy).Contents (Elt Ideal)) : val_main_v71 (F := Ideal) x0 = val_main_v25 (F := Ideal) x0 := by
  unfold val_main_v71 val_main_v25; rw [c_all2_eq, z70_eq]
theorem n72_eq : val_main_v72 (F := Ideal) = val_main_v26 (F := Ideal) := rfl
theorem add73_eq (x0 : (⟨S2x524288, .i32⟩ : BufTy).Contents (Elt Ideal)) : val_main_v73 (F := Ideal) x0 = val_main_v27 (F := Ideal) x0 := by
  unfold val_main_v73 val_main_v27; rw [c_all2_eq, n72_eq]
theorem sel74_eq (x0 : (⟨S2x524288, .i32⟩ : BufTy).Contents (Elt Ideal)) : val_main_v74 (F := Ideal) x0 = val_main_v28 (F := Ideal) x0 := by
  unfold val_main_v74 val_main_v28; rw [lt71_eq, add73_eq, c_all2_eq]
theorem col75_eq (x0 : (⟨S2x524288, .i32⟩ : BufTy).Contents (Elt Ideal)) : val_main_v75 (F := Ideal) x0 = val_main_v29 (F := Ideal) x0 := by
  unfold val_main_v75 val_main_v29; rw [sel74_eq]
theorem gath76_eq (x0 : (⟨S2x524288, .i32⟩ : BufTy).Contents (Elt Ideal)) : val_main_v76 (F := Ideal) x0 = val_main_v30 (F := Ideal) x0 := by
  unfold val_main_v76 val_main_v30; rw [dinv2_eq, col75_eq]
/-- The second layer's edge weights are the first layer's. -/
theorem norm2_eq (x0 : (⟨S2x524288, .i32⟩ : BufTy).Contents (Elt Ideal)) : val_main_v77 (F := Ideal) x0 = val_main_v31 (F := Ideal) x0 := by
  unfold val_main_v77 val_main_v31; rw [mul69_eq, gath76_eq]
theorem z80_eq : val_main_v80 (F := Ideal) = val_main_v34 (F := Ideal) := rfl
theorem lt81_eq (x0 : (⟨S2x524288, .i32⟩ : BufTy).Contents (Elt Ideal)) : val_main_v81 (F := Ideal) x0 = val_main_v35 (F := Ideal) x0 := by
  unfold val_main_v81 val_main_v35; rw [r_all2_eq, z80_eq]
theorem n82_eq : val_main_v82 (F := Ideal) = val_main_v36 (F := Ideal) := rfl
theorem add83_eq (x0 : (⟨S2x524288, .i32⟩ : BufTy).Contents (Elt Ideal)) : val_main_v83 (F := Ideal) x0 = val_main_v37 (F := Ideal) x0 := by
  unfold val_main_v83 val_main_v37; rw [r_all2_eq, n82_eq]
theorem sel84_eq (x0 : (⟨S2x524288, .i32⟩ : BufTy).Contents (Elt Ideal)) : val_main_v84 (F := Ideal) x0 = val_main_v38 (F := Ideal) x0 := by
  unfold val_main_v84 val_main_v38; rw [lt81_eq, add83_eq, r_all2_eq]
/-- The second layer's row-gather index column is the first layer's. -/
theorem gathIdx2_eq (x0 : (⟨S2x524288, .i32⟩ : BufTy).Contents (Elt Ideal)) : val_main_v85 (F := Ideal) x0 = val_main_v39 (F := Ideal) x0 := by
  unfold val_main_v85 val_main_v39; rw [sel84_eq]
/-- The second layer's scatter index column is the first layer's. -/
theorem scatIdx2_eq (x0 : (⟨S2x524288, .i32⟩ : BufTy).Contents (Elt Ideal)) : val_main_v90 (F := Ideal) x0 = val_main_v44 (F := Ideal) x0 := by
  unfold val_main_v90 val_main_v44; rw [c_all2_eq]

end Cert.RefWeights

end
-- ==== Proof.RefReads.lean ====
/-
  The reference program's plain stages read at one element. Each stage is one operation applied to
  earlier stages; read at the element (p, q) a matrix product is the sum over the contracted coordinate
  of the products of the operands' elements, a bias added after a product is the bias vector's element at
  the column q, the rectified layer is the maximum with zero, the per-edge update row is the edge's
  weight times the gathered row, and the two accumulators start at zero. At the exact instance every
  float operation is the extended reals' own, so each statement follows from the reading of
  the stage at an index once the composed index functions are identified with the coordinates.
-/
import proofs.«107804_j58506044506600_1_alg».proof.Proof.RefStages
import Idealize.ShloMosaic.Lib.ValueIdx
import Idealize.ShloMosaic.PureOps.Ideal.Laws

noncomputable section

open scoped BigOperators

namespace Cert.RefReads

open Cert.ReferenceIdeal Cert.ReferenceIdeal.Read Idealize.ShloMosaic Idealize.ShloMosaic.ValueIdx

variable (x0 : (⟨S2x524288, .i32⟩ : BufTy).Contents (Elt Ideal))
  (x2 : (⟨S16384x256, .f32⟩ : BufTy).Contents (Elt Ideal))
  (x5 : (⟨S256x256, .f32⟩ : BufTy).Contents (Elt Ideal))
  (x6 : (⟨S256, .f32⟩ : BufTy).Contents (Elt Ideal))
  (x7 : (⟨S256x256, .f32⟩ : BufTy).Contents (Elt Ideal))
  (x8 : (⟨S256, .f32⟩ : BufTy).Contents (Elt Ideal))
  (x9 : (⟨S256x40, .f32⟩ : BufTy).Contents (Elt Ideal))
  (x10 : (⟨S40, .f32⟩ : BufTy).Contents (Elt Ideal))

/-! ## The three matrix products -/

/-- The first layer's product X·W1 at (p, q). -/
theorem dot32 (p : Fin 16384) (q : Fin 256) :
    val_main_v32 (F := Ideal) x2 x5 (ix2 p q) = ∑ k : Fin 256, x2 (ix2 p k) * x5 (ix2 k q) := by
  rw [val_main_v32_apply]
  refine Finset.sum_congr rfl fun k _ => ?_
  have el : lidx_main_v32 (ix2 p q) k = ix2 p k :=
    funext fun a => Fin.ext (by match a with | ⟨0, _⟩ => rfl | ⟨1, _⟩ => rfl)
  have er : ridx_main_v32 (ix2 p q) k = ix2 k q :=
    funext fun a => Fin.ext (by match a with | ⟨0, _⟩ => rfl | ⟨1, _⟩ => rfl)
  rw [el, er]

/-- The second layer's product h1·W2 at (p, q). -/
theorem dot78 (p : Fin 16384) (q : Fin 256) :
    val_main_v78 (F := Ideal) x0 x2 x5 x6 x7 (ix2 p q)
      = ∑ k : Fin 256, val_main_v49 (F := Ideal) x0 x2 x5 x6 (ix2 p k) * x7 (ix2 k q) := by
  rw [val_main_v78_apply]
  refine Finset.sum_congr rfl fun k _ => ?_
  have el : lidx_main_v78 (ix2 p q) k = ix2 p k :=
    funext fun a => Fin.ext (by match a with | ⟨0, _⟩ => rfl | ⟨1, _⟩ => rfl)
  have er : ridx_main_v78 (ix2 p q) k = ix2 k q :=
    funext fun a => Fin.ext (by match a with | ⟨0, _⟩ => rfl | ⟨1, _⟩ => rfl)
  rw [el, er]

/-- The output layer's product rep·Wy at (p, q). -/
theorem dot105 (p : Fin 16384) (q : Fin 40) :
    val_main_v105 (F := Ideal) x0 x2 x5 x6 x7 x8 x9 (ix2 p q)
      = ∑ k : Fin 256, val_main_v104 (F := Ideal) x0 x2 x5 x6 x7 x8 (ix2 p k) * x9 (ix2 k q) := by
  rw [val_main_v105_apply]
  refine Finset.sum_congr rfl fun k _ => ?_
  have el : lidx_main_v105 (ix2 p q) k = ix2 p k :=
    funext fun a => Fin.ext (by match a with | ⟨0, _⟩ => rfl | ⟨1, _⟩ => rfl)
  have er : ridx_main_v105 (ix2 p q) k = ix2 k q :=
    funext fun a => Fin.ext (by match a with | ⟨0, _⟩ => rfl | ⟨1, _⟩ => rfl)
  rw [el, er]

/-! ## The per-edge update rows: weight times gathered row -/

/-- First layer: the update row of edge n at column l is the edge's weight times the gathered row's element. -/
theorem upd1_apply (n : Fin 540672) (l : Fin 256) :
    val_main_v42 (F := Ideal) x0 x2 x5 (ix2 n l)
      = val_main_v31 (F := Ideal) x0 (ix1 n) * val_main_v40 (F := Ideal) x0 x2 x5 (ix2 n l) := by
  rw [val_main_v42_apply, val_main_v41_apply, val_main_v33_apply]
  have e : idx_main_v33 (idx_main_v41 (ix2 n l)) = ix1 n :=
    funext fun a => Fin.ext (by match a with | ⟨0, _⟩ => rfl)
  rw [e]
  rfl

/-- Second layer: the same with the second layer's weights and gathered rows. -/
theorem upd2_apply (n : Fin 540672) (l : Fin 256) :
    val_main_v88 (F := Ideal) x0 x2 x5 x6 x7 (ix2 n l)
      = val_main_v77 (F := Ideal) x0 (ix1 n) * val_main_v86 (F := Ideal) x0 x2 x5 x6 x7 (ix2 n l) := by
  rw [val_main_v88_apply, val_main_v87_apply, val_main_v79_apply]
  have e : idx_main_v79 (idx_main_v87 (ix2 n l)) = ix1 n :=
    funext fun a => Fin.ext (by match a with | ⟨0, _⟩ => rfl)
  rw [e]
  rfl

/-! ## The accumulators start at zero -/

theorem zero43 (p : Fin 16384) (q : Fin 256) : val_main_v43 (F := Ideal) (ix2 p q) = (0 : EReal) := by
  rw [val_main_v43_apply, val_main_cst_9_apply]
  exact Ideal.ofBits_zero_f32

theorem zero89 (p : Fin 16384) (q : Fin 256) : val_main_v89 (F := Ideal) (ix2 p q) = (0 : EReal) := by
  rw [val_main_v89_apply, val_main_cst_21_apply]
  exact Ideal.ofBits_zero_f32

/-! ## Bias and rectification -/

/-- The first hidden layer: the accumulated rows plus the bias, rectified. -/
theorem h1_apply (p : Fin 16384) (q : Fin 256) :
    val_main_v49 (F := Ideal) x0 x2 x5 x6 (ix2 p q)
      = max (val_main_v45 (F := Ideal) x0 x2 x5 (ix2 p q) + x6 (ix1 q)) (0 : EReal) := by
  rw [val_main_v49_apply, val_main_v48_apply, val_main_v47_apply, val_main_v46_apply,
    val_main_call1_v0_apply, val_main_call1_cst_apply]
  have e : idx_main_v46 (idx_main_v47 (ix2 p q)) = ix1 q :=
    funext fun a => Fin.ext (by match a with | ⟨0, _⟩ => rfl)
  rw [e]
  show max (_ + _) (Ideal.ofBits .f32 0x00000000#32) = _
  rw [Ideal.ofBits_zero_f32]

/-- The second layer's output: the accumulated rows plus the bias. -/
theorem h2_apply (p : Fin 16384) (q : Fin 256) :
    val_main_v94 (F := Ideal) x0 x2 x5 x6 x7 x8 (ix2 p q)
      = val_main_v91 (F := Ideal) x0 x2 x5 x6 x7 (ix2 p q) + x8 (ix1 q) := by
  rw [val_main_v94_apply, val_main_v93_apply, val_main_v92_apply]
  have e : idx_main_v92 (idx_main_v93 (ix2 p q)) = ix1 q :=
    funext fun a => Fin.ext (by match a with | ⟨0, _⟩ => rfl)
  rw [e]
  rfl

/-- The output layer: the product plus the bias. -/
theorem y_apply (p : Fin 16384) (q : Fin 40) :
    val_main_v108 (F := Ideal) x0 x2 x5 x6 x7 x8 x9 x10 (ix2 p q)
      = val_main_v105 (F := Ideal) x0 x2 x5 x6 x7 x8 x9 (ix2 p q) + x10 (ix1 q) := by
  rw [val_main_v108_apply, val_main_v107_apply, val_main_v106_apply]
  have e : idx_main_v106 (idx_main_v107 (ix2 p q)) = ix1 q :=
    funext fun a => Fin.ext (by match a with | ⟨0, _⟩ => rfl)
  rw [e]
  rfl

end Cert.RefReads

end
-- ==== Proof.ScatterRead.lean ====
/-
  Reading an accumulating scatter at an index, at the ideal instance.

  An N × N array is accumulated into through E index pairs held as an E × 2 array (one (first, second) pair per
  edge) with one scalar update per edge; an N × L array is accumulated into through E scalar row indices held as an
  E × 1 column with one row of L updates per edge. A scatter reads its indices as signed integers and does not clamp
  them: an update whose index lies in [0, N) on every scattered axis lands exactly on the cell the index names. So,
  when every index is a valid row number, the value of the accumulated array at a cell is the operand there plus the
  sum of the updates of the edges whose index names that cell.
-/
import Idealize.ShloMosaic.Lib.ValueIdx
import Idealize.ShloMosaic.PureOps.Ideal
import proofs.«107804_j58506044506600_1_alg».proof.Proof.Rows

noncomputable section

open scoped BigOperators

namespace Cert.ScatterRead

open Idealize.ShloMosaic Idealize.ShloMosaic.ValueIdx Cert.Rows

/-! ## Index pairs into a square array -/

/-- The dimension numbers of `A.at[p, q].add(v)` for an N × N array, E index pairs held as an E × 2 array and E
    scalar updates: no window axes, both operand axes inserted, pair component c names operand axis c. -/
abbrev pairScatterDims (N E : Nat) (wf : ScatterDims.WF ⟨2, ![N, N]⟩ ⟨2, ![E, 2]⟩ ⟨1, ![E]⟩ [] [0, 1] [0, 1] 1) :
    ScatterDims ⟨2, ![N, N]⟩ ⟨2, ![E, 2]⟩ ⟨1, ![E]⟩ where
  updateWindowDims := []
  insertedWindowDims := [0, 1]
  scatterDimsToOperandDims := [0, 1]
  indexVectorDim := 1
  wf := wf

section Pair

variable {N E w : Nat} (wf : ScatterDims.WF ⟨2, ![N, N]⟩ ⟨2, ![E, 2]⟩ ⟨1, ![E]⟩ [] [0, 1] [0, 1] 1)

/-- On operand axis 0 the window of edge n starts at the first component of its pair, read signed. -/
theorem pair_start0 (idx : IVec ⟨2, ![E, 2]⟩ w) (n : Fin E) :
    (pairScatterDims N E wf).start (ix1 n) idx 0 = (idx (ix2 n 0)).toInt := by
  have hmem : (0 : Fin 2) ∈ (pairScatterDims N E wf).scatterDimsToOperandDims := by
    show (0 : Fin 2) ∈ ([0, 1] : List (Fin 2)); decide
  unfold ScatterDims.start
  rw [dif_pos hmem]
  have hsi : (pairScatterDims N E wf).siIdx (ix1 n)
      ⟨List.idxOf (0 : Fin 2) (pairScatterDims N E wf).scatterDimsToOperandDims, List.idxOf_lt_length_iff.2 hmem⟩
      = ix2 n 0 := by
    funext b; refine Fin.ext ?_
    match b with
    | ⟨0, _⟩ => rfl
    | ⟨1, _⟩ => rfl
  rw [hsi]

/-- On operand axis 1 the window of edge n starts at the second component of its pair, read signed. -/
theorem pair_start1 (idx : IVec ⟨2, ![E, 2]⟩ w) (n : Fin E) :
    (pairScatterDims N E wf).start (ix1 n) idx 1 = (idx (ix2 n 1)).toInt := by
  have hmem : (1 : Fin 2) ∈ (pairScatterDims N E wf).scatterDimsToOperandDims := by
    show (1 : Fin 2) ∈ ([0, 1] : List (Fin 2)); decide
  unfold ScatterDims.start
  rw [dif_pos hmem]
  have hsi : (pairScatterDims N E wf).siIdx (ix1 n)
      ⟨List.idxOf (1 : Fin 2) (pairScatterDims N E wf).scatterDimsToOperandDims, List.idxOf_lt_length_iff.2 hmem⟩
      = ix2 n 1 := by
    funext b; refine Fin.ext ?_
    match b with
    | ⟨0, _⟩ => rfl
    | ⟨1, _⟩ => rfl
  rw [hsi]

/-- Both operand axes are inserted: an update is one cell, its window coordinate 0 on each axis. -/
theorem pair_window (n : Fin E) (a : Fin 2) : (pairScatterDims N E wf).window (ix1 n) a = 0 := by
  unfold ScatterDims.window
  rw [dif_neg]
  show a ∉ (List.finRange 2).filter (· ∉ ([0, 1] : List (Fin 2)))
  revert a; decide

/-- An edge whose pair is (r₀, r₁), both valid row numbers, lands on the cell (r₀, r₁). -/
theorem pair_resultIdx (idx : IVec ⟨2, ![E, 2]⟩ w) (n : Fin E) (r0 r1 : Fin N)
    (h0 : (idx (ix2 n 0)).toInt = (r0.val : Int)) (h1 : (idx (ix2 n 1)).toInt = (r1.val : Int)) :
    (pairScatterDims N E wf).resultIdx? (ix1 n) idx = some (ix2 r0 r1) := by
  have hs0 := pair_start0 wf idx n
  have hs1 := pair_start1 wf idx n
  have hw0 := pair_window wf n 0
  have hw1 := pair_window wf n 1
  have hall : ∀ a : Fin 2, 0 ≤ (pairScatterDims N E wf).start (ix1 n) idx a + ((pairScatterDims N E wf).window (ix1 n) a : Int)
      ∧ (pairScatterDims N E wf).start (ix1 n) idx a + ((pairScatterDims N E wf).window (ix1 n) a : Int)
        < ((⟨2, ![N, N]⟩ : Shape).size a : Int) := by
    intro a
    match a with
    | ⟨0, _⟩ =>
      show 0 ≤ (pairScatterDims N E wf).start (ix1 n) idx 0 + ((pairScatterDims N E wf).window (ix1 n) 0 : Int)
        ∧ (pairScatterDims N E wf).start (ix1 n) idx 0 + ((pairScatterDims N E wf).window (ix1 n) 0 : Int) < (N : Int)
      rw [hs0, hw0, h0]; have := r0.isLt; omega
    | ⟨1, _⟩ =>
      show 0 ≤ (pairScatterDims N E wf).start (ix1 n) idx 1 + ((pairScatterDims N E wf).window (ix1 n) 1 : Int)
        ∧ (pairScatterDims N E wf).start (ix1 n) idx 1 + ((pairScatterDims N E wf).window (ix1 n) 1 : Int) < (N : Int)
      rw [hs1, hw1, h1]; have := r1.isLt; omega
  unfold ScatterDims.resultIdx?
  rw [dif_pos hall]
  congr 1
  funext a
  refine Fin.ext ?_
  match a with
  | ⟨0, _⟩ =>
    show ((pairScatterDims N E wf).start (ix1 n) idx 0 + ((pairScatterDims N E wf).window (ix1 n) 0 : Int)).toNat = r0.val
    rw [hs0, hw0, h0]; omega
  | ⟨1, _⟩ =>
    show ((pairScatterDims N E wf).start (ix1 n) idx 1 + ((pairScatterDims N E wf).window (ix1 n) 1 : Int)).toNat = r1.val
    rw [hs1, hw1, h1]; omega

/-- Two cells of a rank-2 array are equal exactly when their coordinates are. -/
theorem ix2_eq_iff {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- A rank-1 index set is its one coordinate's range: sums over edges' update indices are sums over edges. -/
theorem sum_filter_ix1 {M : Type*} [AddCommMonoid M] {n : Nat} (p : (⟨1, ![n]⟩ : Shape).Idx → Prop) [DecidablePred p]
    (q : Fin n → Prop) [DecidablePred q] (hpq : ∀ e : Fin n, p (ix1 e) ↔ q e) (f : (⟨1, ![n]⟩ : Shape).Idx → M) :
    ∑ j ∈ Finset.univ.filter p, f j = ∑ e ∈ Finset.univ.filter q, f (ix1 e) := by
  refine Finset.sum_nbij' (fun j => (j 0 : Fin n)) (fun e => ix1 e) ?_ ?_ ?_ ?_ ?_
  · intro j hj
    have hj' : p j := (Finset.mem_filter.1 hj).2
    exact Finset.mem_filter.2 ⟨Finset.mem_univ _, (hpq _).1 ((congrArg p (eq_ix1 j)).mp hj')⟩
  · intro e he
    exact Finset.mem_filter.2 ⟨Finset.mem_univ _, (hpq e).2 (Finset.mem_filter.1 he).2⟩
  · intro j _; exact (eq_ix1 j).symm
  · intro e _; rfl
  · intro j _; exact congrArg f (eq_ix1 j)

/-- THE PAIR SCATTER READ AT (i, k), every pair made of valid row numbers: the operand there plus the updates of the
    edges whose pair is (i, k). Stated over index words read through `r : BitVec w → Fin N`, a reading that is the
    signed one on every word met. -/
theorem pair_scatterAdd_apply {φ : FTy} (x : FVec Ideal ⟨2, ![N, N]⟩ φ) (idx : IVec ⟨2, ![E, 2]⟩ w)
    (upd : FVec Ideal ⟨1, ![E]⟩ φ) (r : BitVec w → Fin N)
    (h : ∀ n : Fin E, (idx (ix2 n 0)).toInt = ((r (idx (ix2 n 0))).val : Int)
      ∧ (idx (ix2 n 1)).toInt = ((r (idx (ix2 n 1))).val : Int)) (i k : Fin N) :
    Host.scatterAdd (F := Ideal) (pairScatterDims N E wf) x idx upd (ix2 i k)
      = x (ix2 i k) + ∑ n ∈ Finset.univ.filter (fun n : Fin E => r (idx (ix2 n 0)) = i ∧ r (idx (ix2 n 1)) = k),
          upd (ix1 n) := by
  show Ideal.hostScatterAdd (pairScatterDims N E wf) x idx upd (ix2 i k) = _
  unfold Ideal.hostScatterAdd
  congr 1
  refine sum_filter_ix1 _ _ (fun e => ?_) upd
  rw [pair_resultIdx wf idx e _ _ (h e).1 (h e).2, Option.some_inj, ix2_eq_iff]

end Pair

/-- THE PAIR SCATTER of the 16384 × 16384 array READ AT (i, k), every index word a valid row. -/
theorem scatter2_apply {φ : FTy}
    (wf : ScatterDims.WF ⟨2, ![16384, 16384]⟩ ⟨2, ![540672, 2]⟩ ⟨1, ![540672]⟩ [] [0, 1] [0, 1] 1)
    (x : FVec Ideal ⟨2, ![16384, 16384]⟩ φ) (idx : IVec ⟨2, ![540672, 2]⟩ 32) (upd : FVec Ideal ⟨1, ![540672]⟩ φ)
    (h : ∀ n : Fin 540672, InRange (idx (ix2 n 0)) ∧ InRange (idx (ix2 n 1))) (i k : Fin 16384) :
    Host.scatterAdd (F := Ideal) (pairScatterDims 16384 540672 wf) x idx upd (ix2 i k)
      = x (ix2 i k) + ∑ n ∈ Finset.univ.filter (fun n : Fin 540672 => row (idx (ix2 n 0)) = i ∧ row (idx (ix2 n 1)) = k),
          upd (ix1 n) :=
  pair_scatterAdd_apply wf x idx upd row (fun n => ⟨(row_val (h n).1).symm, (row_val (h n).2).symm⟩) i k

end Cert.ScatterRead

end
-- ==== Proof.ScatterReadRows.lean ====
/-
  Reading an accumulating scatter of rows at an index, at the ideal instance.

  An N × L array is accumulated into through E scalar row indices held as an E × 1 column, with one row of L updates
  per edge: update (e, l) goes to the cell (index of e, l). A scatter reads its indices as signed integers and does
  not clamp them, so an update whose index lies in [0, N) lands exactly on the row the index names, in its own
  column. When every index is a valid row number, the accumulated array at the cell (i, l) is the operand there plus
  the sum, over the edges whose index is i, of their update in column l.
-/
import Idealize.ShloMosaic.Lib.ValueIdx
import Idealize.ShloMosaic.PureOps.Ideal
import proofs.«107804_j58506044506600_1_alg».proof.Proof.Rows

noncomputable section

open scoped BigOperators

namespace Cert.ScatterRead

open Idealize.ShloMosaic Idealize.ShloMosaic.ValueIdx Cert.Rows

/-- The dimension numbers of `Z.at[idx].add(U)` for an N × L array, E scalar row indices held as an E × 1 column and
    E × L updates: the updates' axis 1 is the window axis, operand axis 0 is inserted and is the one the index names. -/
abbrev rowsScatterDims (N E L : Nat) (wf : ScatterDims.WF ⟨2, ![N, L]⟩ ⟨2, ![E, 1]⟩ ⟨2, ![E, L]⟩ [1] [0] [0] 1) :
    ScatterDims ⟨2, ![N, L]⟩ ⟨2, ![E, 1]⟩ ⟨2, ![E, L]⟩ where
  updateWindowDims := [1]
  insertedWindowDims := [0]
  scatterDimsToOperandDims := [0]
  indexVectorDim := 1
  wf := wf

section Rows

variable {N E L w : Nat} (wf : ScatterDims.WF ⟨2, ![N, L]⟩ ⟨2, ![E, 1]⟩ ⟨2, ![E, L]⟩ [1] [0] [0] 1)

/-- On operand axis 0 the window of update (e, l) starts at edge e's index, read signed. -/
theorem rows_start0 (idx : IVec ⟨2, ![E, 1]⟩ w) (e : Fin E) (l : Fin L) :
    (rowsScatterDims N E L wf).start (ix2 e l) idx 0 = (idx (ix2 e 0)).toInt := by
  have hmem : (0 : Fin 2) ∈ (rowsScatterDims N E L wf).scatterDimsToOperandDims := by
    show (0 : Fin 2) ∈ ([0] : List (Fin 2)); decide
  unfold ScatterDims.start
  rw [dif_pos hmem]
  have hsi : (rowsScatterDims N E L wf).siIdx (ix2 e l)
      ⟨List.idxOf (0 : Fin 2) (rowsScatterDims N E L wf).scatterDimsToOperandDims, List.idxOf_lt_length_iff.2 hmem⟩
      = ix2 e 0 := by
    funext b; refine Fin.ext ?_
    match b with
    | ⟨0, _⟩ => rfl
    | ⟨1, _⟩ => rfl
  rw [hsi]

/-- Operand axis 1 is not named by the index: the window starts at 0 there. -/
theorem rows_start1 (idx : IVec ⟨2, ![E, 1]⟩ w) (e : Fin E) (l : Fin L) :
    (rowsScatterDims N E L wf).start (ix2 e l) idx 1 = 0 := by
  unfold ScatterDims.start
  rw [dif_neg]
  show (1 : Fin 2) ∉ ([0] : List (Fin 2)); decide

/-- Operand axis 0 is inserted: the window coordinate is 0 there. -/
theorem rows_window0 (e : Fin E) (l : Fin L) : (rowsScatterDims N E L wf).window (ix2 e l) 0 = 0 := by
  unfold ScatterDims.window
  rw [dif_neg]
  show (0 : Fin 2) ∉ (List.finRange 2).filter (· ∉ ([0] : List (Fin 2))); decide

/-- On operand axis 1 the window coordinate of update (e, l) is its column l. -/
theorem rows_window1 (e : Fin E) (l : Fin L) : (rowsScatterDims N E L wf).window (ix2 e l) 1 = l.val := by
  have hmem : (1 : Fin 2) ∈ (rowsScatterDims N E L wf).sKept := by
    show (1 : Fin 2) ∈ (List.finRange 2).filter (· ∉ ([0] : List (Fin 2))); decide
  unfold ScatterDims.window
  rw [dif_pos hmem]
  rfl

/-- Update (e, l) of an edge whose index is the valid row number r lands on the cell (r, l). -/
theorem rows_resultIdx (idx : IVec ⟨2, ![E, 1]⟩ w) (e : Fin E) (l : Fin L) (r : Fin N)
    (h : (idx (ix2 e 0)).toInt = (r.val : Int)) :
    (rowsScatterDims N E L wf).resultIdx? (ix2 e l) idx = some (ix2 r l) := by
  have hs0 := rows_start0 wf idx e l
  have hs1 := rows_start1 wf idx e l
  have hw0 := rows_window0 wf e l
  have hw1 := rows_window1 wf e l
  have hall : ∀ a : Fin 2,
      0 ≤ (rowsScatterDims N E L wf).start (ix2 e l) idx a + ((rowsScatterDims N E L wf).window (ix2 e l) a : Int)
      ∧ (rowsScatterDims N E L wf).start (ix2 e l) idx a + ((rowsScatterDims N E L wf).window (ix2 e l) a : Int)
        < ((⟨2, ![N, L]⟩ : Shape).size a : Int) := by
    intro a
    match a with
    | ⟨0, _⟩ =>
      show 0 ≤ (rowsScatterDims N E L wf).start (ix2 e l) idx 0 + ((rowsScatterDims N E L wf).window (ix2 e l) 0 : Int)
        ∧ (rowsScatterDims N E L wf).start (ix2 e l) idx 0 + ((rowsScatterDims N E L wf).window (ix2 e l) 0 : Int)
          < (N : Int)
      rw [hs0, hw0, h]; have := r.isLt; omega
    | ⟨1, _⟩ =>
      show 0 ≤ (rowsScatterDims N E L wf).start (ix2 e l) idx 1 + ((rowsScatterDims N E L wf).window (ix2 e l) 1 : Int)
        ∧ (rowsScatterDims N E L wf).start (ix2 e l) idx 1 + ((rowsScatterDims N E L wf).window (ix2 e l) 1 : Int)
          < (L : Int)
      rw [hs1, hw1]; have := l.isLt; omega
  unfold ScatterDims.resultIdx?
  rw [dif_pos hall]
  congr 1
  funext a
  refine Fin.ext ?_
  match a with
  | ⟨0, _⟩ =>
    show ((rowsScatterDims N E L wf).start (ix2 e l) idx 0
      + ((rowsScatterDims N E L wf).window (ix2 e l) 0 : Int)).toNat = r.val
    rw [hs0, hw0, h]; omega
  | ⟨1, _⟩ =>
    show ((rowsScatterDims N E L wf).start (ix2 e l) idx 1
      + ((rowsScatterDims N E L wf).window (ix2 e l) 1 : Int)).toNat = l.val
    rw [hs1, hw1]; omega

/-- Two cells of a rank-2 array are equal exactly when their coordinates are. -/
theorem ix2_eq_iff' {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- A sum over the cells of a rank-2 index set that lie in column l and whose row satisfies q is the sum over
    those rows. -/
theorem sum_filter_ix2_col {M : Type*} [AddCommMonoid M] {n0 n1 : Nat} (p : (⟨2, ![n0, n1]⟩ : Shape).Idx → Prop)
    [DecidablePred p] (q : Fin n0 → Prop) [DecidablePred q] (l : Fin n1)
    (hpq : ∀ (e : Fin n0) (l' : Fin n1), p (ix2 e l') ↔ q e ∧ l' = l) (f : (⟨2, ![n0, n1]⟩ : Shape).Idx → M) :
    ∑ j ∈ Finset.univ.filter p, f j = ∑ e ∈ Finset.univ.filter q, f (ix2 e l) := by
  have key : ∀ j : (⟨2, ![n0, n1]⟩ : Shape).Idx, p j → q (j 0 : Fin n0) ∧ ix2 (j 0 : Fin n0) l = j := by
    intro j hp
    have hp' : p (ix2 (j 0) (j 1)) := (congrArg p (eq_ix2 j)).mp hp
    obtain ⟨hq, h1⟩ := (hpq _ _).1 hp'
    refine ⟨hq, ?_⟩
    subst h1
    exact (eq_ix2 j).symm
  refine Finset.sum_nbij' (fun j => (j 0 : Fin n0)) (fun e => ix2 e l) ?_ ?_ ?_ ?_ ?_
  · intro j hj
    exact Finset.mem_filter.2 ⟨Finset.mem_univ _, (key j (Finset.mem_filter.1 hj).2).1⟩
  · intro e he
    exact Finset.mem_filter.2 ⟨Finset.mem_univ _, (hpq e l).2 ⟨(Finset.mem_filter.1 he).2, rfl⟩⟩
  · intro j hj; exact (key j (Finset.mem_filter.1 hj).2).2
  · intro e _; rfl
  · intro j hj; exact congrArg f (key j (Finset.mem_filter.1 hj).2).2.symm

/-- THE ROW SCATTER READ AT (i, l), every index a valid row number: the operand there plus, over the edges whose
    index is i, their update in column l. Stated over index words read through `r : BitVec w → Fin N`, a reading
    that is the signed one on every word met. -/
theorem rows_scatterAdd_apply {φ : FTy} (x : FVec Ideal ⟨2, ![N, L]⟩ φ) (idx : IVec ⟨2, ![E, 1]⟩ w)
    (upd : FVec Ideal ⟨2, ![E, L]⟩ φ) (r : BitVec w → Fin N)
    (h : ∀ n : Fin E, (idx (ix2 n 0)).toInt = ((r (idx (ix2 n 0))).val : Int)) (i : Fin N) (l : Fin L) :
    Host.scatterAdd (F := Ideal) (rowsScatterDims N E L wf) x idx upd (ix2 i l)
      = x (ix2 i l) + ∑ n ∈ Finset.univ.filter (fun n : Fin E => r (idx (ix2 n 0)) = i), upd (ix2 n l) := by
  show Ideal.hostScatterAdd (rowsScatterDims N E L wf) x idx upd (ix2 i l) = _
  unfold Ideal.hostScatterAdd
  congr 1
  refine sum_filter_ix2_col _ _ l (fun e l' => ?_) upd
  rw [rows_resultIdx wf idx e l' _ (h e), Option.some_inj, ix2_eq_iff']

end Rows

/-- THE ROW SCATTER of the 16384 × 256 array READ AT (i, l), every index word a valid row. -/
theorem scatterRows_apply {φ : FTy}
    (wf : ScatterDims.WF ⟨2, ![16384, 256]⟩ ⟨2, ![540672, 1]⟩ ⟨2, ![540672, 256]⟩ [1] [0] [0] 1)
    (x : FVec Ideal ⟨2, ![16384, 256]⟩ φ) (idx : IVec ⟨2, ![540672, 1]⟩ 32) (upd : FVec Ideal ⟨2, ![540672, 256]⟩ φ)
    (h : ∀ n : Fin 540672, InRange (idx (ix2 n 0))) (i : Fin 16384) (l : Fin 256) :
    Host.scatterAdd (F := Ideal) (rowsScatterDims 16384 540672 256 wf) x idx upd (ix2 i l)
      = x (ix2 i l) + ∑ n ∈ Finset.univ.filter (fun n : Fin 540672 => row (idx (ix2 n 0)) = i), upd (ix2 n l) :=
  rows_scatterAdd_apply wf x idx upd row (fun n => (row_val (h n)).symm) i l

end Cert.ScatterRead

end
-- ==== Proof.LibRowGatherScatter.lean ====
/-
  Reading a gather of rows and a scatter of rows at an index.

  An operand with N rows is read, or accumulated into, through an integer array of E start indices held as an
  E × 1 column (one scalar index per edge):

  * gathering from a vector of N entries gives, at edge e, the entry at the edge's index read as a signed integer and
    clamped into [0, N − 1] (`gather_vec_apply`);
  * gathering rows from an N × L array gives, at (e, l), the entry (r, l) where r is that same clamped index
    (`gather_row_apply`): the row a two-dimensional gather reads is the entry a one-dimensional gather reads;
  * an update (e, l) of a row scatter lands on cell i only if the edge's index, read signed and NOT clamped, is
    exactly i's row (`scatter_row_lands`): an index outside [0, N) lands nowhere.
-/
import Idealize.ShloMosaic.Lib.ValueIdx
import Idealize.ShloMosaic.PureOps.Ideal

noncomputable section

namespace Cert.LibRowGatherScatter

open Idealize.ShloMosaic Idealize.ShloMosaic.ValueIdx

/-- The position in the E × 1 column of start indices that belongs to edge `e`. -/
abbrev colIdx {E : Nat} (e : Fin E) : (⟨2, ![E, 1]⟩ : Shape).Idx := ix2 e (0 : Fin 1)

/-- A start index read as a signed integer and clamped into [0, N − 1]: the row a gather reads. -/
def clampRow {w : Nat} (N : Nat) (hN : 0 < N) (v : BitVec w) : Fin N := ⟨min v.toInt.toNat (N - 1), by omega⟩

/-! ## Gathering from a vector -/

/-- The dimension numbers of `x[idx]` for a vector `x` of N entries and E scalar indices held as an E × 1 column. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gathered vector is the operand at edge e's clamped index. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (colIdx e)))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = colIdx e := by
    funext b; refine Fin.ext ?_
    match b with
    | ⟨0, _⟩ => rfl
    | ⟨1, _⟩ => rfl
  rw [hsi]
  rfl

/-! ## Gathering rows -/

/-- The dimension numbers of `X[idx]` for an N × L array and E scalar row indices held as an E × 1 column. -/
abbrev rowGatherDims (N E L : Nat)
    (wf : GatherDims.WF ⟨2, ![N, L]⟩ ⟨2, ![E, 1]⟩ ⟨2, ![E, L]⟩ [1] [0] [] [0] [] 1 ![1, L]) :
    GatherDims ⟨2, ![N, L]⟩ ⟨2, ![E, 1]⟩ ⟨2, ![E, L]⟩ where
  offsetDims := [1]
  collapsedSliceDims := [0]
  operandBatchingDims := []
  startIndicesBatchingDims := []
  startIndexMap := [0]
  indexVectorDim := 1
  sliceSizes := ![1, L]
  wf := wf

/-- Entry (e, l) of the gathered rows is the operand at (edge e's clamped index, l). -/
theorem gather_row_apply {α : Type} {N E L w : Nat} (hN : 0 < N)
    (wf : GatherDims.WF ⟨2, ![N, L]⟩ ⟨2, ![E, 1]⟩ ⟨2, ![E, L]⟩ [1] [0] [] [0] [] 1 ![1, L])
    (x : (⟨2, ![N, L]⟩ : Shape).Idx → α) (idx : IVec ⟨2, ![E, 1]⟩ w) (e : Fin E) (l : Fin L) :
    Host.gather (rowGatherDims N E L wf) x idx (ix2 e l) = x (ix2 (clampRow N hN (idx (colIdx e))) l) := by
  unfold Host.gather
  congr 1
  funext a
  refine Fin.ext ?_
  match a with
  | ⟨0, _⟩ =>
    show (rowGatherDims N E L wf).start (ix2 e l) idx 0 + (rowGatherDims N E L wf).batchCoord (ix2 e l) 0
      + (rowGatherDims N E L wf).offCoord (ix2 e l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E L wf).startIndexMap from List.mem_singleton.mpr rfl)]
    have hsi : (rowGatherDims N E L wf).siIdx (ix2 e l) ⟨List.idxOf (0 : Fin 2) (rowGatherDims N E L wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowGatherDims N E L wf).start (ix2 e l) idx 1 + (rowGatherDims N E L wf).batchCoord (ix2 e l) 1
      + (rowGatherDims N E L wf).offCoord (ix2 e l) 1 = l.val
    rw [GatherDims.batchCoord_eq_zero _ _ _ List.not_mem_nil]
    have hs : (rowGatherDims N E L wf).start (ix2 e l) idx 1 = 0 := by
      unfold GatherDims.start
      rw [dif_neg (show (1 : Fin 2) ∉ (rowGatherDims N E L wf).startIndexMap from
        by show (1 : Fin 2) ∉ ([0] : List (Fin 2)); decide)]
    rw [hs]
    simp only [Nat.add_zero, Nat.zero_add]
    rfl

/-! ## Scattering rows -/

/-- The dimension numbers of `Z.at[idx].add(U)` for an N × L array, E scalar row indices held as an E × 1 column and
    E × L updates. -/
abbrev rowScatterDims (N E L : Nat)
    (wf : ScatterDims.WF ⟨2, ![N, L]⟩ ⟨2, ![E, 1]⟩ ⟨2, ![E, L]⟩ [1] [0] [0] 1) :
    ScatterDims ⟨2, ![N, L]⟩ ⟨2, ![E, 1]⟩ ⟨2, ![E, L]⟩ where
  updateWindowDims := [1]
  insertedWindowDims := [0]
  scatterDimsToOperandDims := [0]
  indexVectorDim := 1
  wf := wf

/-- If update (e, l) lands on cell i, then edge e's index, read as a signed integer, is i's row. -/
theorem scatter_row_lands {N E L w : Nat} (wf : ScatterDims.WF ⟨2, ![N, L]⟩ ⟨2, ![E, 1]⟩ ⟨2, ![E, L]⟩ [1] [0] [0] 1)
    (idx : IVec ⟨2, ![E, 1]⟩ w) (e : Fin E) (l : Fin L) (i : (⟨2, ![N, L]⟩ : Shape).Idx)
    (h : (rowScatterDims N E L wf).resultIdx? (ix2 e l) idx = some i) :
    (idx (colIdx e)).toInt = ((i 0).val : Int) := by
  unfold ScatterDims.resultIdx? at h
  split at h
  · rename_i hall
    have hi := Option.some.inj h
    have h0 := hall 0
    have hs : (rowScatterDims N E L wf).start (ix2 e l) idx 0 = (idx (colIdx e)).toInt := by
      unfold ScatterDims.start
      rw [dif_pos (show (0 : Fin 2) ∈ (rowScatterDims N E L wf).scatterDimsToOperandDims from List.mem_singleton.mpr rfl)]
      have hsi : (rowScatterDims N E L wf).siIdx (ix2 e l) ⟨List.idxOf (0 : Fin 2) (rowScatterDims N E L wf).scatterDimsToOperandDims,
          List.idxOf_lt_length_iff.2 (List.mem_singleton.mpr rfl)⟩ = colIdx e := by
        funext b; refine Fin.ext ?_
        match b with
        | ⟨0, _⟩ => rfl
        | ⟨1, _⟩ => rfl
      rw [hsi]
    have hw : (rowScatterDims N E L wf).window (ix2 e l) 0 = 0 := by
      unfold ScatterDims.window
      rw [dif_neg (show (0 : Fin 2) ∉ (rowScatterDims N E L wf).sKept from by
        simp [ScatterDims.sKept, Shape.kept])]
    have hv := congrArg (fun f : (⟨2, ![N, L]⟩ : Shape).Idx => (f 0).val) hi
    simp only at hv
    rw [hs, hw] at h0
    rw [← hv]
    show _ = (((rowScatterDims N E L wf).start (ix2 e l) idx 0 + ((rowScatterDims N E L wf).window (ix2 e l) 0 : Int)).toNat : Int)
    rw [hs, hw]
    omega
  · exact absurd h (by simp)

end Cert.LibRowGatherScatter

end
-- ==== Proof.GatherRead.lean ====
/-
  Reading a gather of rows at an index.

  Rows of an N × L array are gathered through E scalar row indices held as an E × 1 column. A gather reads each
  index as a signed integer and clamps it into [0, N − 1]; on an index that is a valid row number the clamp does
  nothing, so entry (n, l) of the gathered array is the operand's entry (index of n, l).
-/
import proofs.«107804_j58506044506600_1_alg».proof.Proof.LibRowGatherScatter
import proofs.«107804_j58506044506600_1_alg».proof.Proof.Rows

noncomputable section

namespace Cert.ScatterRead

open Idealize.ShloMosaic Idealize.ShloMosaic.ValueIdx Cert.Rows Cert.LibRowGatherScatter

/-- Clamping a valid row number into [0, 16383] leaves it as it is. -/
theorem clampRow_eq_row {v : BitVec 32} (h : InRange v) : clampRow 16384 (by omega) v = row v := by
  refine Fin.ext ?_
  show min v.toInt.toNat (16384 - 1) = (row v).val
  rw [row_val_nat h]
  obtain ⟨h0, h1⟩ := h
  omega

/-- THE ROW GATHER from the 16384 × 256 array READ AT (n, l), edge n's index word a valid row: the operand at
    (that row, l). -/
theorem gatherRows_apply {α : Type}
    (wf : GatherDims.WF ⟨2, ![16384, 256]⟩ ⟨2, ![540672, 1]⟩ ⟨2, ![540672, 256]⟩ [1] [0] [] [0] [] 1 ![1, 256])
    (x : (⟨2, ![16384, 256]⟩ : Shape).Idx → α) (idx : IVec ⟨2, ![540672, 1]⟩ 32) (n : Fin 540672) (l : Fin 256)
    (h : InRange (idx (ix2 n 0))) :
    Host.gather (rowGatherDims 16384 540672 256 wf) x idx (ix2 n l) = x (ix2 (row (idx (ix2 n 0))) l) := by
  rw [gather_row_apply (by omega : 0 < 16384) wf x idx n l]
  exact congrArg (fun r => x (ix2 r l)) (clampRow_eq_row h)

end Cert.ScatterRead

end
-- ==== Proof.ScatterReadPrinted.lean ====
/-
  The three reads at an index, at the dimension records the two programs print.

  The program with the dense adjacency accumulates edge weights into a 16384 × 16384 array at (first, second) index
  pairs; the other program gathers rows of a 16384 × 256 array at the edges' sources and accumulates rows at the
  edges' targets. Their printed dimension records have the fields of the records the general reads are stated for,
  so each read holds at the printed record as it stands.
-/
import proofs.«107804_j58506044506600_1_alg».proof.KernelIdeal
import proofs.«107804_j58506044506600_1_alg».proof.ReferenceIdeal
import proofs.«107804_j58506044506600_1_alg».proof.Proof.ScatterRead
import proofs.«107804_j58506044506600_1_alg».proof.Proof.ScatterReadRows
import proofs.«107804_j58506044506600_1_alg».proof.Proof.GatherRead

noncomputable section

open scoped BigOperators

namespace Cert.ScatterRead

open Idealize.ShloMosaic Idealize.ShloMosaic.ValueIdx Cert.Rows

section KernelProgram

variable [Cert.KernelIdeal.Facts]

/-- The pair scatter the kernel program prints, read at (i, k), every index word a valid row. -/
theorem kernel_scatter2_apply {φ : FTy} (x : FVec Ideal Cert.KernelIdeal.S16384x16384 φ)
    (idx : IVec Cert.KernelIdeal.S540672x2 32) (upd : FVec Ideal Cert.KernelIdeal.S540672 φ)
    (h : ∀ n : Fin 540672, InRange (idx (ix2 n 0)) ∧ InRange (idx (ix2 n 1))) (i k : Fin 16384) :
    Host.scatterAdd (F := Ideal) Cert.KernelIdeal.scatter_S16384x16384_S540672x2_S540672_n_01_01_1 x idx upd (ix2 i k)
      = x (ix2 i k) + ∑ n ∈ Finset.univ.filter (fun n : Fin 540672 => row (idx (ix2 n 0)) = i ∧ row (idx (ix2 n 1)) = k),
          upd (ix1 n) :=
  scatter2_apply Cert.KernelIdeal.Facts₀.scatter_S16384x16384_S540672x2_S540672_n_01_01_1_wf x idx upd h i k

end KernelProgram

section ReferenceProgram

variable [Cert.ReferenceIdeal.Facts]

/-- The row scatter the reference program prints, read at (i, l), every index word a valid row. -/
theorem reference_scatterRows_apply {φ : FTy} (x : FVec Ideal Cert.ReferenceIdeal.S16384x256 φ)
    (idx : IVec Cert.ReferenceIdeal.S540672x1 32) (upd : FVec Ideal Cert.ReferenceIdeal.S540672x256 φ)
    (h : ∀ n : Fin 540672, InRange (idx (ix2 n 0))) (i : Fin 16384) (l : Fin 256) :
    Host.scatterAdd (F := Ideal) Cert.ReferenceIdeal.scatter_S16384x256_S540672x1_S540672x256_1_0_0_1 x idx upd (ix2 i l)
      = x (ix2 i l) + ∑ n ∈ Finset.univ.filter (fun n : Fin 540672 => row (idx (ix2 n 0)) = i), upd (ix2 n l) :=
  scatterRows_apply Cert.ReferenceIdeal.Facts₀.scatter_S16384x256_S540672x1_S540672x256_1_0_0_1_wf x idx upd h i l

/-- The row gather the reference program prints, read at (n, l), edge n's index word a valid row. -/
theorem reference_gatherRows_apply {α : Type} (x : Cert.ReferenceIdeal.S16384x256.Idx → α)
    (idx : IVec Cert.ReferenceIdeal.S540672x1 32) (n : Fin 540672) (l : Fin 256) (h : InRange (idx (ix2 n 0))) :
    Host.gather Cert.ReferenceIdeal.gather_S16384x256_S540672x1_S540672x256_1_0_n_n_0_1_1256 x idx (ix2 n l)
      = x (ix2 (row (idx (ix2 n 0))) l) :=
  gatherRows_apply Cert.ReferenceIdeal.Facts₀.gather_S16384x256_S540672x1_S540672x256_1_0_n_n_0_1_1256_wf x idx n l h

end ReferenceProgram

end Cert.ScatterRead

end
-- ==== Proof.AggOps.lean ====
/-
  The two aggregations read at an entry, for arbitrary operands.

  Dense side: a zero 16384 × 16384 array accumulates, at the index pair made of two index columns joined side by side,
  the elementwise product of two per-edge vectors. Read at (p, k) it is 0 plus the sum of the products over the edges
  whose first column names p and whose second names k.
  Sparse side: a 16384 × 256 array that is zero everywhere accumulates a row of updates per edge at the row the edge's
  index names; read at (p, q) it is 0 plus the sum over the edges whose index names p of their update in column q.
  A gather of rows reads, at (n, l), the operand's row named by edge n's index, in column l.
  In all three the index columns are only asked to agree, edge by edge, with words that are valid row numbers.
-/
import proofs.«107804_j58506044506600_1_alg».proof.Proof.ScatterReadPrinted
import Idealize.ShloMosaic.Lib.Pipeline.Value
import Idealize.ShloMosaic.PureOps.Ideal.Laws

noncomputable section

open scoped BigOperators

namespace Cert.AggOps

open Idealize.ShloMosaic Idealize.ShloMosaic.ValueIdx Cert.Rows Cert.ScatterRead

section KernelProgram

variable [Cert.KernelIdeal.Facts]

open Cert.KernelIdeal Cert.KernelIdeal.Facts₀

/-- Two one-column index arrays joined side by side: column 0 of the pair array is the first. -/
theorem pairCols_fst (c1 c0 : IVec S540672x1 32) (n : Fin 540672) :
    concatenate S540672x2 1 [⟨S540672x1, c1⟩, ⟨S540672x1, c0⟩] concatenates_S540672x1_S540672x1_S540672x2_d1 (ix2 n 0)
      = c1 (ix2 n 0) :=
  concatenate_pair_apply_left _ c1 c0 concatenates_S540672x1_S540672x1_S540672x2_d1 (ix2 n 0) rfl (ix2 n 0)
    (fun b => match b with | ⟨0, _⟩ => rfl | ⟨1, _⟩ => rfl)

/-- Two one-column index arrays joined side by side: column 1 of the pair array is the second. -/
theorem pairCols_snd (c1 c0 : IVec S540672x1 32) (n : Fin 540672) :
    concatenate S540672x2 1 [⟨S540672x1, c1⟩, ⟨S540672x1, c0⟩] concatenates_S540672x1_S540672x1_S540672x2_d1 (ix2 n 1)
      = c0 (ix2 n 0) :=
  concatenate_pair_apply_right _ c1 c0 concatenates_S540672x1_S540672x1_S540672x2_d1 (ix2 n 1) rfl rfl (ix2 n 0)
    (fun b => match b with | ⟨0, _⟩ => fun _ => rfl | ⟨1, _⟩ => fun hne => absurd rfl hne)
    rfl

/-- THE DENSE ACCUMULATION READ AT (p, k): zero plus the products of the edges whose index pair is (p, k). -/
theorem adj_read (c1 c0 : IVec S540672x1 32) (a b : FVec Ideal S540672 .f32) (w1 w0 : Fin 540672 → BitVec 32)
    (h1 : ∀ n : Fin 540672, c1 (ix2 n 0) = w1 n) (h0 : ∀ n : Fin 540672, c0 (ix2 n 0) = w0 n)
    (hr1 : ∀ n, InRange (w1 n)) (hr0 : ∀ n, InRange (w0 n)) (p k : Fin 16384) :
    Host.scatterAdd (F := Ideal) scatter_S16384x16384_S540672x2_S540672_n_01_01_1
        (broadcastInDim S16384x16384 ![] bcast_S_S16384x16384 (constant (F := Ideal) S_ .f32 0#32))
        (concatenate S540672x2 1 [⟨S540672x1, c1⟩, ⟨S540672x1, c0⟩] concatenates_S540672x1_S540672x1_S540672x2_d1)
        (mulf a b) (ix2 p k)
      = 0 + ∑ n ∈ Finset.univ.filter (fun n : Fin 540672 => row (w1 n) = p ∧ row (w0 n) = k), a (ix1 n) * b (ix1 n) := by
  have e1 : ∀ n : Fin 540672, concatenate S540672x2 1 [⟨S540672x1, c1⟩, ⟨S540672x1, c0⟩]
      concatenates_S540672x1_S540672x1_S540672x2_d1 (ix2 n 0) = w1 n := fun n => (pairCols_fst c1 c0 n).trans (h1 n)
  have e0 : ∀ n : Fin 540672, concatenate S540672x2 1 [⟨S540672x1, c1⟩, ⟨S540672x1, c0⟩]
      concatenates_S540672x1_S540672x1_S540672x2_d1 (ix2 n 1) = w0 n := fun n => (pairCols_snd c1 c0 n).trans (h0 n)
  generalize concatenate S540672x2 1 [⟨S540672x1, c1⟩, ⟨S540672x1, c0⟩]
    concatenates_S540672x1_S540672x1_S540672x2_d1 = I at e1 e0 ⊢
  have hz : broadcastInDim S16384x16384 ![] bcast_S_S16384x16384 (constant (F := Ideal) S_ .f32 0#32) (ix2 p k)
      = (0 : EReal) := Ideal.ofBits_zero_f32
  rw [kernel_scatter2_apply _ I _ (fun n => ⟨by rw [e1 n]; exact hr1 n, by rw [e0 n]; exact hr0 n⟩) p k, hz]
  refine congrArg (fun t : EReal => 0 + t) ?_
  exact Finset.sum_congr (Finset.filter_congr fun n _ => by rw [e1 n, e0 n]) fun n _ => rfl

end KernelProgram

section ReferenceProgram

variable [Cert.ReferenceIdeal.Facts]

open Cert.ReferenceIdeal Cert.ReferenceIdeal.Facts₀

/-- THE ROW GATHER READ AT (n, l), its index column agreeing with valid row numbers. -/
theorem gather_read (X : FVec Ideal S16384x256 .f32) (I : IVec S540672x1 32) (ws : Fin 540672 → BitVec 32)
    (hI : ∀ n : Fin 540672, I (ix2 n 0) = ws n) (hws : ∀ n, InRange (ws n)) (n : Fin 540672) (l : Fin 256) :
    Host.gather gather_S16384x256_S540672x1_S540672x256_1_0_n_n_0_1_1256 X I (ix2 n l) = X (ix2 (row (ws n)) l) := by
  rw [reference_gatherRows_apply X I n l (by rw [hI n]; exact hws n), hI n]

/-- THE SPARSE ACCUMULATION READ AT (p, q): zero plus, over the edges whose index names p, their update in
    column q. -/
theorem agg_read (Z : FVec Ideal S16384x256 .f32) (I : IVec S540672x1 32) (U : FVec Ideal S540672x256 .f32)
    (wt : Fin 540672 → BitVec 32) (hI : ∀ n : Fin 540672, I (ix2 n 0) = wt n) (hwt : ∀ n, InRange (wt n))
    (hZ : ∀ (p : Fin 16384) (q : Fin 256), Z (ix2 p q) = 0) (f : Fin 540672 → Fin 256 → EReal)
    (hU : ∀ (n : Fin 540672) (l : Fin 256), U (ix2 n l) = f n l) (p : Fin 16384) (q : Fin 256) :
    Host.scatterAdd (F := Ideal) scatter_S16384x256_S540672x1_S540672x256_1_0_0_1 Z I U (ix2 p q)
      = 0 + ∑ n ∈ Finset.univ.filter (fun n : Fin 540672 => row (wt n) = p), f n q := by
  rw [reference_scatterRows_apply Z I U (fun n => by rw [hI n]; exact hwt n) p q, hZ p q]
  refine congrArg (fun t : EReal => 0 + t) ?_
  exact Finset.sum_congr (Finset.filter_congr fun n _ => by rw [hI n]) fun n _ => hU n q

end ReferenceProgram

end Cert.AggOps

end
-- ==== Proof.AggReads.lean ====
/-
  The two programs' aggregations read at an entry.

  The dense adjacency at (p, k) is the sum of the weights of the edges from k to p; the reference program's
  accumulated rows at (p, q), in either layer, are the sum over the edges into p of the edge's weight times the
  transformed feature row of the edge's source, in column q. Every edge's weight is the product of the two gathered
  inverse-square-root degrees. Each statement is the read of an accumulating scatter at an entry, with the index
  columns identified with the edges' end words (valid rows by hypothesis), the accumulator zero, and, on the
  reference side, the update row the weight times the gathered row.
-/
import proofs.«107804_j58506044506600_1_alg».proof.Proof.KernelAdj
import proofs.«107804_j58506044506600_1_alg».proof.Proof.RefWeights
import proofs.«107804_j58506044506600_1_alg».proof.Proof.RefReads
import proofs.«107804_j58506044506600_1_alg».proof.Proof.AggOps
import proofs.«107804_j58506044506600_1_alg».proof.Proof.EdgeRows

noncomputable section

open scoped BigOperators

namespace Cert.AggReads

open Cert.ReferenceIdeal Cert.ReferenceIdeal.Read Cert.Rows Cert.EdgeRows Cert.RefWeights Cert.RefReads
open Idealize.ShloMosaic Idealize.ShloMosaic.ValueIdx

variable (x0 : (⟨S2x524288, .i32⟩ : BufTy).Contents (Elt Ideal))
  (x2 : (⟨S16384x256, .f32⟩ : BufTy).Contents (Elt Ideal))
  (x5 : (⟨S256x256, .f32⟩ : BufTy).Contents (Elt Ideal))
  (x6 : (⟨S256, .f32⟩ : BufTy).Contents (Elt Ideal))
  (x7 : (⟨S256x256, .f32⟩ : BufTy).Contents (Elt Ideal))

/-- The dense adjacency at (p, k): the sum of the weights of the edges with target p and source k. -/
theorem adj_apply (h : ∀ i, InRange (x0 i)) (p k : Fin 16384) :
    Cert.KernelIdeal.Adj.adjacency x0 (ix2 p k)
      = 0 + ∑ n ∈ Finset.univ.filter (fun n : Fin 540672 => tgt x0 n = p ∧ src x0 n = k),
          val_main_v22 (F := Ideal) x0 (ix1 n) * val_main_v30 (F := Ideal) x0 (ix1 n) := by
  unfold Cert.KernelIdeal.Adj.adjacency
  exact Cert.AggOps.adj_read _ _ _ _ (word x0 1) (word x0 0) (colTgt_apply x0 h) (colSrc_apply x0 h)
    (word_inRange h 1) (word_inRange h 0) p k

/-- First layer: the update row of edge n, in column l, is the edge's weight times the source's transformed row. -/
theorem upd1_read (h : ∀ i, InRange (x0 i)) (n : Fin 540672) (l : Fin 256) :
    val_main_v42 (F := Ideal) x0 x2 x5 (ix2 n l)
      = (val_main_v22 (F := Ideal) x0 (ix1 n) * val_main_v30 (F := Ideal) x0 (ix1 n))
          * val_main_v32 (F := Ideal) x2 x5 (ix2 (src x0 n) l) := by
  refine (upd1_apply x0 x2 x5 n l).trans ?_
  rw [norm_apply]
  exact congrArg (fun t : EReal => (val_main_v22 (F := Ideal) x0 (ix1 n) * val_main_v30 (F := Ideal) x0 (ix1 n)) * t)
    (Cert.AggOps.gather_read (val_main_v32 (F := Ideal) x2 x5) (val_main_v39 (F := Ideal) x0) (word x0 0)
      (gathIdx_apply x0 h) (word_inRange h 0) n l)

/-- The first layer's accumulated rows at (p, q). -/
theorem ref_agg1 (h : ∀ i, InRange (x0 i)) (p : Fin 16384) (q : Fin 256) :
    val_main_v45 (F := Ideal) x0 x2 x5 (ix2 p q)
      = 0 + ∑ n ∈ Finset.univ.filter (fun n : Fin 540672 => tgt x0 n = p),
          (val_main_v22 (F := Ideal) x0 (ix1 n) * val_main_v30 (F := Ideal) x0 (ix1 n))
            * val_main_v32 (F := Ideal) x2 x5 (ix2 (src x0 n) q) := by
  unfold val_main_v45
  exact Cert.AggOps.agg_read _ _ _ (word x0 1) (scatIdx_apply x0) (word_inRange h 1) zero43 _
    (upd1_read x0 x2 x5 h) p q

/-- Second layer: the update row of edge n, in column l, is the same weight times the source's row of the second
    transformed array. -/
theorem upd2_read (h : ∀ i, InRange (x0 i)) (n : Fin 540672) (l : Fin 256) :
    val_main_v88 (F := Ideal) x0 x2 x5 x6 x7 (ix2 n l)
      = (val_main_v22 (F := Ideal) x0 (ix1 n) * val_main_v30 (F := Ideal) x0 (ix1 n))
          * val_main_v78 (F := Ideal) x0 x2 x5 x6 x7 (ix2 (src x0 n) l) := by
  refine (upd2_apply x0 x2 x5 x6 x7 n l).trans ?_
  rw [norm2_eq, norm_apply]
  exact congrArg (fun t : EReal => (val_main_v22 (F := Ideal) x0 (ix1 n) * val_main_v30 (F := Ideal) x0 (ix1 n)) * t)
    (Cert.AggOps.gather_read (val_main_v78 (F := Ideal) x0 x2 x5 x6 x7) (val_main_v85 (F := Ideal) x0) (word x0 0)
      (fun m => (congrFun (gathIdx2_eq x0) (ix2 m 0)).trans (gathIdx_apply x0 h m)) (word_inRange h 0) n l)

/-- The second layer's accumulated rows at (p, q). -/
theorem ref_agg2 (h : ∀ i, InRange (x0 i)) (p : Fin 16384) (q : Fin 256) :
    val_main_v91 (F := Ideal) x0 x2 x5 x6 x7 (ix2 p q)
      = 0 + ∑ n ∈ Finset.univ.filter (fun n : Fin 540672 => tgt x0 n = p),
          (val_main_v22 (F := Ideal) x0 (ix1 n) * val_main_v30 (F := Ideal) x0 (ix1 n))
            * val_main_v78 (F := Ideal) x0 x2 x5 x6 x7 (ix2 (src x0 n) q) := by
  unfold val_main_v91
  exact Cert.AggOps.agg_read _ _ _ (word x0 1)
    (fun m => (congrFun (scatIdx2_eq x0) (ix2 m 0)).trans (scatIdx_apply x0 m)) (word_inRange h 1) zero89 _
    (upd2_read x0 x2 x5 x6 x7 h) p q

end Cert.AggReads

end
-- ==== Proof.Core.lean ====
import proofs.«107804_j58506044506600_1_alg».proof.Proof.Gen.KernelIdeal.Frame
import proofs.«107804_j58506044506600_1_alg».proof.Proof.RefStages
import proofs.«107804_j58506044506600_1_alg».proof.Proof.KernelPeel
import proofs.«107804_j58506044506600_1_alg».proof.Proof.KernelAdj
import proofs.«107804_j58506044506600_1_alg».proof.Proof.RegionLinear0
import proofs.«107804_j58506044506600_1_alg».proof.Proof.RegionLinear2
import proofs.«107804_j58506044506600_1_alg».proof.Proof.RegionAgg1
import proofs.«107804_j58506044506600_1_alg».proof.Proof.RegionAgg3
import proofs.«107804_j58506044506600_1_alg».proof.Proof.AggReads
import proofs.«107804_j58506044506600_1_alg».proof.Proof.RefReads
import proofs.«107804_j58506044506600_1_alg».proof.Proof.RefWeights
import proofs.«107804_j58506044506600_1_alg».proof.Proof.Algebra
import proofs.«107804_j58506044506600_1_alg».proof.Proof.EdgeRows
import Idealize.ShloMosaic.Lib.Pipeline.Value
import Idealize.ShloMosaic.Lib.ValueIdx

/-! The two graph-convolution layers, kernel against reference, entry by entry.

    The kernel contracts the dense adjacency `A` with `xw`: `∑ₖ A[p,k] · xw[k,q]`, where
    `A[p,k] = ∑ {w n | edge n has target p and source k}`. The reference sums, over the edges `n` with
    target `p`, the weight `w n` times row `source n` of `xw`. Regrouping the reference's sum by the
    source row gives the kernel's; multiplying a sum of weights by an entry term by term needs every weight
    and every entry to be a real number, which finite inputs give layer after layer (a degree's inverse
    square root, guarded, is always real). -/

set_option maxRecDepth 16384

noncomputable section

namespace Cert.Core

open Cert.KernelIdeal Cert.KernelIdeal.Gen Cert.KernelIdeal.Facts
open Idealize.ShloMosaic Idealize.ShloMosaic.TcCoe Idealize.ShloMosaic.ValueIdx Idealize.SL.Sem
open Cert.Rows Cert.EdgeRows

local notation "rv22" => Cert.ReferenceIdeal.Read.val_main_v22 (F := Ideal)
local notation "rv30" => Cert.ReferenceIdeal.Read.val_main_v30 (F := Ideal)
local notation "rv32" => Cert.ReferenceIdeal.Read.val_main_v32 (F := Ideal)
local notation "rv45" => Cert.ReferenceIdeal.Read.val_main_v45 (F := Ideal)
local notation "rv49" => Cert.ReferenceIdeal.Read.val_main_v49 (F := Ideal)
local notation "rv78" => Cert.ReferenceIdeal.Read.val_main_v78 (F := Ideal)
local notation "rv91" => Cert.ReferenceIdeal.Read.val_main_v91 (F := Ideal)
local notation "rv94" => Cert.ReferenceIdeal.Read.val_main_v94 (F := Ideal)

variable (m : (ℓ : Loc nD τ sig) → Buf (Elt Ideal) ℓ) (ρ : Dev nD → PrngReg) (c : Dev nD)

/-- The argument arrays, at their plain function types. -/
abbrev edges : IVec S2x524288 32 := m ((c : Thread nD τ).loc main_arg0)
abbrev feats : FVec Ideal S16384x256 .f32 := m ((c : Thread nD τ).loc main_arg2)
abbrev w1 : FVec Ideal S256x256 .f32 := m ((c : Thread nD τ).loc main_arg5)
abbrev b1 : FVec Ideal S256 .f32 := m ((c : Thread nD τ).loc main_arg6)
abbrev w2 : FVec Ideal S256x256 .f32 := m ((c : Thread nD τ).loc main_arg7)
abbrev b2 : FVec Ideal S256 .f32 := m ((c : Thread nD τ).loc main_arg8)

/-- A bias reshaped to one row, read at a lane. -/
theorem bias_apply (x : FVec Ideal S256 .f32) (q : Fin 256) :
    shapeCast S1x256 x shapeCasts_S256_S1x256 (ix2 (0 : Fin 1) q) = x (ix1 q) := by
  refine (shapeCast_addUnit_apply ![256] x shapeCasts_S256_S1x256 (ix2 (0 : Fin 1) q)).trans ?_
  refine congrArg x ?_
  funext a
  match a with
  | ⟨0, _⟩ => rfl

/-- An edge weight is a real number. -/
theorem weight_real (x0 : IVec S2x524288 32) (n : Fin 540672) :
    ∃ r : ℝ, rv22 x0 (ix1 n) * rv30 x0 (ix1 n) = (r : EReal) :=
  Cert.Algebra.real_mul (Cert.RefWeights.gath22_real x0 n) (Cert.RefWeights.gath30_real x0 n)

section Layers

variable (h0 : ∀ i, InRange (edges m c i))
  (h2 : ∀ i, ∃ r : ℝ, feats m c i = (r : EReal)) (h5 : ∀ i, ∃ r : ℝ, w1 m c i = (r : EReal))
  (h6 : ∀ i, ∃ r : ℝ, b1 m c i = (r : EReal)) (h7 : ∀ i, ∃ r : ℝ, w2 m c i = (r : EReal))
  (h8 : ∀ i, ∃ r : ℝ, b2 m c i = (r : EReal))

/-! ## First layer -/

/-- Region 0's output is the reference's `features · W1`. -/
theorem xw1_eq (k : Fin 16384) (q : Fin 256) :
    @Eq EReal (W4 (F := Ideal) m ρ c (Proc.devRef .tc main_v49) (ix2 k q)) (rv32 (feats m c) (w1 m c) (ix2 k q)) := by
  refine (congrArg (fun f => f (ix2 k q)) (Cert.KernelIdeal.Peel.out0 m ρ c)).trans ?_
  refine (Cert.KernelIdeal.RegionValue.final0_of (V3 m ρ) c _ _ (Cert.KernelIdeal.Peel.in0_x m ρ c)
    (Cert.KernelIdeal.Peel.in0_w m ρ c) k q).trans ?_
  exact (Cert.RefReads.dot32 (feats m c) (w1 m c) k q).symm

include h2 h5 in
theorem xw1_real (k : Fin 16384) (q : Fin 256) : ∃ r : ℝ, rv32 (feats m c) (w1 m c) (ix2 k q) = (r : EReal) := by
  rw [Cert.RefReads.dot32]
  exact Cert.Algebra.real_sum_mul _ _ (fun l => h2 _) (fun l => h5 _)

include h0 h2 h5 in
/-- The first aggregation: the kernel's dense contraction is the reference's sum over edges. -/
theorem agg1_eq (p : Fin 16384) (q : Fin 256) :
    (∑ k : Fin 16384, Cert.KernelIdeal.Adj.adjacency (edges m c) (ix2 p k) * rv32 (feats m c) (w1 m c) (ix2 k q))
      = rv45 (edges m c) (feats m c) (w1 m c) (ix2 p q) := by
  rw [Cert.AggReads.ref_agg1 (edges m c) (feats m c) (w1 m c) h0]
  refine Eq.trans (Finset.sum_congr rfl fun k _ => ?_)
    (Cert.Algebra.dense_eq_sparse (fun n => tgt (edges m c) n = p) (src (edges m c))
      (fun n => rv22 (edges m c) (ix1 n) * rv30 (edges m c) (ix1 n)) (fun k => rv32 (feats m c) (w1 m c) (ix2 k q))
      (weight_real (edges m c)) (fun k => xw1_real m c h2 h5 k q))
  rw [Cert.AggReads.adj_apply (edges m c) h0 p k]

include h0 h2 h5 in
/-- Region 1's output is the reference's hidden layer. -/
theorem h1_eq (p : Fin 16384) (q : Fin 256) :
    @Eq EReal (W6 (F := Ideal) m ρ c (Proc.devRef .tc main_v52) (ix2 p q))
      (rv49 (edges m c) (feats m c) (w1 m c) (b1 m c) (ix2 p q)) := by
  refine (congrArg (fun f => f (ix2 p q)) (Cert.KernelIdeal.Peel.out1 m ρ c)).trans ?_
  refine (Cert.KernelIdeal.RegionValue.final1_of (V5 m ρ) c _ _ _
    ((Cert.KernelIdeal.Peel.in1_a m ρ c).trans (Cert.KernelIdeal.Adj.adj_eq m ρ c))
    (Cert.KernelIdeal.Peel.in1_xw m ρ c) (Cert.KernelIdeal.Peel.in1_b m ρ c) p q).trans ?_
  rw [Cert.RefReads.h1_apply]
  refine congrArg₂ (fun u v : EReal => max (u + v) 0) ?_ (bias_apply (b1 m c) q)
  refine Eq.trans (Finset.sum_congr rfl fun k _ => ?_) (agg1_eq m c h0 h2 h5 p q)
  exact congrArg (fun u : EReal => Cert.KernelIdeal.Adj.adjacency (edges m c) (ix2 p k) * u) (xw1_eq m ρ c k q)

include h0 h2 h5 h6 in
theorem h1_real (p : Fin 16384) (q : Fin 256) :
    ∃ r : ℝ, rv49 (edges m c) (feats m c) (w1 m c) (b1 m c) (ix2 p q) = (r : EReal) := by
  rw [Cert.RefReads.h1_apply, Cert.AggReads.ref_agg1 (edges m c) (feats m c) (w1 m c) h0]
  refine Cert.Algebra.real_max_zero (Cert.Algebra.real_add (Cert.Algebra.real_add Cert.Algebra.real_zero
    (Cert.Algebra.real_sum _ _ fun n => Cert.Algebra.real_mul (weight_real (edges m c) n) (xw1_real m c h2 h5 _ q))) (h6 _))

/-! ## Second layer -/

include h0 h2 h5 in
/-- Region 2's output is the reference's `h1 · W2`. -/
theorem xw2_eq (k : Fin 16384) (q : Fin 256) :
    @Eq EReal (W8 (F := Ideal) m ρ c (Proc.devRef .tc main_v55) (ix2 k q))
      (rv78 (edges m c) (feats m c) (w1 m c) (b1 m c) (w2 m c) (ix2 k q)) := by
  refine (congrArg (fun f => f (ix2 k q)) (Cert.KernelIdeal.Peel.out2 m ρ c)).trans ?_
  refine (Cert.KernelIdeal.RegionValue.final2_of (V7 m ρ) c _ _ (Cert.KernelIdeal.Peel.in2_h m ρ c)
    (Cert.KernelIdeal.Peel.in2_w m ρ c) k q).trans ?_
  refine Eq.trans ?_ (Cert.RefReads.dot78 (edges m c) (feats m c) (w1 m c) (b1 m c) (w2 m c) k q).symm
  exact Finset.sum_congr (M := EReal) rfl fun l _ =>
    congrArg (fun u : EReal => u * w2 m c (ix2 l q)) (h1_eq m ρ c h0 h2 h5 k l)

include h0 h2 h5 h6 h7 in
theorem xw2_real (k : Fin 16384) (q : Fin 256) :
    ∃ r : ℝ, rv78 (edges m c) (feats m c) (w1 m c) (b1 m c) (w2 m c) (ix2 k q) = (r : EReal) := by
  rw [Cert.RefReads.dot78]
  exact Cert.Algebra.real_sum_mul _ _ (fun l => h1_real m c h0 h2 h5 h6 k l) (fun l => h7 _)

include h0 h2 h5 h6 h7 in
/-- The second aggregation. -/
theorem agg2_eq (p : Fin 16384) (q : Fin 256) :
    (∑ k : Fin 16384, Cert.KernelIdeal.Adj.adjacency (edges m c) (ix2 p k)
        * rv78 (edges m c) (feats m c) (w1 m c) (b1 m c) (w2 m c) (ix2 k q))
      = rv91 (edges m c) (feats m c) (w1 m c) (b1 m c) (w2 m c) (ix2 p q) := by
  rw [Cert.AggReads.ref_agg2 (edges m c) (feats m c) (w1 m c) (b1 m c) (w2 m c) h0]
  refine Eq.trans (Finset.sum_congr rfl fun k _ => ?_)
    (Cert.Algebra.dense_eq_sparse (fun n => tgt (edges m c) n = p) (src (edges m c))
      (fun n => rv22 (edges m c) (ix1 n) * rv30 (edges m c) (ix1 n))
      (fun k => rv78 (edges m c) (feats m c) (w1 m c) (b1 m c) (w2 m c) (ix2 k q))
      (weight_real (edges m c)) (fun k => xw2_real m c h0 h2 h5 h6 h7 k q))
  rw [Cert.AggReads.adj_apply (edges m c) h0 p k]

include h0 h2 h5 h6 h7 in
/-- Region 3's output is the reference's second layer. -/
theorem h2_eq (p : Fin 16384) (q : Fin 256) :
    @Eq EReal (W10 (F := Ideal) m ρ c (Proc.devRef .tc main_v58) (ix2 p q))
      (rv94 (edges m c) (feats m c) (w1 m c) (b1 m c) (w2 m c) (b2 m c) (ix2 p q)) := by
  refine (congrArg (fun f => f (ix2 p q)) (Cert.KernelIdeal.Peel.out3 m ρ c)).trans ?_
  refine (Cert.KernelIdeal.RegionValue.final3_of (V9 m ρ) c _ _ _
    ((Cert.KernelIdeal.Peel.in3_a m ρ c).trans (Cert.KernelIdeal.Adj.adj_eq m ρ c))
    (Cert.KernelIdeal.Peel.in3_xw m ρ c) (Cert.KernelIdeal.Peel.in3_b m ρ c) p q).trans ?_
  rw [Cert.RefReads.h2_apply]
  refine congrArg₂ (fun u v : EReal => u + v) ?_ (bias_apply (b2 m c) q)
  refine Eq.trans (Finset.sum_congr rfl fun k _ => ?_) (agg2_eq m c h0 h2 h5 h6 h7 p q)
  exact congrArg (fun u : EReal => Cert.KernelIdeal.Adj.adjacency (edges m c) (ix2 p k) * u) (xw2_eq m ρ c h0 h2 h5 k q)

include h0 h2 h5 h6 h7 in
/-- The second layer's array, whole. -/
theorem h2_fun :
    W10 (F := Ideal) m ρ c (Proc.devRef .tc main_v58)
      = rv94 (edges m c) (feats m c) (w1 m c) (b1 m c) (w2 m c) (b2 m c) := by
  funext i
  obtain ⟨p, q, rfl⟩ : ∃ (p : Fin 16384) (q : Fin 256), i = ix2 p q := ⟨i 0, i 1, eq_ix2 i⟩
  exact h2_eq m ρ c h0 h2 h5 h6 h7 p q

end Layers

end Cert.Core

end
-- ==== Proof.RegionOut4.lean ====
import proofs.«107804_j58506044506600_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The block offsets of a whole-buffer access are all zero. -/
theorem out4_zero_offsets : (![0, 0] : Fin 2 → Nat) = fun _ => 0 := funext fun a => by fin_cases a <;> rfl

/-- The left operand's row coordinate is the output's row. -/
theorem out4_lhs_row (i : S2048x40.Idx) (r : dot_S2048x256_S256x40_S2048x40_1_0_0_1_n_n.contr.Idx) :
    (dot_S2048x256_S256x40_S2048x40_1_0_0_1_n_n.lhsIdx i r 0).val = (i 0).val := by
  unfold DotDims.lhsIdx
  rw [dif_neg (show ¬(0 : Fin S2048x256.rank) ∈ dot_S2048x256_S256x40_S2048x40_1_0_0_1_n_n.lhsBatch by decide), dif_pos (show (0 : Fin S2048x256.rank) ∈ dot_S2048x256_S256x40_S2048x40_1_0_0_1_n_n.lhsNonContracting by decide)]
  rfl
/-- The left operand's column coordinate is the contracted one. -/
theorem out4_lhs_col (i : S2048x40.Idx) (r : dot_S2048x256_S256x40_S2048x40_1_0_0_1_n_n.contr.Idx) :
    (dot_S2048x256_S256x40_S2048x40_1_0_0_1_n_n.lhsIdx i r 1).val = (r ⟨0, by decide⟩).val :=
  dot_S2048x256_S256x40_S2048x40_1_0_0_1_n_n.lhsIdx_val_of_single rfl i r
/-- The right operand's row coordinate is the contracted one. -/
theorem out4_rhs_row (i : S2048x40.Idx) (r : dot_S2048x256_S256x40_S2048x40_1_0_0_1_n_n.contr.Idx) :
    (dot_S2048x256_S256x40_S2048x40_1_0_0_1_n_n.rhsIdx i r 0).val = (r ⟨0, by decide⟩).val :=
  dot_S2048x256_S256x40_S2048x40_1_0_0_1_n_n.rhsIdx_val_of_single rfl i r
/-- The right operand's column coordinate is the output's column. -/
theorem out4_rhs_col (i : S2048x40.Idx) (r : dot_S2048x256_S256x40_S2048x40_1_0_0_1_n_n.contr.Idx) :
    (dot_S2048x256_S256x40_S2048x40_1_0_0_1_n_n.rhsIdx i r 1).val = (i 1).val := by
  unfold DotDims.rhsIdx
  rw [dif_neg (show ¬(1 : Fin S256x40.rank) ∈ dot_S2048x256_S256x40_S2048x40_1_0_0_1_n_n.rhsBatch by decide), dif_pos (show (1 : Fin S256x40.rank) ∈ dot_S2048x256_S256x40_S2048x40_1_0_0_1_n_n.rhsNonContracting by decide)]
  rfl

/-- The matrix product into the zero splat, at row `p`, column `q` of the block: the sum over the 256 contracted
    coordinates of the left block at (p, k) times the right block at (k, q). -/
theorem out4_matmul_apply (x0 : Vec Ideal S2048x256 .bf16) (x1 : Vec Ideal S256x40 .bf16) (p : Fin 2048) (q : Fin 40) :
    FloatOps.matmul (F := Ideal) (φ₁ := .bf16) (φ₂ := .bf16) dot_S2048x256_S256x40_S2048x40_1_0_0_1_n_n none x0 x1 (constant (F := Ideal) S2048x40 .f32 0x00000000#32) (ix2 p q)
      = ∑ k : Fin 256, x0 (ix2 p k) * x1 (ix2 k q) := by
  refine (Ideal.matmul_constant_zero_apply (φ₁ := .bf16) (φ₂ := .bf16) dot_S2048x256_S256x40_S2048x40_1_0_0_1_n_n none x0 x1 (ix2 p q)).trans ?_
  rw [← Equiv.sum_comp (contrEquiv1 dot_S2048x256_S256x40_S2048x40_1_0_0_1_n_n 256 rfl rfl).symm]
  refine Finset.sum_congr rfl fun k _ => ?_
  have hk := contrEquiv1_symm_val dot_S2048x256_S256x40_S2048x40_1_0_0_1_n_n 256 rfl rfl k
  have el : dot_S2048x256_S256x40_S2048x40_1_0_0_1_n_n.lhsIdx (ix2 p q) ((contrEquiv1 dot_S2048x256_S256x40_S2048x40_1_0_0_1_n_n 256 rfl rfl).symm k) = ix2 p k :=
    funext fun a => Fin.ext (by
      match a with
      | ⟨0, _⟩ => exact out4_lhs_row _ _
      | ⟨1, _⟩ => exact (out4_lhs_col _ _).trans hk)
  have er : dot_S2048x256_S256x40_S2048x40_1_0_0_1_n_n.rhsIdx (ix2 p q) ((contrEquiv1 dot_S2048x256_S256x40_S2048x40_1_0_0_1_n_n 256 rfl rfl).symm k) = ix2 k q :=
    funext fun a => Fin.ext (by
      match a with
      | ⟨0, _⟩ => exact (out4_rhs_row _ _).trans hk
      | ⟨1, _⟩ => exact out4_rhs_col _ _)
  rw [el, er]

/-- The one-row bias broadcast down the 2048 rows reads, at (p, q), the bias at (0, q). -/
theorem out4_bias_apply (x2 : Vec Ideal S1x40 .f32) (p : Fin 2048) (q : Fin 40) :
    broadcastTo S2048x40 x2 broadcasts_S1x40_S2048x40 (ix2 p q) = x2 (ix2 (0 : Fin 1) q) :=
  broadcastTo_apply x2 broadcasts_S1x40_S2048x40 (ix2 p q) (ix2 (0 : Fin 1) q) (fun a => by
    match a with
    | ⟨0, _⟩ => rfl
    | ⟨1, _⟩ => rfl)

/-- The body's stored value at row `p`, column `q` of its block: the product's entry plus the bias of column `q`. -/
theorem out4_payload_apply (x0 : Vec Ideal S2048x256 .bf16) (x1 : Vec Ideal S256x40 .bf16) (x2 : Vec Ideal S1x40 .f32) (p : Fin 2048) (q : Fin 40) :
    k4_pay1 (F := Ideal) x0 x1 x2 (ix2 p q) = (∑ k : Fin 256, x0 (ix2 p k) * x1 (ix2 k q)) + x2 (ix2 (0 : Fin 1) q) := by
  unfold k4_pay1
  rw [shapeCast_self, shapeCast_self, shapeCast_self]
  simp only [matmul]
  exact congrArg₂ (· + ·) (out4_matmul_apply x0 x1 p q) (out4_bias_apply x2 p q)

variable (V : (c : Dev nD) → (b : Ref sig .tc) → Buf (Elt Ideal) ((c : Thread nD τ).loc b))

/-- The four windows' arrays are the converted left operand, the converted weights, the reshaped bias and the call's result. -/
theorem arr4_0 : Pipeline.arrRef spec4 0 = main_v69 := rfl
theorem arr4_1 : Pipeline.arrRef spec4 1 = main_v70 := rfl
theorem arr4_2 : Pipeline.arrRef spec4 2 = main_v71 := rfl
theorem arr4_3 : Pipeline.arrRef spec4 3 = main_v72 := rfl

/-- The product of a 16384×256 array with a 256×40 array plus a one-row bias added to every row, entry by entry. -/
abbrev affine4 (a : S16384x256.Idx → EReal) (b : S256x40.Idx → EReal) (d : S1x40.Idx → EReal) : S16384x40.Idx → EReal :=
  fun i => (∑ k : Fin 256, a (ix2 (⟨(i 0).val, idx2_lt0 i⟩ : Fin 16384) k) * b (ix2 k (⟨(i 1).val, idx2_lt1 i⟩ : Fin 40)))
    + d (ix2 (0 : Fin 1) (⟨(i 1).val, idx2_lt1 i⟩ : Fin 40))

/-- The printed index maps over the eight grid points: the left operand's row block moves with the output's, which is the
    point's number; every other block index is zero. -/
theorem out4_index_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (1 : Fin 2) = 0
    ∧ win4_3.index t (0 : Fin 2) = t.val :=
  (by decide +kernel : ∀ t : Fin grid4.N, _)

/-- What point `t` writes back is block `t` of the product plus bias of the three arrays as the region finds them. -/
theorem out4_flushed_eq (c : Dev nD) (X : S16384x256.Idx → EReal) (W : S256x40.Idx → EReal) (B : S1x40.Idx → EReal)
    (hX : V c main_v69 = X) (hW : V c main_v70 = W) (hB : V c main_v71 = B) (t : Fin cfg4.N) :
    (dat4 (F := Ideal) V c).flushed 3 t = ((cfg4.win 3).blk t).view.read (Elt Ideal) (affine4 X W B) := by
  show (cfg4.win 3).cut (grid4.coords t) ((dat4 V c).after 3 t) = _
  rw [after4_3]
  unfold out4_3
  rw [View.canon_unit_zero out4_zero_offsets]
  simp only [View.ld_unit_zero (S := S2048x256) out4_zero_offsets, View.ld_unit_zero (S := S256x40) out4_zero_offsets,
    View.ld_unit_zero (S := S1x40) out4_zero_offsets]
  have hb0 : iblk4 V c 0 t = fun y => X (((cfg4.win 0).blk t).view.emb y) := by rw [← hX]; rfl
  have hb1 : iblk4 V c 1 t = fun y => W (((cfg4.win 1).blk t).view.emb y) := by rw [← hW]; rfl
  have hb2 : iblk4 V c 2 t = fun y => B (((cfg4.win 2).blk t).view.emb y) := by rw [← hB]; rfl
  rw [hb0, hb1, hb2]
  obtain ⟨e0, e1, e2, e3, e4, e5, e6, e7⟩ := out4_index_facts t
  funext j
  obtain ⟨p, q, rfl⟩ : ∃ (p : Fin 2048) (q : Fin 40), j = ix2 p q := ⟨j 0, j 1, eq_ix2 j⟩
  show k4_pay1 (F := Ideal) (fun y => X (((cfg4.win 0).blk t).view.emb y)) (fun y => W (((cfg4.win 1).blk t).view.emb y))
        (fun y => B (((cfg4.win 2).blk t).view.emb y)) (ix2 p q)
      = affine4 X W B (((cfg4.win 3).blk t).view.emb (ix2 p q))
  refine (out4_payload_apply _ _ _ p q).trans ?_
  have h2 : ((cfg4.win 2).blk t).view.emb (ix2 (0 : Fin 1) q)
      = (ix2 (0 : Fin 1) (⟨((((cfg4.win 3).blk t).view.emb (ix2 p q)) 1).val, idx2_lt1 _⟩ : Fin 40) : S1x40.Idx) := by
    funext a; apply Fin.ext
    match a with
    | ⟨0, _⟩ => show win4_2.index t (0 : Fin 2) * 1 + 1 * 0 = 0; omega
    | ⟨1, _⟩ => show win4_2.index t (1 : Fin 2) * 40 + 1 * q.val = win4_3.index t (1 : Fin 2) * 40 + 1 * q.val; omega
  show (∑ k : Fin 256, X (((cfg4.win 0).blk t).view.emb (ix2 p k)) * W (((cfg4.win 1).blk t).view.emb (ix2 k q)))
        + B (((cfg4.win 2).blk t).view.emb (ix2 (0 : Fin 1) q)) = _
  rw [h2]
  refine congrArg (· + B _) (Finset.sum_congr rfl fun k _ => ?_)
  have h0 : ((cfg4.win 0).blk t).view.emb (ix2 p k)
      = (ix2 (⟨((((cfg4.win 3).blk t).view.emb (ix2 p q)) 0).val, idx2_lt0 _⟩ : Fin 16384) k : S16384x256.Idx) := by
    funext a; apply Fin.ext
    match a with
    | ⟨0, _⟩ => show win4_0.index t (0 : Fin 2) * 2048 + 1 * p.val = win4_3.index t (0 : Fin 2) * 2048 + 1 * p.val; omega
    | ⟨1, _⟩ => show win4_0.index t (1 : Fin 2) * 256 + 1 * k.val = k.val; omega
  have h1 : ((cfg4.win 1).blk t).view.emb (ix2 k q)
      = (ix2 k (⟨((((cfg4.win 3).blk t).view.emb (ix2 p q)) 1).val, idx2_lt1 _⟩ : Fin 40) : S256x40.Idx) := by
    funext a; apply Fin.ext
    match a with
    | ⟨0, _⟩ => show win4_1.index t (0 : Fin 2) * 256 + 1 * k.val = k.val; omega
    | ⟨1, _⟩ => show win4_1.index t (1 : Fin 2) * 40 + 1 * q.val = win4_3.index t (1 : Fin 2) * 40 + 1 * q.val; omega
  rw [h0, h1]

/-- An index of the result array is in point `t`'s block iff each coordinate is in the block's range on its axis. -/
theorem out4_mem_block (t : Fin cfg4.N) (i : S16384x40.Idx) :
    i ∈ ((cfg4.win 3).blk t).view.set ↔ ∀ a : Fin 2, win4_3.index t a * S2048x40.size a ≤ (i a).val ∧ (i a).val < win4_3.index t a * S2048x40.size a + S2048x40.size a := by
  show i ∈ ((View.whole main_v72).slice (win4_3.rect t)).set ↔ _
  rw [View.set_slice_whole, Rect.mem_set_unit]
  exact Iff.rfl

/-- Every entry of the result array lies in the block of the point numbered by its row's quotient by 2048. -/
theorem out4_cover (i : S16384x40.Idx) :
    ∃ t : Fin cfg4.N, (cfg4.win 3).flush t = true ∧ i ∈ ((cfg4.win 3).blk t).view.set := by
  have hi0 : (i 0).val < 16384 := idx2_lt0 i
  have hi1 : (i 1).val < 40 := idx2_lt1 i
  have hN : cfg4.N = 8 := N_4
  obtain ⟨t, ht⟩ : ∃ t : Fin cfg4.N, t.val = (i 0).val / 2048 := ⟨⟨(i 0).val / 2048, by rw [hN]; omega⟩, rfl⟩
  obtain ⟨-, -, -, -, -, -, e6, e7⟩ := out4_index_facts t
  refine ⟨t, flush4_3 t, ?_⟩
  rw [out4_mem_block]
  intro a
  match a with
  | ⟨0, _⟩ => show win4_3.index t (0 : Fin 2) * 2048 ≤ (i 0).val ∧ (i 0).val < win4_3.index t (0 : Fin 2) * 2048 + 2048; omega
  | ⟨1, _⟩ => show win4_3.index t (1 : Fin 2) * 40 ≤ (i 1).val ∧ (i 1).val < win4_3.index t (1 : Fin 2) * 40 + 40; omega

/-- The result array after the region is the product plus bias of the three arrays as the region finds them. -/
theorem out4_final (c : Dev nD) (X : S16384x256.Idx → EReal) (W : S256x40.Idx → EReal) (B : S1x40.Idx → EReal)
    (hX : V c main_v69 = X) (hW : V c main_v70 = W) (hB : V c main_v71 = B) :
    (dat4 (F := Ideal) V c).arrAt 3 cfg4.N = affine4 X W B :=
  (dat4 V c).arrAt_eq_of_cover 3 (affine4 X W B) (fun t _ => out4_flushed_eq V c X W B hX hW hB t) out4_cover

/-- Entry by entry: row `p`, column `q` of the result is the sum over `k` of the left array at (p, k) times the weights
    at (k, q), plus the bias at (0, q). -/
theorem final4_of (c : Dev nD) (X : S16384x256.Idx → EReal) (W : S256x40.Idx → EReal) (B : S1x40.Idx → EReal)
    (hX : V c main_v69 = X) (hW : V c main_v70 = W) (hB : V c main_v71 = B) (p : Fin 16384) (q : Fin 40) :
    (dat4 (F := Ideal) V c).arrAt 3 cfg4.N (ix2 p q) = (∑ k : Fin 256, X (ix2 p k) * W (ix2 k q)) + B (ix2 (0 : Fin 1) q) :=
  congrFun (out4_final V c X W B hX hW hB) (ix2 p q)

end Cert.KernelIdeal.RegionValue
end
-- ==== Proof.OutputCore.lean ====
import proofs.«107804_j58506044506600_1_alg».proof.Proof.Gen.KernelIdeal.Frame
import proofs.«107804_j58506044506600_1_alg».proof.Proof.RefStages
import proofs.«107804_j58506044506600_1_alg».proof.Proof.KernelTailWalk
import proofs.«107804_j58506044506600_1_alg».proof.Proof.KernelTailRep
import proofs.«107804_j58506044506600_1_alg».proof.Proof.RegionOut4
import proofs.«107804_j58506044506600_1_alg».proof.Proof.RefReads
import proofs.«107804_j58506044506600_1_alg».proof.Proof.Core
import Idealize.ShloMosaic.Lib.Pipeline.Value
import Idealize.ShloMosaic.Lib.ValueIdx

/-! The output projection `y = rep · Wy + by`: the kernel's last matmul region against the reference's dot
    product and bias broadcast. Both are, entry by entry, `∑ₖ rep[p,k] · Wy[k,q] + by[q]`; no finiteness is
    involved, only that the region finds in its first input array the same `rep` the reference has. -/

set_option maxRecDepth 16384

noncomputable section

namespace Cert.Core

open Cert.KernelIdeal Cert.KernelIdeal.Gen Cert.KernelIdeal.Facts
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A change of float format is the identity on extended reals, entry by entry. -/
theorem truncf_ideal_apply {s : Shape} {φ : FTy} (ψ : FTy) (x : FVec Ideal s φ) (h : ψ.bits < φ.bits) (i : s.Idx) :
    @Eq EReal (truncf (F := Ideal) ψ x h i) (x i) := rfl

/-- The output bias reshaped to one row, read at a lane. -/
theorem bias40_apply (x : FVec Ideal S40 .f32) (q : Fin 40) :
    shapeCast S1x40 x shapeCasts_S40_S1x40 (ix2 (0 : Fin 1) q) = x (ix1 q) := by
  refine (shapeCast_addUnit_apply ![40] x shapeCasts_S40_S1x40 (ix2 (0 : Fin 1) q)).trans ?_
  refine congrArg x ?_
  funext a
  match a with
  | ⟨0, _⟩ => rfl

local notation "rv104" => Cert.ReferenceIdeal.Read.val_main_v104 (F := Ideal)
local notation "rv108" => Cert.ReferenceIdeal.Read.val_main_v108 (F := Ideal)

/-- The last two argument arrays, at their plain function types. -/
abbrev wy : FVec Ideal S256x40 .f32 := m ((c : Thread nD τ).loc main_arg9)
abbrev byRow : FVec Ideal S40 .f32 := m ((c : Thread nD τ).loc main_arg10)

/-- Region 4's output is the reference's `rep · Wy + by`, given that the region finds the reference's `rep`. -/
theorem y_eq
    (hrep : W14 (F := Ideal) m ρ c (Proc.devRef .tc main_v68)
      = rv104 (edges m c) (feats m c) (w1 m c) (b1 m c) (w2 m c) (b2 m c))
    (p : Fin 16384) (q : Fin 40) :
    @Eq EReal (W20 (F := Ideal) m ρ c (Proc.devRef .tc main_v72) (ix2 p q))
      (rv108 (edges m c) (feats m c) (w1 m c) (b1 m c) (w2 m c) (b2 m c) (wy m c) (byRow m c) (ix2 p q)) := by
  refine (congrArg (fun f => f (ix2 p q)) (Cert.KernelIdeal.Tail.y_end m ρ c)).trans ?_
  obtain ⟨hx, hw, hb⟩ := Cert.KernelIdeal.Tail.y_inputs m ρ c hrep
  refine (Cert.KernelIdeal.RegionValue.final4_of (V14 m ρ) c _ _ _ hx hw hb p q).trans ?_
  simp only [truncf_ideal_apply]
  rw [bias40_apply, Cert.RefReads.y_apply, Cert.RefReads.dot105]

/-- The output array, whole. -/
theorem y_fun
    (hrep : W14 (F := Ideal) m ρ c (Proc.devRef .tc main_v68)
      = rv104 (edges m c) (feats m c) (w1 m c) (b1 m c) (w2 m c) (b2 m c)) :
    W20 (F := Ideal) m ρ c (Proc.devRef .tc main_v72)
      = rv108 (edges m c) (feats m c) (w1 m c) (b1 m c) (w2 m c) (b2 m c) (wy m c) (byRow m c) := by
  funext i
  obtain ⟨p, q, rfl⟩ : ∃ (p : Fin 16384) (q : Fin 40), i = ix2 p q := ⟨i 0, i 1, eq_ix2 i⟩
  exact y_eq m ρ c hrep p q

end Cert.Core

end
-- ==== Proof.lean ====
import proofs.«107804_j58506044506600_1_alg».proof.Defs
import proofs.«107804_j58506044506600_1_alg».proof.Proof.Gen.Kernel
import proofs.«107804_j58506044506600_1_alg».proof.Proof.Gen.Kernel.Frame
import proofs.«107804_j58506044506600_1_alg».proof.Proof.Gen.KernelIdeal
import proofs.«107804_j58506044506600_1_alg».proof.Proof.Gen.KernelIdeal.Frame
import proofs.«107804_j58506044506600_1_alg».proof.Proof.Gen.ReferenceIdeal
import proofs.«107804_j58506044506600_1_alg».proof.Proof.Gen.Pre_finite_inputs
import proofs.«107804_j58506044506600_1_alg».proof.Proof.RefRun
import proofs.«107804_j58506044506600_1_alg».proof.Proof.RefRead
import proofs.«107804_j58506044506600_1_alg».proof.Proof.KernelRun
import proofs.«107804_j58506044506600_1_alg».proof.Proof.KernelTail
import proofs.«107804_j58506044506600_1_alg».proof.Proof.PreFacts
import proofs.«107804_j58506044506600_1_alg».proof.Proof.Core
import proofs.«107804_j58506044506600_1_alg».proof.Proof.OutputCore
import Idealize.ShloMosaic.Adequacy
import Idealize.ShloMosaic.Init

/-! The five claims for the two-layer graph convolution with its reconstruction loss.

    Both programs compute the same degrees, inverse square roots and edge weights. The kernel scatters the
    weights into a dense adjacency and contracts it, in two matmul regions, with `X·W1` and with `h1·W2`; the
    reference gathers rows at the edges' sources, scales them by the weights and accumulates them at the
    targets. With every edge index a valid row, the two agree layer by layer (module Core): the second layer's
    array is one function of the arguments on both sides. From there on the two programs apply the same
    operations (the row normalisations, the output projection as a matmul against a dot product, the loss), so
    the three results agree. The frames are the generated ones; the reference's frame is its run with the
    results dropped. -/

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.ReferenceIdeal.Value.res_main_v104 (F := Ideal) m' c,
    fun c => Cert.ReferenceIdeal.Value.res_main_v184 (F := Ideal) m' c,
    fun c => Cert.ReferenceIdeal.Value.res_main_v108 (F := Ideal) m' c, ?_,
    Cert.ReferenceIdeal.Value.run (F := Ideal) m' ρ'⟩
  refine (θ_run Cert.KernelIdeal.defs _ _).mono (fun r h c => ?_) (Cert.KernelIdeal.RunValue.run (F := Ideal) m ρ)
  obtain ⟨r68, r148, r72, rargs⟩ := h c
  obtain ⟨g0, g1, g2, g3, g4, g5, g6, g7, g8, g9, g10⟩ := hagree c
  obtain ⟨f0, f2, f5, f6, f7, -⟩ := Cert.PreFacts.pre_facts _ _ _ _ _ _ _ _ _ _ _ (hpre c)
  have hh2 := Cert.Core.h2_fun m ρ c f0 f2 f5 f6 f7
  have hrep := Cert.KernelIdeal.Tail.rep_of_h2 m ρ c hh2
  refine ⟨?_, ?_, ?_, rargs⟩
  · show _ = Cert.ReferenceIdeal.Value.res_main_v104 (F := Ideal) m' c
    rw [r68, Cert.KernelIdeal.Tail.rep_end, hrep, Cert.ReferenceIdeal.Read.val_main_v104_eq, g0, g2, g5, g6, g7, g8]
  · show _ = Cert.ReferenceIdeal.Value.res_main_v184 (F := Ideal) m' c
    rw [r148, Cert.KernelIdeal.Tail.loss_of_rep m ρ c hrep, Cert.ReferenceIdeal.Read.val_main_v184_eq,
      g0, g1, g2, g3, g4, g5, g6, g7, g8]
  · show _ = Cert.ReferenceIdeal.Value.res_main_v108 (F := Ideal) m' c
    rw [r72, Cert.Core.y_fun m ρ c hrep, Cert.ReferenceIdeal.Read.val_main_v108_eq, g0, g2, g5, g6, g7, g8, g9, g10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
